-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x1 : Shape := ⟨2, ![1024, 1]⟩
abbrev S1024x512 : Shape := ⟨2, ![1024, 512]⟩

abbrev nBuf : Space → Nat
  | .hbm => 16
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S4096x1024, .bf16⟩
  | .hbm, ⟨11, _⟩ => ⟨S1x1024, .f32⟩
  | .hbm, ⟨12, _⟩ => ⟨S4096x1024, .bf16⟩
  | .hbm, ⟨13, _⟩ => ⟨S1x1024, .f32⟩
  | .hbm, ⟨14, _⟩ => ⟨S4096x1024, .bf16⟩
  | .hbm, ⟨15, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1, .f32⟩
  | .local _ .vmem, ⟨27, _⟩ => ⟨S1024x1, .f32⟩
  | .local _ .vmem, ⟨28, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_24 : BitVec 32 := 0#32
  let v45 : BitVec 1 := Scalar.cmpi .ne v44 c0_i32_24
  v45

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x1024.size a
  hwx3_0 : ∀ i : grid3.Coords, EltTy.bits .bf16 = 32 ∨ (Rect.block (s := S4096x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S4096x1024.size a
  hwx3_1 : ∀ i : grid3.Coords, EltTy.bits .bf16 = 32 ∨ (Rect.block (s := S4096x1024) S512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x1024.size a
  hwx3_2 : ∀ i : grid3.Coords, EltTy.bits .bf16 = 32 ∨ (Rect.block (s := S4096x1024) S512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x1024.size a
  hwx3_3 : ∀ i : grid3.Coords, EltTy.bits .f32 = 32 ∨ (Rect.block (s := S4096x1024) S1024x1024.size (cc3_transform_3 i) (hinb3_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.BitsProj0.lean ====
/-
  Pallas call 0 of the program: the linear projection of the queries (q·Wq + bq), tiled over four row blocks of 1024 rows.
  At grid point t the body reads three whole staging buffers — the row block t of the input matrix, the whole weight
  matrix and the bias row, the last two fetched once because their block index never moves — and writes the output's
  staging buffer whole with one store whose value is a pure function of those three reads (the product of the two
  matrices accumulated from zero, plus the bias row broadcast down the rows, narrowed to the output format).
  Stated here, at any float instance and for any contents V of the buffers at the region's entry: what each window's
  staging buffer holds after the body at every point, and that the body run on those buffers terminates without a fault
  and leaves exactly that.
-/
import proofs.«150159_j62277025792152_2_alg».proof.Proof.Gen.Kernel.Launch
import proofs.«150159_j62277025792152_2_alg».proof.Proof.Gen.Kernel.Skeleton
import proofs.«150159_j62277025792152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`: the rectangle of the window's array that the point's index selects,
    read off the array's contents at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was fetched at that
    point or is still there from an earlier one (the index has not moved since), provided the body leaves it in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is its whole staging buffer. -/
abbrev rM0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The output's staging buffer after the body, as a function of the three input buffers: one store covering the
    buffer, its value the body's arithmetic applied to the three reads. -/
def out0_3 (x0 : Vec F S1024x1024 .f32) (x1 : Vec F S1024x1024 .f32) (x2 : Vec F S1x1024 .f32) : Vec F S1024x1024 .bf16 :=
  View.canon [⟨rM0, k0_pay1 (View.ld x0 rM0) (View.ld x1 rM0) (View.ld x2 rB0)⟩]

/-- That one store covers the buffer. -/
theorem cover0_3 (p0 : Vec F S1024x1024 .bf16) (y : S1024x1024.Idx) :
    ∃ pc ∈ ([⟨rM0, p0⟩] : List (View.Piece (Elt F) S1024x1024 .bf16)), y ∈ pc.1.set :=
  View.cover_of_tiled [⟨rM0, p0⟩] S1024x1024.size (by rfl) y

set_option maxHeartbeats 1000000 in
/-- The body, run on whole staging buffers holding x0, x1, x2 (the output's holding anything), terminates without a
    fault, leaves the inputs as they were and the output's buffer at `out0_3 x0 x1 x2`. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer still at its block and the output's at `out0_3` of the three blocks; the invariant between points is only that
    the buffers no window stages and the generator register are there; nothing is owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.BitsProj1.lean ====
/-
  Pallas call 1 of the program: the linear projection of the keys (k·Wk + bk), tiled over four row blocks of 1024 rows.
  At grid point t the body reads three whole staging buffers — the row block t of the input matrix, the whole weight
  matrix and the bias row, the last two fetched once because their block index never moves — and writes the output's
  staging buffer whole with one store whose value is a pure function of those three reads (the product of the two
  matrices accumulated from zero, plus the bias row broadcast down the rows, narrowed to the output format).
  Stated here, at any float instance and for any contents V of the buffers at the region's entry: what each window's
  staging buffer holds after the body at every point, and that the body run on those buffers terminates without a fault
  and leaves exactly that.
-/
import proofs.«150159_j62277025792152_2_alg».proof.Proof.Gen.Kernel.Launch
import proofs.«150159_j62277025792152_2_alg».proof.Proof.Gen.Kernel.Skeleton
import proofs.«150159_j62277025792152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`: the rectangle of the window's array that the point's index selects,
    read off the array's contents at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was fetched at that
    point or is still there from an earlier one (the index has not moved since), provided the body leaves it in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each is its whole staging buffer. -/
abbrev rM1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0

/-- The output's staging buffer after the body, as a function of the three input buffers: one store covering the
    buffer, its value the body's arithmetic applied to the three reads. -/
def out1_3 (x0 : Vec F S1024x1024 .f32) (x1 : Vec F S1024x1024 .f32) (x2 : Vec F S1x1024 .f32) : Vec F S1024x1024 .bf16 :=
  View.canon [⟨rM1, k1_pay1 (View.ld x0 rM1) (View.ld x1 rM1) (View.ld x2 rB1)⟩]

/-- That one store covers the buffer. -/
theorem cover1_3 (p0 : Vec F S1024x1024 .bf16) (y : S1024x1024.Idx) :
    ∃ pc ∈ ([⟨rM1, p0⟩] : List (View.Piece (Elt F) S1024x1024 .bf16)), y ∈ pc.1.set :=
  View.cover_of_tiled [⟨rM1, p0⟩] S1024x1024.size (by rfl) y

set_option maxHeartbeats 1000000 in
/-- The body, run on whole staging buffers holding x0, x1, x2 (the output's holding anything), terminates without a
    fault, leaves the inputs as they were and the output's buffer at `out1_3 x0 x1 x2`. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer still at its block and the output's at `out1_3` of the three blocks; the invariant between points is only that
    the buffers no window stages and the generator register are there; nothing is owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.BitsProj2.lean ====
/-
  Pallas call 2 of the program: the linear projection of the values (v·Wv + bv), tiled over four row blocks of 1024 rows.
  At grid point t the body reads three whole staging buffers — the row block t of the input matrix, the whole weight
  matrix and the bias row, the last two fetched once because their block index never moves — and writes the output's
  staging buffer whole with one store whose value is a pure function of those three reads (the product of the two
  matrices accumulated from zero, plus the bias row broadcast down the rows, narrowed to the output format).
  Stated here, at any float instance and for any contents V of the buffers at the region's entry: what each window's
  staging buffer holds after the body at every point, and that the body run on those buffers terminates without a fault
  and leaves exactly that.
-/
import proofs.«150159_j62277025792152_2_alg».proof.Proof.Gen.Kernel.Launch
import proofs.«150159_j62277025792152_2_alg».proof.Proof.Gen.Kernel.Skeleton
import proofs.«150159_j62277025792152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`: the rectangle of the window's array that the point's index selects,
    read off the array's contents at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the block was fetched at that
    point or is still there from an earlier one (the index has not moved since), provided the body leaves it in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is its whole staging buffer. -/
abbrev rM2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- The output's staging buffer after the body, as a function of the three input buffers: one store covering the
    buffer, its value the body's arithmetic applied to the three reads. -/
def out2_3 (x0 : Vec F S1024x1024 .f32) (x1 : Vec F S1024x1024 .f32) (x2 : Vec F S1x1024 .f32) : Vec F S1024x1024 .bf16 :=
  View.canon [⟨rM2, k2_pay1 (View.ld x0 rM2) (View.ld x1 rM2) (View.ld x2 rB2)⟩]

/-- That one store covers the buffer. -/
theorem cover2_3 (p0 : Vec F S1024x1024 .bf16) (y : S1024x1024.Idx) :
    ∃ pc ∈ ([⟨rM2, p0⟩] : List (View.Piece (Elt F) S1024x1024 .bf16)), y ∈ pc.1.set :=
  View.cover_of_tiled [⟨rM2, p0⟩] S1024x1024.size (by rfl) y

set_option maxHeartbeats 1000000 in
/-- The body, run on whole staging buffers holding x0, x1, x2 (the output's holding anything), terminates without a
    fault, leaves the inputs as they were and the output's buffer at `out2_3 x0 x1 x2`. -/
theorem sound_kernel2 (c : Dev nD) (E : Set ℕ) (i : grid2.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer still at its block and the output's at `out2_3` of the three blocks; the invariant between points is only that
    the buffers no window stages and the generator register are there; nothing is owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.BitsAttnCases.lean ====
/-
  Pallas call 3 of the program: attention over a grid of 4 query tiles (1024 rows each) by 8 key tiles (512 rows each),
  the key axis innermost. The body keeps three buffers of its own between grid points: the running row maximum, the
  running row sum and the running weighted sum of value rows. At the first key tile of a query tile it resets them; at
  every key tile it folds the tile in; at the last key tile it divides and stores the output block, which is idle at
  the other points. Here: the two branch conditions as arithmetic on the linear point number, where the output window is
  idle, the buffers the body is handed, and the between-points invariant of the class spelled out buffer by buffer.
-/
import proofs.«150159_j62277025792152_2_alg».proof.Proof.Gen.Kernel.Launch
import proofs.«150159_j62277025792152_2_alg».proof.Proof.Gen.Kernel.Skeleton
import proofs.«150159_j62277025792152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, read off the array's contents at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, fetched there or kept from an earlier
    point at which the index was the same, provided the body leaves it in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The reset branch is taken when the key-tile coordinate is zero, -/
abbrev cond3_0 (i : grid3.Coords) : Prop := (Scalar.cmpi .ne (Scalar.extui (Scalar.cmpi .eq (BitVec.ofNat 32 (i 1).val) 0#32)) 0#32) = 1#1
/-- that is at the points whose number is a multiple of 8. -/
theorem hcond3_0 : ∀ t : Fin cfg3.N, cond3_0 (grid3.coords t) ↔ t.val % 8 = 0 :=
  (by decide +kernel : ∀ t : Fin grid3.N, cond3_0 (grid3.coords t) ↔ t.val % 8 = 0)

/-- The divide-and-store branch is taken when the key-tile coordinate is the last, -/
abbrev cond3_1 (i : grid3.Coords) : Prop := k3_cond2 i = 1#1
/-- that is at the points whose number is 7 modulo 8. -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the divide-and-store branch is not taken the output window is idle and its block is not written back; -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- where it is taken the window is live. -/
theorem liveAt3_3 : ∀ t : Fin cfg3.N, cond3_1 (grid3.coords t) → cfg3.idle 3 (grid3.coords t) = false := by decide +kernel

/-- One staging buffer of the output window, through which its contents are stated. -/
abbrev VO3_3 : View sig .tc .vmem S1024x1024 .f32 := (Memref.whole cc3_stg3_0 : Memref sig .tc .vmem S1024x1024 .f32).view
/-- Each window's current staging buffer at point `t`, as the body is handed it, and that it is a whole buffer. -/
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The three buffers the body keeps between points: the row maximum, the row sum, the weighted sum. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x1024 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x1024 .f32 := scM3_2.view

/-- The class's between-points invariant, buffer by buffer: the other calls' staging buffers at some contents, the
    three kept buffers at some contents, the generator register at some state. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

end Cert.Kernel.Frm

end
-- ==== Proof.BitsAttnRunA.lean ====
/-
  The attention body run whole at the first key tile of a query tile (the three kept buffers are reset, then the tile is folded in; the output block is left alone): on whole buffers at the stated contents it terminates without a fault, hands the
  inputs back as they were, and leaves in each buffer it stores into the pieces it wrote, last store first. The lists of
  pieces are found by running the body; they are the witness of the statement.
-/
import proofs.«150159_j62277025792152_2_alg».proof.Proof.BitsAttnCases

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun3_A (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8) K } := by
  refine ⟨[], ?_, ?_, ?_, fun xi3 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Frm

end
-- ==== Proof.BitsAttnRunB.lean ====
/-
  The attention body run whole at a key tile that is neither first nor last (the tile is folded into the three kept buffers, found at given contents; the output block is left alone): on whole buffers at the stated contents it terminates without a fault, hands the
  inputs back as they were, and leaves in each buffer it stores into the pieces it wrote, last store first. The lists of
  pieces are found by running the body; they are the witness of the statement.
-/
import proofs.«150159_j62277025792152_2_alg».proof.Proof.BitsAttnRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun3_B (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8) K } := by
  refine ⟨[], ?_, ?_, ?_, fun xi3 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Frm

end
-- ==== Proof.BitsAttnRunC.lean ====
/-
  The attention body run whole at the last key tile of a query tile (the tile is folded into the three kept buffers, found at given contents, and the quotient of the weighted sum by the row sum is stored into the output block): on whole buffers at the stated contents it terminates without a fault, hands the
  inputs back as they were, and leaves in each buffer it stores into the pieces it wrote, last store first. The lists of
  pieces are found by running the body; they are the witness of the statement.
-/
import proofs.«150159_j62277025792152_2_alg».proof.Proof.BitsAttnRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun3_C (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8) K } := by
  refine ⟨?_, ?_, ?_, ?_, fun E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Frm

end
-- ==== Proof.BitsAttn.lean ====
/-
  Pallas call 3 (attention), the rest of its half: what the output's staging buffer and the three kept buffers (row
  maximum, row sum, weighted sum) hold after every grid point, by recursion on the point number — the first key tile of
  a query tile starts afresh, every later one continues from what the point before left —; the between-points invariant
  that pins the kept buffers to exactly those contents; the pipeline's proof data; and the body obligation, by cases on
  where the point sits in its group of eight.
-/
import proofs.«150159_j62277025792152_2_alg».proof.Proof.BitsAttnRunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- In this case the stores into kept buffer 0 tile it, so they cover it. -/
theorem scover3_A_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) (y : S1024x1.Idx) :
    ∃ pc ∈ (kernelRun3_A c i arg2 harg2 arg3 harg3 arg4 harg4 arg5 harg5 arg6 harg6 arg7 harg7 arg8 harg8 hc0 hc1 x0 x1 x2).2.1, y ∈ pc.1.set :=
  View.cover_of_tiledL (kernelRun3_A c i arg2 harg2 arg3 harg3 arg4 harg4 arg5 harg5 arg6 harg6 arg7 harg7 arg8 harg8 hc0 hc1 x0 x1 x2).2.1 S1024x1.size (by sl_kernel_rfl) y
/-- What the case leaves in kept buffer 0: its pieces read back. -/
def sout3_A_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2).2.1)

/-- In this case the stores into kept buffer 1 tile it, so they cover it. -/
theorem scover3_A_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) (y : S1024x1.Idx) :
    ∃ pc ∈ (kernelRun3_A c i arg2 harg2 arg3 harg3 arg4 harg4 arg5 harg5 arg6 harg6 arg7 harg7 arg8 harg8 hc0 hc1 x0 x1 x2).2.2.1, y ∈ pc.1.set :=
  View.cover_of_tiledL (kernelRun3_A c i arg2 harg2 arg3 harg3 arg4 harg4 arg5 harg5 arg6 harg6 arg7 harg7 arg8 harg8 hc0 hc1 x0 x1 x2).2.2.1 S1024x1.size (by sl_kernel_rfl) y
/-- What the case leaves in kept buffer 1: its pieces read back. -/
def sout3_A_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1 .f32 :=
  VS3_1.read (Elt F) (VS3_1.writes (Elt F) VS3_1.junk (kernelRun3_A c i arg2 harg2 arg3 harg3 arg4 harg4 arg5 harg5 arg6 harg6 arg7 harg7 arg8 harg8 hc0 hc1 x0 x1 x2).2.2.1)

/-- In this case the stores into kept buffer 2 tile it, so they cover it. -/
theorem scover3_A_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) (y : S1024x1024.Idx) :
    ∃ pc ∈ (kernelRun3_A c i arg2 harg2 arg3 harg3 arg4 harg4 arg5 harg5 arg6 harg6 arg7 harg7 arg8 harg8 hc0 hc1 x0 x1 x2).2.2.2.1, y ∈ pc.1.set :=
  View.cover_of_tiledL (kernelRun3_A c i arg2 harg2 arg3 harg3 arg4 harg4 arg5 harg5 arg6 harg6 arg7 harg7 arg8 harg8 hc0 hc1 x0 x1 x2).2.2.2.1 S1024x1024.size (by sl_kernel_rfl) y
/-- What the case leaves in kept buffer 2: its pieces read back. -/
def sout3_A_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1024 .f32 :=
  VS3_2.read (Elt F) (VS3_2.writes (Elt F) VS3_2.junk (kernelRun3_A c i arg2 harg2 arg3 harg3 arg4 harg4 arg5 harg5 arg6 harg6 arg7 harg7 arg8 harg8 hc0 hc1 x0 x1 x2).2.2.2.1)

/-- What the case leaves in the output's staging buffer, as its pieces read back (no store in this case: a placeholder nothing consults, the window being idle and not written back). -/
def out3_A_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1024 .f32 :=
  VO3_3.read (Elt F) (VO3_3.writes (Elt F) VO3_3.junk (kernelRun3_A c i arg2 harg2 arg3 harg3 arg4 harg4 arg5 harg5 arg6 harg6 arg7 harg7 arg8 harg8 hc0 hc1 x0 x1 x2).1)

/-- In this case the stores into kept buffer 0 tile it, so they cover it. -/
theorem scover3_B_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun3_B c i arg2 harg2 arg3 harg3 arg4 harg4 arg5 harg5 arg6 harg6 arg7 harg7 arg8 harg8 hc0 hc1 x0 x1 x2 xs0 xs1 xs2).2.1 S1024x1.size (by sl_kernel_rfl) y
/-- What the case leaves in kept buffer 0: its pieces read back. -/
def sout3_B_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 xs0 xs1 xs2).2.1)

/-- In this case the stores into kept buffer 1 tile it, so they cover it. -/
theorem scover3_B_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun3_B c i arg2 harg2 arg3 harg3 arg4 harg4 arg5 harg5 arg6 harg6 arg7 harg7 arg8 harg8 hc0 hc1 x0 x1 x2 xs0 xs1 xs2).2.2.1 S1024x1.size (by sl_kernel_rfl) y
/-- What the case leaves in kept buffer 1: its pieces read back. -/
def sout3_B_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_B c i arg2 harg2 arg3 harg3 arg4 harg4 arg5 harg5 arg6 harg6 arg7 harg7 arg8 harg8 hc0 hc1 x0 x1 x2 xs0 xs1 xs2).2.2.1)

/-- In this case the stores into kept buffer 2 tile it, so they cover it. -/
theorem scover3_B_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1024.Idx) :
    ∃ pc ∈ (kernelRun3_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun3_B c i arg2 harg2 arg3 harg3 arg4 harg4 arg5 harg5 arg6 harg6 arg7 harg7 arg8 harg8 hc0 hc1 x0 x1 x2 xs0 xs1 xs2).2.2.2.1 S1024x1024.size (by sl_kernel_rfl) y
/-- What the case leaves in kept buffer 2: its pieces read back. -/
def sout3_B_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_B c i arg2 harg2 arg3 harg3 arg4 harg4 arg5 harg5 arg6 harg6 arg7 harg7 arg8 harg8 hc0 hc1 x0 x1 x2 xs0 xs1 xs2).2.2.2.1)

/-- What the case leaves in the output's staging buffer, as its pieces read back (no store in this case: a placeholder nothing consults, the window being idle and not written back). -/
def out3_B_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VO3_3.read (Elt F) (VO3_3.writes (Elt F) VO3_3.junk (kernelRun3_B c i arg2 harg2 arg3 harg3 arg4 harg4 arg5 harg5 arg6 harg6 arg7 harg7 arg8 harg8 hc0 hc1 x0 x1 x2 xs0 xs1 xs2).1)

/-- In this case the stores into kept buffer 0 tile it, so they cover it. -/
theorem scover3_C_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun3_C c i arg2 harg2 arg3 harg3 arg4 harg4 arg5 harg5 arg6 harg6 arg7 harg7 arg8 harg8 hc0 hc1 x0 x1 x2 xs0 xs1 xs2).2.1 S1024x1.size (by sl_kernel_rfl) y
/-- What the case leaves in kept buffer 0: its pieces read back. -/
def sout3_C_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 xs0 xs1 xs2).2.1)

/-- In this case the stores into kept buffer 1 tile it, so they cover it. -/
theorem scover3_C_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun3_C c i arg2 harg2 arg3 harg3 arg4 harg4 arg5 harg5 arg6 harg6 arg7 harg7 arg8 harg8 hc0 hc1 x0 x1 x2 xs0 xs1 xs2).2.2.1 S1024x1.size (by sl_kernel_rfl) y
/-- What the case leaves in kept buffer 1: its pieces read back. -/
def sout3_C_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_C c i arg2 harg2 arg3 harg3 arg4 harg4 arg5 harg5 arg6 harg6 arg7 harg7 arg8 harg8 hc0 hc1 x0 x1 x2 xs0 xs1 xs2).2.2.1)

/-- In this case the stores into kept buffer 2 tile it, so they cover it. -/
theorem scover3_C_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1024.Idx) :
    ∃ pc ∈ (kernelRun3_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun3_C c i arg2 harg2 arg3 harg3 arg4 harg4 arg5 harg5 arg6 harg6 arg7 harg7 arg8 harg8 hc0 hc1 x0 x1 x2 xs0 xs1 xs2).2.2.2.1 S1024x1024.size (by sl_kernel_rfl) y
/-- What the case leaves in kept buffer 2: its pieces read back. -/
def sout3_C_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_C c i arg2 harg2 arg3 harg3 arg4 harg4 arg5 harg5 arg6 harg6 arg7 harg7 arg8 harg8 hc0 hc1 x0 x1 x2 xs0 xs1 xs2).2.2.2.1)

/-- At the last key tile the one store into the output block covers it. -/
theorem cover3_C_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1024.Idx) :
    ∃ pc ∈ (kernelRun3_C c i arg2 harg2 arg3 harg3 arg4 harg4 arg5 harg5 arg6 harg6 arg7 harg7 arg8 harg8 hc0 hc1 x0 x1 x2 xs0 xs1 xs2).1, y ∈ pc.1.set :=
  View.cover_of_tiledL (kernelRun3_C c i arg2 harg2 arg3 harg3 arg4 harg4 arg5 harg5 arg6 harg6 arg7 harg7 arg8 harg8 hc0 hc1 x0 x1 x2 xs0 xs1 xs2).1 S1024x1024.size (by sl_kernel_rfl) y

/-- What the case leaves in the output's staging buffer, as its pieces read back. -/
def out3_C_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VO3_3.read (Elt F) (VO3_3.writes (Elt F) VO3_3.junk (kernelRun3_C c i arg2 harg2 arg3 harg3 arg4 harg4 arg5 harg5 arg6 harg6 arg7 harg7 arg8 harg8 hc0 hc1 x0 x1 x2 xs0 xs1 xs2).1)

/-- One grid point: from what the kept buffers held before it (ignored at the first key tile of a query tile, which
    resets them) to what the output's buffer and the kept buffers hold after it. -/
def stepAt3 (c : Dev nD) (t : Fin cfg3.N) (xs : Vec F S1024x1 .f32 × Vec F S1024x1 .f32 × Vec F S1024x1024 .f32) : Vec F S1024x1024 .f32 × Vec F S1024x1 .f32 × Vec F S1024x1 .f32 × Vec F S1024x1024 .f32 :=
  if h0 : t.val % 8 = 0 then
    if h1 : t.val % 8 = 7 then False.elim (by omega)
    else (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t))
  else
    if h1 : t.val % 8 = 7 then (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2)
    else (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2)

theorem stepAt3_A (c : Dev nD) (t : Fin cfg3.N) (xs : Vec F S1024x1 .f32 × Vec F S1024x1 .f32 × Vec F S1024x1024 .f32) (h0 : t.val % 8 = 0) (h1 : ¬t.val % 8 = 7) :
    stepAt3 V c t xs = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t)) := by
  unfold stepAt3; rw [dif_pos h0, dif_neg h1]
theorem stepAt3_B (c : Dev nD) (t : Fin cfg3.N) (xs : Vec F S1024x1 .f32 × Vec F S1024x1 .f32 × Vec F S1024x1024 .f32) (h0 : ¬t.val % 8 = 0) (h1 : ¬t.val % 8 = 7) :
    stepAt3 V c t xs = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2) := by
  unfold stepAt3; rw [dif_neg h0, dif_neg h1]
theorem stepAt3_C (c : Dev nD) (t : Fin cfg3.N) (xs : Vec F S1024x1 .f32 × Vec F S1024x1 .f32 × Vec F S1024x1024 .f32) (h0 : ¬t.val % 8 = 0) (h1 : t.val % 8 = 7) :
    stepAt3 V c t xs = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2) := by
  unfold stepAt3; rw [dif_neg h0, dif_pos h1]

/-- Contents that stand for "nothing yet" before the first point. -/
def scr0 : Vec F S1024x1 .f32 × Vec F S1024x1 .f32 × Vec F S1024x1024 .f32 := (VS3_0.read (Elt F) VS3_0.junk, VS3_1.read (Elt F) VS3_1.junk, VS3_2.read (Elt F) VS3_2.junk)

/-- THE ACCUMULATION over the grid: after point `n` the output's staging buffer and the three kept buffers. -/
def outsAt3 (c : Dev nD) : (n : ℕ) → n < cfg3.N → Vec F S1024x1024 .f32 × Vec F S1024x1 .f32 × Vec F S1024x1 .f32 × Vec F S1024x1024 .f32
  | 0, hn => stepAt3 V c ⟨0, hn⟩ scr0
  | n + 1, hn => stepAt3 V c ⟨n + 1, hn⟩ (outsAt3 c n (Nat.lt_of_succ_lt hn)).2

/-- After a point that is not the first: one step from what the point before left. -/
theorem outsAt3_pos (c : Dev nD) (t : Fin cfg3.N) (hz : t.val ≠ 0) :
    outsAt3 V c t.val t.isLt = stepAt3 V c t (outsAt3 V c (t.val - 1) (Nat.lt_of_le_of_lt (Nat.sub_le _ _) t.isLt)).2 := by
  obtain ⟨n, hn⟩ := t
  cases n with
  | zero => exact absurd rfl hz
  | succ n => rfl
theorem outsAt3_zero (c : Dev nD) (t : Fin cfg3.N) (hz : t.val = 0) :
    outsAt3 V c t.val t.isLt = stepAt3 V c t scr0 := by
  obtain ⟨n, hn⟩ := t
  cases n with
  | zero => rfl
  | succ n => exact absurd hz (Nat.succ_ne_zero n)

/-- The invariant before position `n`: before the first point the class's (every kept buffer at anything); afterwards the
    other calls' staging buffers at anything, each kept buffer at what the point before left in it, and the generator
    register at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ (∃ r, prngReg c r)) := rfl
theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ (∃ r, prngReg c r)) := by
  cases n with
  | zero => exact absurd rfl hz
  | succ n => rfl

/-- The pipeline's proof data on core `c`: the arrays as the region finds them; after the body at point `t` each input's
    buffer still at its block and the output's at the accumulation's first component; the invariant `PhiS3`; nothing
    owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' buffers hold their blocks. Where the point sits in its group of eight says which
    whole-body run applies. The invariant hands the body the kept buffers — at anything before the very first point, at
    what the point before left otherwise — and takes them back at this point's contents, which the run's stores cover;
    the output's buffer is handed back untouched where the window is idle, and comes back covered at the last key tile.
    The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 8 = 0
  · have h1 : ¬t.val % 8 = 7 := by omega
    rw [Dat.leavesExact_idle (dat3 V c) 3 t (idleAt3_3 t (fun h => h1 ((hcond3_1 t).mp h))) (noFlush3_3 t (fun h => h1 ((hcond3_1 t).mp h)))]
    by_cases hz : t.val = 0
    · rw [outsAt3_zero V c t hz, stepAt3_A V c t _ h0 h1]
      unfold sout3_A_0 sout3_A_1 sout3_A_2; (try dsimp only)
      rw [PhiS3_castSucc V c t, PhiS3_zero V c _ _ hz, PhiA3_eq]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_A_0 c _ _ _ _ _ _ _ _ _ _ _ _ _ _ _ _ _ _ _ _)
          isplitl [HS1]
          · unfold owns; iexists _; isplitr
            swap; · iexact HS1
            ipureintro; exact View.read_writes_of_cover _ _ _ _ _ (scover3_A_1 c _ _ _ _ _ _ _ _ _ _ _ _ _ _ _ _ _ _ _ _)
          unfold owns; iexists _; isplitr
          swap; · iexact HS2
          ipureintro; exact View.read_writes_of_cover _ _ _ _ _ (scover3_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [outsAt3_pos V c t hz, stepAt3_A V c t _ h0 h1]
      unfold sout3_A_0 sout3_A_1 sout3_A_2; (try dsimp only)
      rw [PhiS3_castSucc V c t, PhiS3_pos V c _ _ hz]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_A_0 c _ _ _ _ _ _ _ _ _ _ _ _ _ _ _ _ _ _ _ _)
          isplitl [HS1]
          · unfold owns; iexists _; isplitr
            swap; · iexact HS1
            ipureintro; exact View.read_writes_of_cover _ _ _ _ _ (scover3_A_1 c _ _ _ _ _ _ _ _ _ _ _ _ _ _ _ _ _ _ _ _)
          unfold owns; iexists _; isplitr
          swap; · iexact HS2
          ipureintro; exact View.read_writes_of_cover _ _ _ _ _ (scover3_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_pos V c t hz, stepAt3_C V c t _ h0 h1]
      unfold out3_C_3 sout3_C_0 sout3_C_1 sout3_C_2; (try dsimp only)
      rw [PhiS3_castSucc V c t, PhiS3_pos V c _ _ hz]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_C_1 c _ _ _ _ _ _ _ _ _ _ _ _ _ _ _ _ _ _ _ _ _ _ _)
          unfold owns; iexists _; isplitr
          swap; · iexact HS2
          ipureintro; exact View.read_writes_of_cover _ _ _ _ _ (scover3_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_pos V c t hz, stepAt3_B V c t _ h0 h1]
      unfold sout3_B_0 sout3_B_1 sout3_B_2; (try dsimp only)
      rw [PhiS3_castSucc V c t, PhiS3_pos V c _ _ hz]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _)
          unfold owns; iexists _; isplitr
          swap; · iexact HS2
          ipureintro; exact View.read_writes_of_cover _ _ _ _ _ (scover3_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

/-- What the region is entered with (the class's invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class's back: what the kept buffers hold is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0, HS1, HS2⟩, Hg⟩
  isplitl [HR0 HR1 HR2 HR3 HR4 HR5 HR6 HR7 HR8 HR9 HR10 HR11 HR12 HR13 HR14 HR15 HR16 HR17 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HS0]; · iexists _; iexact HS0
    isplitl [HS1]; · iexists _; iexact HS1
    iexists _; iexact HS2
  iexact Hg

theorem hout3 (c : Dev nD) : (dat3 V c).Φ (Fin.last cfg3.N) ⊢ Pipeline.ΦA spec3 c :=
  Phi_out3 V c _ (by rw [Fin.val_last]; have : cfg3.N = 32 := N_3; omega)

end Cert.Kernel.Frm

end
-- ==== Proof.BitsRun.lean ====
/-
  The whole program as a run. @main is seven items in a row: the reshape of the query bias into a row, the query
  projection, the same two for the keys, the same two for the values, and the attention call. Here: what every unscoped
  buffer of a core holds at each of the eight boundaries between them (a fold from the launch memory: a reshape's result,
  then a call's arrays at what its pipeline leaves); that no item writes an argument, so each argument's buffer reads
  back to the launch memory through the fold; the proof data of the four pipelines, each at its call's entry contents;
  the four calls as segments; and the run: every weakly fair execution of @main terminates without a fault, the result
  array holding what the attention pipeline's write-backs leave and the nine arguments what they were launched with.
-/
import proofs.«150159_j62277025792152_2_alg».proof.Proof.BitsProj0
import proofs.«150159_j62277025792152_2_alg».proof.Proof.BitsProj1
import proofs.«150159_j62277025792152_2_alg».proof.Proof.BitsProj2
import proofs.«150159_j62277025792152_2_alg».proof.Proof.BitsAttn
import proofs.«150159_j62277025792152_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers at launch. -/
abbrev Bd0 : Dev nD → Valuation τ sig (Elt F) := fun c b => (s₀ m ρ).mem ((c : Dev nD), b)

/-- After the reshape of bias 0 into a row (the entry of call 0). -/
abbrev Bd1 : Dev nD → Valuation τ sig (Elt F) := fun c => StableHlo.after hostOps0 (Bd0 m ρ c)
abbrev At1 : (c : Dev nD) → (b : Ref sig .tc) → Buf (Elt F) ((c : Thread nD τ).loc b) := fun c b => Bd1 m ρ c b

/-- At the exit of call 0: its arrays at what the pipeline leaves (an input as entered, the output with every block's
    write-back folded in), every other buffer as entered. -/
def Bd2 (c : Dev nD) : Valuation τ sig (Elt F) :=
  Pipeline.withArrays spec0 c (Bd1 m ρ c) fun w => (dat0 (At1 m ρ) c).arrAt w cfg0.N
theorem Bd2_arr (c : Dev nD) (w : Fin cfg0.W) :
    Bd2 m ρ c (Proc.devRef .tc (Pipeline.arrRef spec0 w)) = (dat0 (At1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev At2 : (c : Dev nD) → (b : Ref sig .tc) → Buf (Elt F) ((c : Thread nD τ).loc b) := fun c b => Bd2 m ρ c b
theorem hF0 (c : Dev nD) (w : Fin cfg0.W) : (dat0 (At1 m ρ) c).arrAt w cfg0.N = At2 m ρ c (Pipeline.arrRef spec0 w) :=
  (Bd2_arr m ρ c w).symm
theorem hrest0 (c : Dev nD) : ∀ b, b ∉ Finset.univ.image (Pipeline.arrRef spec0) → At2 m ρ c b = At1 m ρ c b :=
  fun b hb => Bd2_of_ne m ρ c b fun w e => hb (Finset.mem_image.mpr ⟨w, Finset.mem_univ _, e⟩)

/-- After the reshape of bias 1 into a row (the entry of call 1). -/
abbrev Bd3 : Dev nD → Valuation τ sig (Elt F) := fun c => StableHlo.after hostOps1 (Bd2 m ρ c)
abbrev At3 : (c : Dev nD) → (b : Ref sig .tc) → Buf (Elt F) ((c : Thread nD τ).loc b) := fun c b => Bd3 m ρ c b

/-- At the exit of call 1: its arrays at what the pipeline leaves (an input as entered, the output with every block's
    write-back folded in), every other buffer as entered. -/
def Bd4 (c : Dev nD) : Valuation τ sig (Elt F) :=
  Pipeline.withArrays spec1 c (Bd3 m ρ c) fun w => (dat1 (At3 m ρ) c).arrAt w cfg1.N
theorem Bd4_arr (c : Dev nD) (w : Fin cfg1.W) :
    Bd4 m ρ c (Proc.devRef .tc (Pipeline.arrRef spec1 w)) = (dat1 (At3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev At4 : (c : Dev nD) → (b : Ref sig .tc) → Buf (Elt F) ((c : Thread nD τ).loc b) := fun c b => Bd4 m ρ c b
theorem hF1 (c : Dev nD) (w : Fin cfg1.W) : (dat1 (At3 m ρ) c).arrAt w cfg1.N = At4 m ρ c (Pipeline.arrRef spec1 w) :=
  (Bd4_arr m ρ c w).symm
theorem hrest1 (c : Dev nD) : ∀ b, b ∉ Finset.univ.image (Pipeline.arrRef spec1) → At4 m ρ c b = At3 m ρ c b :=
  fun b hb => Bd4_of_ne m ρ c b fun w e => hb (Finset.mem_image.mpr ⟨w, Finset.mem_univ _, e⟩)

/-- After the reshape of bias 2 into a row (the entry of call 2). -/
abbrev Bd5 : Dev nD → Valuation τ sig (Elt F) := fun c => StableHlo.after hostOps2 (Bd4 m ρ c)
abbrev At5 : (c : Dev nD) → (b : Ref sig .tc) → Buf (Elt F) ((c : Thread nD τ).loc b) := fun c b => Bd5 m ρ c b

/-- At the exit of call 2: its arrays at what the pipeline leaves (an input as entered, the output with every block's
    write-back folded in), every other buffer as entered. -/
def Bd6 (c : Dev nD) : Valuation τ sig (Elt F) :=
  Pipeline.withArrays spec2 c (Bd5 m ρ c) fun w => (dat2 (At5 m ρ) c).arrAt w cfg2.N
theorem Bd6_arr (c : Dev nD) (w : Fin cfg2.W) :
    Bd6 m ρ c (Proc.devRef .tc (Pipeline.arrRef spec2 w)) = (dat2 (At5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev At6 : (c : Dev nD) → (b : Ref sig .tc) → Buf (Elt F) ((c : Thread nD τ).loc b) := fun c b => Bd6 m ρ c b
theorem hF2 (c : Dev nD) (w : Fin cfg2.W) : (dat2 (At5 m ρ) c).arrAt w cfg2.N = At6 m ρ c (Pipeline.arrRef spec2 w) :=
  (Bd6_arr m ρ c w).symm
theorem hrest2 (c : Dev nD) : ∀ b, b ∉ Finset.univ.image (Pipeline.arrRef spec2) → At6 m ρ c b = At5 m ρ c b :=
  fun b hb => Bd6_of_ne m ρ c b fun w e => hb (Finset.mem_image.mpr ⟨w, Finset.mem_univ _, e⟩)

/-- At the exit of call 3: its arrays at what the pipeline leaves (an input as entered, the output with every block's
    write-back folded in), every other buffer as entered. -/
def Bd7 (c : Dev nD) : Valuation τ sig (Elt F) :=
  Pipeline.withArrays spec3 c (Bd6 m ρ c) fun w => (dat3 (At6 m ρ) c).arrAt w cfg3.N
theorem Bd7_arr (c : Dev nD) (w : Fin cfg3.W) :
    Bd7 m ρ c (Proc.devRef .tc (Pipeline.arrRef spec3 w)) = (dat3 (At6 m ρ) c).arrAt w cfg3.N := by
  unfold Bd7; exact Pipeline.withArrays_arr spec3 launch3.win.arr_inj c _ _ w
theorem Bd7_of_ne (c : Dev nD) (b : Ref sig .tc) (hb : ∀ w, Pipeline.arrRef spec3 w ≠ b) :
    Bd7 m ρ c (Proc.devRef .tc b) = Bd6 m ρ c (Proc.devRef .tc b) := by
  unfold Bd7; exact Pipeline.withArrays_of_ne spec3 c _ _ b hb
abbrev At7 : (c : Dev nD) → (b : Ref sig .tc) → Buf (Elt F) ((c : Thread nD τ).loc b) := fun c b => Bd7 m ρ c b
theorem hF3 (c : Dev nD) (w : Fin cfg3.W) : (dat3 (At6 m ρ) c).arrAt w cfg3.N = At7 m ρ c (Pipeline.arrRef spec3 w) :=
  (Bd7_arr m ρ c w).symm
theorem hrest3 (c : Dev nD) : ∀ b, b ∉ Finset.univ.image (Pipeline.arrRef spec3) → At7 m ρ c b = At6 m ρ c b :=
  fun b hb => Bd7_of_ne m ρ c b fun w e => hb (Finset.mem_image.mpr ⟨w, Finset.mem_univ _, e⟩)

/-! No item writes an argument: a reshape writes its own result, a call writes its output array only, and an argument a
    call stages as an input comes out of the pipeline as it went in. -/

theorem Bd7_main_arg0 (c : Dev nD) : Bd7 m ρ c (Proc.devRef .tc main_arg0) = m ((c : Thread nD τ).loc main_arg0) :=
  calc Bd7 m ρ c (Proc.devRef .tc main_arg0)
    _ = Bd6 m ρ c (Proc.devRef .tc main_arg0) := Bd7_of_ne m ρ c main_arg0 (by decide)
    _ = Bd5 m ρ c (Proc.devRef .tc main_arg0) := Bd6_of_ne m ρ c main_arg0 (by decide)
    _ = Bd4 m ρ c (Proc.devRef .tc main_arg0) := StableHlo.after_of_writes_sub hostOps2 _ hostOps2_writes (by decide)
    _ = Bd3 m ρ c (Proc.devRef .tc main_arg0) := Bd4_of_ne m ρ c main_arg0 (by decide)
    _ = Bd2 m ρ c (Proc.devRef .tc main_arg0) := StableHlo.after_of_writes_sub hostOps1 _ hostOps1_writes (by decide)
    _ = Bd1 m ρ c (Proc.devRef .tc main_arg0) := (Bd2_arr m ρ c 0).trans (((dat0 (At1 m ρ) c).arrAt_in 0 rfl _).trans (A_eq0 (At1 m ρ) c 0))
    _ = Bd0 m ρ c (Proc.devRef .tc main_arg0) := StableHlo.after_of_writes_sub hostOps0 _ hostOps0_writes (by decide)
    _ = m ((c : Thread nD τ).loc main_arg0) := rfl
theorem Bd7_main_arg1 (c : Dev nD) : Bd7 m ρ c (Proc.devRef .tc main_arg1) = m ((c : Thread nD τ).loc main_arg1) :=
  calc Bd7 m ρ c (Proc.devRef .tc main_arg1)
    _ = Bd6 m ρ c (Proc.devRef .tc main_arg1) := Bd7_of_ne m ρ c main_arg1 (by decide)
    _ = Bd5 m ρ c (Proc.devRef .tc main_arg1) := Bd6_of_ne m ρ c main_arg1 (by decide)
    _ = Bd4 m ρ c (Proc.devRef .tc main_arg1) := StableHlo.after_of_writes_sub hostOps2 _ hostOps2_writes (by decide)
    _ = Bd3 m ρ c (Proc.devRef .tc main_arg1) := (Bd4_arr m ρ c 0).trans (((dat1 (At3 m ρ) c).arrAt_in 0 rfl _).trans (A_eq1 (At3 m ρ) c 0))
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl
theorem Bd7_main_arg2 (c : Dev nD) : Bd7 m ρ c (Proc.devRef .tc main_arg2) = m ((c : Thread nD τ).loc main_arg2) :=
  calc Bd7 m ρ c (Proc.devRef .tc main_arg2)
    _ = Bd6 m ρ c (Proc.devRef .tc main_arg2) := Bd7_of_ne m ρ c main_arg2 (by decide)
    _ = Bd5 m ρ c (Proc.devRef .tc main_arg2) := (Bd6_arr m ρ c 0).trans (((dat2 (At5 m ρ) c).arrAt_in 0 rfl _).trans (A_eq2 (At5 m ρ) c 0))
    _ = Bd4 m ρ c (Proc.devRef .tc main_arg2) := StableHlo.after_of_writes_sub hostOps2 _ hostOps2_writes (by decide)
    _ = Bd3 m ρ c (Proc.devRef .tc main_arg2) := Bd4_of_ne m ρ c main_arg2 (by decide)
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl
theorem Bd7_main_arg3 (c : Dev nD) : Bd7 m ρ c (Proc.devRef .tc main_arg3) = m ((c : Thread nD τ).loc main_arg3) :=
  calc Bd7 m ρ c (Proc.devRef .tc main_arg3)
    _ = Bd6 m ρ c (Proc.devRef .tc main_arg3) := Bd7_of_ne m ρ c main_arg3 (by decide)
    _ = Bd5 m ρ c (Proc.devRef .tc main_arg3) := Bd6_of_ne m ρ c main_arg3 (by decide)
    _ = Bd4 m ρ c (Proc.devRef .tc main_arg3) := StableHlo.after_of_writes_sub hostOps2 _ hostOps2_writes (by decide)
    _ = Bd3 m ρ c (Proc.devRef .tc main_arg3) := Bd4_of_ne m ρ c main_arg3 (by decide)
    _ = Bd2 m ρ c (Proc.devRef .tc main_arg3) := StableHlo.after_of_writes_sub hostOps1 _ hostOps1_writes (by decide)
    _ = Bd1 m ρ c (Proc.devRef .tc main_arg3) := (Bd2_arr m ρ c 1).trans (((dat0 (At1 m ρ) c).arrAt_in 1 rfl _).trans (A_eq0 (At1 m ρ) c 1))
    _ = Bd0 m ρ c (Proc.devRef .tc main_arg3) := StableHlo.after_of_writes_sub hostOps0 _ hostOps0_writes (by decide)
    _ = m ((c : Thread nD τ).loc main_arg3) := rfl
theorem Bd7_main_arg4 (c : Dev nD) : Bd7 m ρ c (Proc.devRef .tc main_arg4) = m ((c : Thread nD τ).loc main_arg4) :=
  calc Bd7 m ρ c (Proc.devRef .tc main_arg4)
    _ = Bd6 m ρ c (Proc.devRef .tc main_arg4) := Bd7_of_ne m ρ c main_arg4 (by decide)
    _ = Bd5 m ρ c (Proc.devRef .tc main_arg4) := Bd6_of_ne m ρ c main_arg4 (by decide)
    _ = Bd4 m ρ c (Proc.devRef .tc main_arg4) := StableHlo.after_of_writes_sub hostOps2 _ hostOps2_writes (by decide)
    _ = Bd3 m ρ c (Proc.devRef .tc main_arg4) := Bd4_of_ne m ρ c main_arg4 (by decide)
    _ = Bd2 m ρ c (Proc.devRef .tc main_arg4) := StableHlo.after_of_writes_sub hostOps1 _ hostOps1_writes (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (by decide)
    _ = m ((c : Thread nD τ).loc main_arg4) := rfl
theorem Bd7_main_arg5 (c : Dev nD) : Bd7 m ρ c (Proc.devRef .tc main_arg5) = m ((c : Thread nD τ).loc main_arg5) :=
  calc Bd7 m ρ c (Proc.devRef .tc main_arg5)
    _ = Bd6 m ρ c (Proc.devRef .tc main_arg5) := Bd7_of_ne m ρ c main_arg5 (by decide)
    _ = Bd5 m ρ c (Proc.devRef .tc main_arg5) := Bd6_of_ne m ρ c main_arg5 (by decide)
    _ = Bd4 m ρ c (Proc.devRef .tc main_arg5) := StableHlo.after_of_writes_sub hostOps2 _ hostOps2_writes (by decide)
    _ = Bd3 m ρ c (Proc.devRef .tc main_arg5) := (Bd4_arr m ρ c 1).trans (((dat1 (At3 m ρ) c).arrAt_in 1 rfl _).trans (A_eq1 (At3 m ρ) c 1))
    _ = Bd2 m ρ c (Proc.devRef .tc main_arg5) := StableHlo.after_of_writes_sub hostOps1 _ hostOps1_writes (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (by decide)
    _ = m ((c : Thread nD τ).loc main_arg5) := rfl
theorem Bd7_main_arg6 (c : Dev nD) : Bd7 m ρ c (Proc.devRef .tc main_arg6) = m ((c : Thread nD τ).loc main_arg6) :=
  calc Bd7 m ρ c (Proc.devRef .tc main_arg6)
    _ = Bd6 m ρ c (Proc.devRef .tc main_arg6) := Bd7_of_ne m ρ c main_arg6 (by decide)
    _ = Bd5 m ρ c (Proc.devRef .tc main_arg6) := Bd6_of_ne m ρ c main_arg6 (by decide)
    _ = Bd4 m ρ c (Proc.devRef .tc main_arg6) := StableHlo.after_of_writes_sub hostOps2 _ hostOps2_writes (by decide)
    _ = Bd3 m ρ c (Proc.devRef .tc main_arg6) := Bd4_of_ne m ρ c main_arg6 (by decide)
    _ = Bd2 m ρ c (Proc.devRef .tc main_arg6) := StableHlo.after_of_writes_sub hostOps1 _ hostOps1_writes (by decide)
    _ = Bd1 m ρ c (Proc.devRef .tc main_arg6) := Bd2_of_ne m ρ c main_arg6 (by decide)
    _ = Bd0 m ρ c (Proc.devRef .tc main_arg6) := StableHlo.after_of_writes_sub hostOps0 _ hostOps0_writes (by decide)
    _ = m ((c : Thread nD τ).loc main_arg6) := rfl
theorem Bd7_main_arg7 (c : Dev nD) : Bd7 m ρ c (Proc.devRef .tc main_arg7) = m ((c : Thread nD τ).loc main_arg7) :=
  calc Bd7 m ρ c (Proc.devRef .tc main_arg7)
    _ = Bd6 m ρ c (Proc.devRef .tc main_arg7) := Bd7_of_ne m ρ c main_arg7 (by decide)
    _ = Bd5 m ρ c (Proc.devRef .tc main_arg7) := (Bd6_arr m ρ c 1).trans (((dat2 (At5 m ρ) c).arrAt_in 1 rfl _).trans (A_eq2 (At5 m ρ) c 1))
    _ = Bd4 m ρ c (Proc.devRef .tc main_arg7) := StableHlo.after_of_writes_sub hostOps2 _ hostOps2_writes (by decide)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl
theorem Bd7_main_arg8 (c : Dev nD) : Bd7 m ρ c (Proc.devRef .tc main_arg8) = m ((c : Thread nD τ).loc main_arg8) :=
  calc Bd7 m ρ c (Proc.devRef .tc main_arg8)
    _ = Bd6 m ρ c (Proc.devRef .tc main_arg8) := Bd7_of_ne m ρ c main_arg8 (by decide)
    _ = Bd5 m ρ c (Proc.devRef .tc main_arg8) := Bd6_of_ne m ρ c main_arg8 (by decide)
    _ = Bd4 m ρ c (Proc.devRef .tc main_arg8) := StableHlo.after_of_writes_sub hostOps2 _ hostOps2_writes (by decide)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl

/-- The result array at the last boundary is what the attention pipeline's write-backs leave. -/
theorem Bd7_result (c : Dev nD) : Bd7 m ρ c (Proc.devRef .tc main_v6) = (dat3 (At6 m ρ) c).arrAt 3 cfg3.N :=
  Bd7_arr m ρ c 3

/-- Every pipeline's proof data, each at its call's entry contents. -/
def pdats : (p : Fin 4) → (c : Dev nD) → Dat τ (Elt F) Unit ℕ (Pipeline.UD sig nD τ) ℕ (Pipeline.pin (pcfgs (F := F)) adm p) c
  | ⟨0, _⟩ => fun c => dat0 (At1 m ρ) c
  | ⟨1, _⟩ => fun c => dat1 (At3 m ρ) c
  | ⟨2, _⟩ => fun c => dat2 (At5 m ρ) c
  | ⟨3, _⟩ => fun c => dat3 (At6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (Bd7 m ρ c) ∗ ∃ r, prngReg c r)

set_option backward.isDefEq.respectTransparency.types false in
/-- Call 0 as a segment of @main over the thread state "every unscoped buffer at the boundary's contents, the generator
    register at some state, nothing owed": its arrays are split out of the unscoped buffers at entry and put back at
    their exit contents; the generator register goes into the invariant and comes back; the call has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (At1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (At1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (At1 m ρ c) (At2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main over the thread state "every unscoped buffer at the boundary's contents, the generator
    register at some state, nothing owed": its arrays are split out of the unscoped buffers at entry and put back at
    their exit contents; the generator register goes into the invariant and comes back; the call has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (At3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (At3 m ρ c) (At4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main over the thread state "every unscoped buffer at the boundary's contents, the generator
    register at some state, nothing owed": its arrays are split out of the unscoped buffers at entry and put back at
    their exit contents; the generator register goes into the invariant and comes back; the call has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (At5 m ρ) c).loose
  hwaits := Pipeline.hwaits_of_owed_zero _ _ _ _ L lv 2 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (At5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (At5 m ρ c) (At6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of @main over the thread state "every unscoped buffer at the boundary's contents, the generator
    register at some state, nothing owed": its arrays are split out of the unscoped buffers at entry and put back at
    their exit contents; the generator register goes into the invariant and comes back; the call has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (At6 m ρ) c).loose
  hwaits := Pipeline.hwaits_of_owed_zero _ _ _ _ L lv 3 fun _ _ => rfl
  pre c := iprop(StableHlo.held (c : Thread nD τ) (Pipeline.ucRefs τ sig) (Bd6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (At6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (At6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (At6 m ρ) c)
    unfold Pipeline.ΦA
    iintro ⟨Hp, -, Hr⟩
    isplitl [Hr]; · iexact Hr
    iexact Hp
  hout c := by
    rw [Pipeline.ownSems0_none]
    refine (hout3 (At6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (At6 m ρ c) (At7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's seven items in order. -/
abbrev segs : List (Pipeline.Seg (pcfgs (F := F)) adm (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)),
    .region (reg2 m ρ),
    .region (reg3 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state the result array holds what the last boundary's contents say and each
    argument array what it was launched with. -/
theorem run_main : θ_run defs (onTc (τ := τ) (main (F := F))) ⟨m, fun _ => 0, ρ⟩ (fun r => ∀ c : Dev nD,
      r.2.mem ((c.tc : Thread nD τ).loc main_v6) = (dat3 (At6 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h c =>
      ⟨(h c _ (mem_uc main_v6 (by decide))).trans (Bd7_result m ρ c),
       (h c _ (mem_uc main_arg0 (by decide))).trans (Bd7_main_arg0 m ρ c),
       (h c _ (mem_uc main_arg1 (by decide))).trans (Bd7_main_arg1 m ρ c),
       (h c _ (mem_uc main_arg2 (by decide))).trans (Bd7_main_arg2 m ρ c),
       (h c _ (mem_uc main_arg3 (by decide))).trans (Bd7_main_arg3 m ρ c),
       (h c _ (mem_uc main_arg4 (by decide))).trans (Bd7_main_arg4 m ρ c),
       (h c _ (mem_uc main_arg5 (by decide))).trans (Bd7_main_arg5 m ρ c),
       (h c _ (mem_uc main_arg6 (by decide))).trans (Bd7_main_arg6 m ρ c),
       (h c _ (mem_uc main_arg7 (by decide))).trans (Bd7_main_arg7 m ρ c),
       (h c _ (mem_uc main_arg8 (by decide))).trans (Bd7_main_arg8 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Frm

end
-- ==== Proof.IdealProj0.lean ====
/-
  Pallas call 0 of the program: the linear projection of the queries (q·Wq + bq), tiled over four row blocks of 1024 rows.
  At grid point t the body reads three whole staging buffers — the row block t of the input matrix, the whole weight
  matrix and the bias row, the last two fetched once because their block index never moves — and writes the output's
  staging buffer whole with one store whose value is a pure function of those three reads (the product of the two
  matrices accumulated from zero, plus the bias row broadcast down the rows, narrowed to the output format).
  Stated here, at any float instance and for any contents V of the buffers at the region's entry: what each window's
  staging buffer holds after the body at every point, and that the body run on those buffers terminates without a fault
  and leaves exactly that.
-/
import proofs.«150159_j62277025792152_2_alg».proof.Proof.Gen.KernelIdeal.Launch
import proofs.«150159_j62277025792152_2_alg».proof.Proof.Gen.KernelIdeal.Skeleton
import proofs.«150159_j62277025792152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`: the rectangle of the window's array that the point's index selects,
    read off the array's contents at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was fetched at that
    point or is still there from an earlier one (the index has not moved since), provided the body leaves it in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is its whole staging buffer. -/
abbrev rM0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The output's staging buffer after the body, as a function of the three input buffers: one store covering the
    buffer, its value the body's arithmetic applied to the three reads. -/
def out0_3 (x0 : Vec F S1024x1024 .f32) (x1 : Vec F S1024x1024 .f32) (x2 : Vec F S1x1024 .f32) : Vec F S1024x1024 .bf16 :=
  View.canon [⟨rM0, k0_pay1 (View.ld x0 rM0) (View.ld x1 rM0) (View.ld x2 rB0)⟩]

/-- That one store covers the buffer. -/
theorem cover0_3 (p0 : Vec F S1024x1024 .bf16) (y : S1024x1024.Idx) :
    ∃ pc ∈ ([⟨rM0, p0⟩] : List (View.Piece (Elt F) S1024x1024 .bf16)), y ∈ pc.1.set :=
  View.cover_of_tiled [⟨rM0, p0⟩] S1024x1024.size (by rfl) y

set_option maxHeartbeats 1000000 in
/-- The body, run on whole staging buffers holding x0, x1, x2 (the output's holding anything), terminates without a
    fault, leaves the inputs as they were and the output's buffer at `out0_3 x0 x1 x2`. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer still at its block and the output's at `out0_3` of the three blocks; the invariant between points is only that
    the buffers no window stages and the generator register are there; nothing is owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.IdealProj1.lean ====
/-
  Pallas call 1 of the program: the linear projection of the keys (k·Wk + bk), tiled over four row blocks of 1024 rows.
  At grid point t the body reads three whole staging buffers — the row block t of the input matrix, the whole weight
  matrix and the bias row, the last two fetched once because their block index never moves — and writes the output's
  staging buffer whole with one store whose value is a pure function of those three reads (the product of the two
  matrices accumulated from zero, plus the bias row broadcast down the rows, narrowed to the output format).
  Stated here, at any float instance and for any contents V of the buffers at the region's entry: what each window's
  staging buffer holds after the body at every point, and that the body run on those buffers terminates without a fault
  and leaves exactly that.
-/
import proofs.«150159_j62277025792152_2_alg».proof.Proof.Gen.KernelIdeal.Launch
import proofs.«150159_j62277025792152_2_alg».proof.Proof.Gen.KernelIdeal.Skeleton
import proofs.«150159_j62277025792152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`: the rectangle of the window's array that the point's index selects,
    read off the array's contents at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was fetched at that
    point or is still there from an earlier one (the index has not moved since), provided the body leaves it in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each is its whole staging buffer. -/
abbrev rM1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0

/-- The output's staging buffer after the body, as a function of the three input buffers: one store covering the
    buffer, its value the body's arithmetic applied to the three reads. -/
def out1_3 (x0 : Vec F S1024x1024 .f32) (x1 : Vec F S1024x1024 .f32) (x2 : Vec F S1x1024 .f32) : Vec F S1024x1024 .bf16 :=
  View.canon [⟨rM1, k1_pay1 (View.ld x0 rM1) (View.ld x1 rM1) (View.ld x2 rB1)⟩]

/-- That one store covers the buffer. -/
theorem cover1_3 (p0 : Vec F S1024x1024 .bf16) (y : S1024x1024.Idx) :
    ∃ pc ∈ ([⟨rM1, p0⟩] : List (View.Piece (Elt F) S1024x1024 .bf16)), y ∈ pc.1.set :=
  View.cover_of_tiled [⟨rM1, p0⟩] S1024x1024.size (by rfl) y

set_option maxHeartbeats 1000000 in
/-- The body, run on whole staging buffers holding x0, x1, x2 (the output's holding anything), terminates without a
    fault, leaves the inputs as they were and the output's buffer at `out1_3 x0 x1 x2`. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer still at its block and the output's at `out1_3` of the three blocks; the invariant between points is only that
    the buffers no window stages and the generator register are there; nothing is owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.IdealProj2.lean ====
/-
  Pallas call 2 of the program: the linear projection of the values (v·Wv + bv), tiled over four row blocks of 1024 rows.
  At grid point t the body reads three whole staging buffers — the row block t of the input matrix, the whole weight
  matrix and the bias row, the last two fetched once because their block index never moves — and writes the output's
  staging buffer whole with one store whose value is a pure function of those three reads (the product of the two
  matrices accumulated from zero, plus the bias row broadcast down the rows, narrowed to the output format).
  Stated here, at any float instance and for any contents V of the buffers at the region's entry: what each window's
  staging buffer holds after the body at every point, and that the body run on those buffers terminates without a fault
  and leaves exactly that.
-/
import proofs.«150159_j62277025792152_2_alg».proof.Proof.Gen.KernelIdeal.Launch
import proofs.«150159_j62277025792152_2_alg».proof.Proof.Gen.KernelIdeal.Skeleton
import proofs.«150159_j62277025792152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`: the rectangle of the window's array that the point's index selects,
    read off the array's contents at the region's entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the block was fetched at that
    point or is still there from an earlier one (the index has not moved since), provided the body leaves it in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is its whole staging buffer. -/
abbrev rM2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-- The output's staging buffer after the body, as a function of the three input buffers: one store covering the
    buffer, its value the body's arithmetic applied to the three reads. -/
def out2_3 (x0 : Vec F S1024x1024 .f32) (x1 : Vec F S1024x1024 .f32) (x2 : Vec F S1x1024 .f32) : Vec F S1024x1024 .bf16 :=
  View.canon [⟨rM2, k2_pay1 (View.ld x0 rM2) (View.ld x1 rM2) (View.ld x2 rB2)⟩]

/-- That one store covers the buffer. -/
theorem cover2_3 (p0 : Vec F S1024x1024 .bf16) (y : S1024x1024.Idx) :
    ∃ pc ∈ ([⟨rM2, p0⟩] : List (View.Piece (Elt F) S1024x1024 .bf16)), y ∈ pc.1.set :=
  View.cover_of_tiled [⟨rM2, p0⟩] S1024x1024.size (by rfl) y

set_option maxHeartbeats 1000000 in
/-- The body, run on whole staging buffers holding x0, x1, x2 (the output's holding anything), terminates without a
    fault, leaves the inputs as they were and the output's buffer at `out2_3 x0 x1 x2`. -/
theorem sound_kernel2 (c : Dev nD) (E : Set ℕ) (i : grid2.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer still at its block and the output's at `out2_3` of the three blocks; the invariant between points is only that
    the buffers no window stages and the generator register are there; nothing is owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.IdealAttnCases.lean ====
/-
  Pallas call 3 of the program: attention over a grid of 4 query tiles (1024 rows each) by 8 key tiles (512 rows each),
  the key axis innermost. The body keeps three buffers of its own between grid points: the running row maximum, the
  running row sum and the running weighted sum of value rows. At the first key tile of a query tile it resets them; at
  every key tile it folds the tile in; at the last key tile it divides and stores the output block, which is idle at
  the other points. Here: the two branch conditions as arithmetic on the linear point number, where the output window is
  idle, the buffers the body is handed, and the between-points invariant of the class spelled out buffer by buffer.
-/
import proofs.«150159_j62277025792152_2_alg».proof.Proof.Gen.KernelIdeal.Launch
import proofs.«150159_j62277025792152_2_alg».proof.Proof.Gen.KernelIdeal.Skeleton
import proofs.«150159_j62277025792152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, read off the array's contents at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, fetched there or kept from an earlier
    point at which the index was the same, provided the body leaves it in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The reset branch is taken when the key-tile coordinate is zero, -/
abbrev cond3_0 (i : grid3.Coords) : Prop := (Scalar.cmpi .ne (Scalar.extui (Scalar.cmpi .eq (BitVec.ofNat 32 (i 1).val) 0#32)) 0#32) = 1#1
/-- that is at the points whose number is a multiple of 8. -/
theorem hcond3_0 : ∀ t : Fin cfg3.N, cond3_0 (grid3.coords t) ↔ t.val % 8 = 0 :=
  (by decide +kernel : ∀ t : Fin grid3.N, cond3_0 (grid3.coords t) ↔ t.val % 8 = 0)

/-- The divide-and-store branch is taken when the key-tile coordinate is the last, -/
abbrev cond3_1 (i : grid3.Coords) : Prop := k3_cond2 i = 1#1
/-- that is at the points whose number is 7 modulo 8. -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the divide-and-store branch is not taken the output window is idle and its block is not written back; -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- where it is taken the window is live. -/
theorem liveAt3_3 : ∀ t : Fin cfg3.N, cond3_1 (grid3.coords t) → cfg3.idle 3 (grid3.coords t) = false := by decide +kernel

/-- One staging buffer of the output window, through which its contents are stated. -/
abbrev VO3_3 : View sig .tc .vmem S1024x1024 .f32 := (Memref.whole cc3_stg3_0 : Memref sig .tc .vmem S1024x1024 .f32).view
/-- Each window's current staging buffer at point `t`, as the body is handed it, and that it is a whole buffer. -/
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The three buffers the body keeps between points: the row maximum, the row sum, the weighted sum. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x1024 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x1024 .f32 := scM3_2.view

/-- The class's between-points invariant, buffer by buffer: the other calls' staging buffers at some contents, the
    three kept buffers at some contents, the generator register at some state. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

end Cert.KernelIdeal.Frm

end
-- ==== Proof.IdealAttnRunA.lean ====
/-
  The attention body run whole at the first key tile of a query tile (the three kept buffers are reset, then the tile is folded in; the output block is left alone): on whole buffers at the stated contents it terminates without a fault, hands the
  inputs back as they were, and leaves in each buffer it stores into the pieces it wrote, last store first. The lists of
  pieces are found by running the body; they are the witness of the statement.
-/
import proofs.«150159_j62277025792152_2_alg».proof.Proof.IdealAttnCases

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun3_A (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8) K } := by
  refine ⟨[], ?_, ?_, ?_, fun xi3 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Frm

end
-- ==== Proof.IdealAttnRunB.lean ====
/-
  The attention body run whole at a key tile that is neither first nor last (the tile is folded into the three kept buffers, found at given contents; the output block is left alone): on whole buffers at the stated contents it terminates without a fault, hands the
  inputs back as they were, and leaves in each buffer it stores into the pieces it wrote, last store first. The lists of
  pieces are found by running the body; they are the witness of the statement.
-/
import proofs.«150159_j62277025792152_2_alg».proof.Proof.IdealAttnRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun3_B (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8) K } := by
  refine ⟨[], ?_, ?_, ?_, fun xi3 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Frm

end
-- ==== Proof.IdealAttnRunC.lean ====
/-
  The attention body run whole at the last key tile of a query tile (the tile is folded into the three kept buffers, found at given contents, and the quotient of the weighted sum by the row sum is stored into the output block): on whole buffers at the stated contents it terminates without a fault, hands the
  inputs back as they were, and leaves in each buffer it stores into the pieces it wrote, last store first. The lists of
  pieces are found by running the body; they are the witness of the statement.
-/
import proofs.«150159_j62277025792152_2_alg».proof.Proof.IdealAttnRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun3_C (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8) K } := by
  refine ⟨?_, ?_, ?_, ?_, fun E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Frm

end
-- ==== Proof.IdealAttn.lean ====
/-
  Pallas call 3 (attention), the rest of its half: what the output's staging buffer and the three kept buffers (row
  maximum, row sum, weighted sum) hold after every grid point, by recursion on the point number — the first key tile of
  a query tile starts afresh, every later one continues from what the point before left —; the between-points invariant
  that pins the kept buffers to exactly those contents; the pipeline's proof data; and the body obligation, by cases on
  where the point sits in its group of eight.
-/
import proofs.«150159_j62277025792152_2_alg».proof.Proof.IdealAttnRunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- In this case the stores into kept buffer 0 tile it, so they cover it. -/
theorem scover3_A_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) (y : S1024x1.Idx) :
    ∃ pc ∈ (kernelRun3_A c i arg2 harg2 arg3 harg3 arg4 harg4 arg5 harg5 arg6 harg6 arg7 harg7 arg8 harg8 hc0 hc1 x0 x1 x2).2.1, y ∈ pc.1.set :=
  View.cover_of_tiledL (kernelRun3_A c i arg2 harg2 arg3 harg3 arg4 harg4 arg5 harg5 arg6 harg6 arg7 harg7 arg8 harg8 hc0 hc1 x0 x1 x2).2.1 S1024x1.size (by sl_kernel_rfl) y
/-- What the case leaves in kept buffer 0: its pieces read back. -/
def sout3_A_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2).2.1)

/-- In this case the stores into kept buffer 1 tile it, so they cover it. -/
theorem scover3_A_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) (y : S1024x1.Idx) :
    ∃ pc ∈ (kernelRun3_A c i arg2 harg2 arg3 harg3 arg4 harg4 arg5 harg5 arg6 harg6 arg7 harg7 arg8 harg8 hc0 hc1 x0 x1 x2).2.2.1, y ∈ pc.1.set :=
  View.cover_of_tiledL (kernelRun3_A c i arg2 harg2 arg3 harg3 arg4 harg4 arg5 harg5 arg6 harg6 arg7 harg7 arg8 harg8 hc0 hc1 x0 x1 x2).2.2.1 S1024x1.size (by sl_kernel_rfl) y
/-- What the case leaves in kept buffer 1: its pieces read back. -/
def sout3_A_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1 .f32 :=
  VS3_1.read (Elt F) (VS3_1.writes (Elt F) VS3_1.junk (kernelRun3_A c i arg2 harg2 arg3 harg3 arg4 harg4 arg5 harg5 arg6 harg6 arg7 harg7 arg8 harg8 hc0 hc1 x0 x1 x2).2.2.1)

/-- In this case the stores into kept buffer 2 tile it, so they cover it. -/
theorem scover3_A_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) (y : S1024x1024.Idx) :
    ∃ pc ∈ (kernelRun3_A c i arg2 harg2 arg3 harg3 arg4 harg4 arg5 harg5 arg6 harg6 arg7 harg7 arg8 harg8 hc0 hc1 x0 x1 x2).2.2.2.1, y ∈ pc.1.set :=
  View.cover_of_tiledL (kernelRun3_A c i arg2 harg2 arg3 harg3 arg4 harg4 arg5 harg5 arg6 harg6 arg7 harg7 arg8 harg8 hc0 hc1 x0 x1 x2).2.2.2.1 S1024x1024.size (by sl_kernel_rfl) y
/-- What the case leaves in kept buffer 2: its pieces read back. -/
def sout3_A_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1024 .f32 :=
  VS3_2.read (Elt F) (VS3_2.writes (Elt F) VS3_2.junk (kernelRun3_A c i arg2 harg2 arg3 harg3 arg4 harg4 arg5 harg5 arg6 harg6 arg7 harg7 arg8 harg8 hc0 hc1 x0 x1 x2).2.2.2.1)

/-- What the case leaves in the output's staging buffer, as its pieces read back (no store in this case: a placeholder nothing consults, the window being idle and not written back). -/
def out3_A_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) : Vec F S1024x1024 .f32 :=
  VO3_3.read (Elt F) (VO3_3.writes (Elt F) VO3_3.junk (kernelRun3_A c i arg2 harg2 arg3 harg3 arg4 harg4 arg5 harg5 arg6 harg6 arg7 harg7 arg8 harg8 hc0 hc1 x0 x1 x2).1)

/-- In this case the stores into kept buffer 0 tile it, so they cover it. -/
theorem scover3_B_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun3_B c i arg2 harg2 arg3 harg3 arg4 harg4 arg5 harg5 arg6 harg6 arg7 harg7 arg8 harg8 hc0 hc1 x0 x1 x2 xs0 xs1 xs2).2.1 S1024x1.size (by sl_kernel_rfl) y
/-- What the case leaves in kept buffer 0: its pieces read back. -/
def sout3_B_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 xs0 xs1 xs2).2.1)

/-- In this case the stores into kept buffer 1 tile it, so they cover it. -/
theorem scover3_B_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun3_B c i arg2 harg2 arg3 harg3 arg4 harg4 arg5 harg5 arg6 harg6 arg7 harg7 arg8 harg8 hc0 hc1 x0 x1 x2 xs0 xs1 xs2).2.2.1 S1024x1.size (by sl_kernel_rfl) y
/-- What the case leaves in kept buffer 1: its pieces read back. -/
def sout3_B_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_B c i arg2 harg2 arg3 harg3 arg4 harg4 arg5 harg5 arg6 harg6 arg7 harg7 arg8 harg8 hc0 hc1 x0 x1 x2 xs0 xs1 xs2).2.2.1)

/-- In this case the stores into kept buffer 2 tile it, so they cover it. -/
theorem scover3_B_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1024.Idx) :
    ∃ pc ∈ (kernelRun3_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun3_B c i arg2 harg2 arg3 harg3 arg4 harg4 arg5 harg5 arg6 harg6 arg7 harg7 arg8 harg8 hc0 hc1 x0 x1 x2 xs0 xs1 xs2).2.2.2.1 S1024x1024.size (by sl_kernel_rfl) y
/-- What the case leaves in kept buffer 2: its pieces read back. -/
def sout3_B_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_B c i arg2 harg2 arg3 harg3 arg4 harg4 arg5 harg5 arg6 harg6 arg7 harg7 arg8 harg8 hc0 hc1 x0 x1 x2 xs0 xs1 xs2).2.2.2.1)

/-- What the case leaves in the output's staging buffer, as its pieces read back (no store in this case: a placeholder nothing consults, the window being idle and not written back). -/
def out3_B_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VO3_3.read (Elt F) (VO3_3.writes (Elt F) VO3_3.junk (kernelRun3_B c i arg2 harg2 arg3 harg3 arg4 harg4 arg5 harg5 arg6 harg6 arg7 harg7 arg8 harg8 hc0 hc1 x0 x1 x2 xs0 xs1 xs2).1)

/-- In this case the stores into kept buffer 0 tile it, so they cover it. -/
theorem scover3_C_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun3_C c i arg2 harg2 arg3 harg3 arg4 harg4 arg5 harg5 arg6 harg6 arg7 harg7 arg8 harg8 hc0 hc1 x0 x1 x2 xs0 xs1 xs2).2.1 S1024x1.size (by sl_kernel_rfl) y
/-- What the case leaves in kept buffer 0: its pieces read back. -/
def sout3_C_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 xs0 xs1 xs2).2.1)

/-- In this case the stores into kept buffer 1 tile it, so they cover it. -/
theorem scover3_C_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1.Idx) :
    ∃ pc ∈ (kernelRun3_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun3_C c i arg2 harg2 arg3 harg3 arg4 harg4 arg5 harg5 arg6 harg6 arg7 harg7 arg8 harg8 hc0 hc1 x0 x1 x2 xs0 xs1 xs2).2.2.1 S1024x1.size (by sl_kernel_rfl) y
/-- What the case leaves in kept buffer 1: its pieces read back. -/
def sout3_C_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_C c i arg2 harg2 arg3 harg3 arg4 harg4 arg5 harg5 arg6 harg6 arg7 harg7 arg8 harg8 hc0 hc1 x0 x1 x2 xs0 xs1 xs2).2.2.1)

/-- In this case the stores into kept buffer 2 tile it, so they cover it. -/
theorem scover3_C_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1024.Idx) :
    ∃ pc ∈ (kernelRun3_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun3_C c i arg2 harg2 arg3 harg3 arg4 harg4 arg5 harg5 arg6 harg6 arg7 harg7 arg8 harg8 hc0 hc1 x0 x1 x2 xs0 xs1 xs2).2.2.2.1 S1024x1024.size (by sl_kernel_rfl) y
/-- What the case leaves in kept buffer 2: its pieces read back. -/
def sout3_C_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_C c i arg2 harg2 arg3 harg3 arg4 harg4 arg5 harg5 arg6 harg6 arg7 harg7 arg8 harg8 hc0 hc1 x0 x1 x2 xs0 xs1 xs2).2.2.2.1)

/-- At the last key tile the one store into the output block covers it. -/
theorem cover3_C_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) (y : S1024x1024.Idx) :
    ∃ pc ∈ (kernelRun3_C c i arg2 harg2 arg3 harg3 arg4 harg4 arg5 harg5 arg6 harg6 arg7 harg7 arg8 harg8 hc0 hc1 x0 x1 x2 xs0 xs1 xs2).1, y ∈ pc.1.set :=
  View.cover_of_tiledL (kernelRun3_C c i arg2 harg2 arg3 harg3 arg4 harg4 arg5 harg5 arg6 harg6 arg7 harg7 arg8 harg8 hc0 hc1 x0 x1 x2 xs0 xs1 xs2).1 S1024x1024.size (by sl_kernel_rfl) y

/-- What the case leaves in the output's staging buffer, as its pieces read back. -/
def out3_C_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) : Vec F S1024x1024 .f32 :=
  VO3_3.read (Elt F) (VO3_3.writes (Elt F) VO3_3.junk (kernelRun3_C c i arg2 harg2 arg3 harg3 arg4 harg4 arg5 harg5 arg6 harg6 arg7 harg7 arg8 harg8 hc0 hc1 x0 x1 x2 xs0 xs1 xs2).1)

/-- One grid point: from what the kept buffers held before it (ignored at the first key tile of a query tile, which
    resets them) to what the output's buffer and the kept buffers hold after it. -/
def stepAt3 (c : Dev nD) (t : Fin cfg3.N) (xs : Vec F S1024x1 .f32 × Vec F S1024x1 .f32 × Vec F S1024x1024 .f32) : Vec F S1024x1024 .f32 × Vec F S1024x1 .f32 × Vec F S1024x1 .f32 × Vec F S1024x1024 .f32 :=
  if h0 : t.val % 8 = 0 then
    if h1 : t.val % 8 = 7 then False.elim (by omega)
    else (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t))
  else
    if h1 : t.val % 8 = 7 then (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2)
    else (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2)

theorem stepAt3_A (c : Dev nD) (t : Fin cfg3.N) (xs : Vec F S1024x1 .f32 × Vec F S1024x1 .f32 × Vec F S1024x1024 .f32) (h0 : t.val % 8 = 0) (h1 : ¬t.val % 8 = 7) :
    stepAt3 V c t xs = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t)) := by
  unfold stepAt3; rw [dif_pos h0, dif_neg h1]
theorem stepAt3_B (c : Dev nD) (t : Fin cfg3.N) (xs : Vec F S1024x1 .f32 × Vec F S1024x1 .f32 × Vec F S1024x1024 .f32) (h0 : ¬t.val % 8 = 0) (h1 : ¬t.val % 8 = 7) :
    stepAt3 V c t xs = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs.1 xs.2.1 xs.2.2) := by
  unfold stepAt3; rw [dif_neg h0, dif_neg h1]
theorem stepAt3_C (c : Dev nD) (t : Fin cfg3.N) (xs : Vec F S1024x1 .f32 × Vec F S1024x1 .f32 × Vec F S1024x1024 .f32) (h0 : ¬t.val % 8 = 0) (h1 : t.val % 8 = 7) :
    stepAt3 V c t xs = (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2, sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs.1 xs.2.1 xs.2.2) := by
  unfold stepAt3; rw [dif_neg h0, dif_pos h1]

/-- Contents that stand for "nothing yet" before the first point. -/
def scr0 : Vec F S1024x1 .f32 × Vec F S1024x1 .f32 × Vec F S1024x1024 .f32 := (VS3_0.read (Elt F) VS3_0.junk, VS3_1.read (Elt F) VS3_1.junk, VS3_2.read (Elt F) VS3_2.junk)

/-- THE ACCUMULATION over the grid: after point `n` the output's staging buffer and the three kept buffers. -/
def outsAt3 (c : Dev nD) : (n : ℕ) → n < cfg3.N → Vec F S1024x1024 .f32 × Vec F S1024x1 .f32 × Vec F S1024x1 .f32 × Vec F S1024x1024 .f32
  | 0, hn => stepAt3 V c ⟨0, hn⟩ scr0
  | n + 1, hn => stepAt3 V c ⟨n + 1, hn⟩ (outsAt3 c n (Nat.lt_of_succ_lt hn)).2

/-- After a point that is not the first: one step from what the point before left. -/
theorem outsAt3_pos (c : Dev nD) (t : Fin cfg3.N) (hz : t.val ≠ 0) :
    outsAt3 V c t.val t.isLt = stepAt3 V c t (outsAt3 V c (t.val - 1) (Nat.lt_of_le_of_lt (Nat.sub_le _ _) t.isLt)).2 := by
  obtain ⟨n, hn⟩ := t
  cases n with
  | zero => exact absurd rfl hz
  | succ n => rfl
theorem outsAt3_zero (c : Dev nD) (t : Fin cfg3.N) (hz : t.val = 0) :
    outsAt3 V c t.val t.isLt = stepAt3 V c t scr0 := by
  obtain ⟨n, hn⟩ := t
  cases n with
  | zero => rfl
  | succ n => exact absurd hz (Nat.succ_ne_zero n)

/-- The invariant before position `n`: before the first point the class's (every kept buffer at anything); afterwards the
    other calls' staging buffers at anything, each kept buffer at what the point before left in it, and the generator
    register at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ (∃ r, prngReg c r)) := rfl
theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ (∃ r, prngReg c r)) := by
  cases n with
  | zero => exact absurd rfl hz
  | succ n => rfl

/-- The pipeline's proof data on core `c`: the arrays as the region finds them; after the body at point `t` each input's
    buffer still at its block and the output's at the accumulation's first component; the invariant `PhiS3`; nothing
    owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' buffers hold their blocks. Where the point sits in its group of eight says which
    whole-body run applies. The invariant hands the body the kept buffers — at anything before the very first point, at
    what the point before left otherwise — and takes them back at this point's contents, which the run's stores cover;
    the output's buffer is handed back untouched where the window is idle, and comes back covered at the last key tile.
    The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 8 = 0
  · have h1 : ¬t.val % 8 = 7 := by omega
    rw [Dat.leavesExact_idle (dat3 V c) 3 t (idleAt3_3 t (fun h => h1 ((hcond3_1 t).mp h))) (noFlush3_3 t (fun h => h1 ((hcond3_1 t).mp h)))]
    by_cases hz : t.val = 0
    · rw [outsAt3_zero V c t hz, stepAt3_A V c t _ h0 h1]
      unfold sout3_A_0 sout3_A_1 sout3_A_2; (try dsimp only)
      rw [PhiS3_castSucc V c t, PhiS3_zero V c _ _ hz, PhiA3_eq]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_A_0 c _ _ _ _ _ _ _ _ _ _ _ _ _ _ _ _ _ _ _ _)
          isplitl [HS1]
          · unfold owns; iexists _; isplitr
            swap; · iexact HS1
            ipureintro; exact View.read_writes_of_cover _ _ _ _ _ (scover3_A_1 c _ _ _ _ _ _ _ _ _ _ _ _ _ _ _ _ _ _ _ _)
          unfold owns; iexists _; isplitr
          swap; · iexact HS2
          ipureintro; exact View.read_writes_of_cover _ _ _ _ _ (scover3_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [outsAt3_pos V c t hz, stepAt3_A V c t _ h0 h1]
      unfold sout3_A_0 sout3_A_1 sout3_A_2; (try dsimp only)
      rw [PhiS3_castSucc V c t, PhiS3_pos V c _ _ hz]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_A_0 c _ _ _ _ _ _ _ _ _ _ _ _ _ _ _ _ _ _ _ _)
          isplitl [HS1]
          · unfold owns; iexists _; isplitr
            swap; · iexact HS1
            ipureintro; exact View.read_writes_of_cover _ _ _ _ _ (scover3_A_1 c _ _ _ _ _ _ _ _ _ _ _ _ _ _ _ _ _ _ _ _)
          unfold owns; iexists _; isplitr
          swap; · iexact HS2
          ipureintro; exact View.read_writes_of_cover _ _ _ _ _ (scover3_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_pos V c t hz, stepAt3_C V c t _ h0 h1]
      unfold out3_C_3 sout3_C_0 sout3_C_1 sout3_C_2; (try dsimp only)
      rw [PhiS3_castSucc V c t, PhiS3_pos V c _ _ hz]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_C_1 c _ _ _ _ _ _ _ _ _ _ _ _ _ _ _ _ _ _ _ _ _ _ _)
          unfold owns; iexists _; isplitr
          swap; · iexact HS2
          ipureintro; exact View.read_writes_of_cover _ _ _ _ _ (scover3_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_pos V c t hz, stepAt3_B V c t _ h0 h1]
      unfold sout3_B_0 sout3_B_1 sout3_B_2; (try dsimp only)
      rw [PhiS3_castSucc V c t, PhiS3_pos V c _ _ hz]
      iintro ⟨⟨⟨HR0, HR1, HR2, HR3, HR4, HR5, HR6, HR7, HR8, HR9, HR10, HR11, HR12, HR13, HR14, HR15, HR16, HR17, HS0, HS1, HS2⟩, Hg⟩, Ho, ⟨%d0, H0⟩, ⟨%d1, H1⟩, ⟨%d2, H2⟩, ⟨%d3, H3⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HR6 HR7 HR8 HR9 HR10 HR11 HR12 HR13 HR14 HR15 HR16 HR17 HS0 HS1 HS2 Hg]
      · isplitl [HR0 HR1 HR2 HR3 HR4 HR5 HR6 HR7 HR8 HR9 HR10 HR11 HR12 HR13 HR14 HR15 HR16 HR17 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _)
          unfold owns; iexists _; isplitr
          swap; · iexact HS2
          ipureintro; exact View.read_writes_of_cover _ _ _ _ _ (scover3_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

/-- What the region is entered with (the class's invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class's back: what the kept buffers hold is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0, HS1, HS2⟩, Hg⟩
  isplitl [HR0 HR1 HR2 HR3 HR4 HR5 HR6 HR7 HR8 HR9 HR10 HR11 HR12 HR13 HR14 HR15 HR16 HR17 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HS0]; · iexists _; iexact HS0
    isplitl [HS1]; · iexists _; iexact HS1
    iexists _; iexact HS2
  iexact Hg

theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Frm

end
-- ==== Proof.IdealRun.lean ====
/-
  The whole program as a run. @main is seven items in a row: the reshape of the query bias into a row, the query
  projection, the same two for the keys, the same two for the values, and the attention call. Here: what every unscoped
  buffer of a core holds at each of the eight boundaries between them (a fold from the launch memory: a reshape's result,
  then a call's arrays at what its pipeline leaves); that no item writes an argument, so each argument's buffer reads
  back to the launch memory through the fold; the proof data of the four pipelines, each at its call's entry contents;
  the four calls as segments; and the run: every weakly fair execution of @main terminates without a fault, the result
  array holding what the attention pipeline's write-backs leave and the nine arguments what they were launched with.
-/
import proofs.«150159_j62277025792152_2_alg».proof.Proof.IdealProj0
import proofs.«150159_j62277025792152_2_alg».proof.Proof.IdealProj1
import proofs.«150159_j62277025792152_2_alg».proof.Proof.IdealProj2
import proofs.«150159_j62277025792152_2_alg».proof.Proof.IdealAttn
import proofs.«150159_j62277025792152_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers at launch. -/
abbrev Bd0 : Dev nD → Valuation τ sig (Elt F) := fun c b => (s₀ m ρ).mem ((c : Dev nD), b)

/-- After the reshape of bias 0 into a row (the entry of call 0). -/
abbrev Bd1 : Dev nD → Valuation τ sig (Elt F) := fun c => StableHlo.after hostOps0 (Bd0 m ρ c)
abbrev At1 : (c : Dev nD) → (b : Ref sig .tc) → Buf (Elt F) ((c : Thread nD τ).loc b) := fun c b => Bd1 m ρ c b

/-- At the exit of call 0: its arrays at what the pipeline leaves (an input as entered, the output with every block's
    write-back folded in), every other buffer as entered. -/
def Bd2 (c : Dev nD) : Valuation τ sig (Elt F) :=
  Pipeline.withArrays spec0 c (Bd1 m ρ c) fun w => (dat0 (At1 m ρ) c).arrAt w cfg0.N
theorem Bd2_arr (c : Dev nD) (w : Fin cfg0.W) :
    Bd2 m ρ c (Proc.devRef .tc (Pipeline.arrRef spec0 w)) = (dat0 (At1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev At2 : (c : Dev nD) → (b : Ref sig .tc) → Buf (Elt F) ((c : Thread nD τ).loc b) := fun c b => Bd2 m ρ c b
theorem hF0 (c : Dev nD) (w : Fin cfg0.W) : (dat0 (At1 m ρ) c).arrAt w cfg0.N = At2 m ρ c (Pipeline.arrRef spec0 w) :=
  (Bd2_arr m ρ c w).symm
theorem hrest0 (c : Dev nD) : ∀ b, b ∉ Finset.univ.image (Pipeline.arrRef spec0) → At2 m ρ c b = At1 m ρ c b :=
  fun b hb => Bd2_of_ne m ρ c b fun w e => hb (Finset.mem_image.mpr ⟨w, Finset.mem_univ _, e⟩)

/-- After the reshape of bias 1 into a row (the entry of call 1). -/
abbrev Bd3 : Dev nD → Valuation τ sig (Elt F) := fun c => StableHlo.after hostOps1 (Bd2 m ρ c)
abbrev At3 : (c : Dev nD) → (b : Ref sig .tc) → Buf (Elt F) ((c : Thread nD τ).loc b) := fun c b => Bd3 m ρ c b

/-- At the exit of call 1: its arrays at what the pipeline leaves (an input as entered, the output with every block's
    write-back folded in), every other buffer as entered. -/
def Bd4 (c : Dev nD) : Valuation τ sig (Elt F) :=
  Pipeline.withArrays spec1 c (Bd3 m ρ c) fun w => (dat1 (At3 m ρ) c).arrAt w cfg1.N
theorem Bd4_arr (c : Dev nD) (w : Fin cfg1.W) :
    Bd4 m ρ c (Proc.devRef .tc (Pipeline.arrRef spec1 w)) = (dat1 (At3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev At4 : (c : Dev nD) → (b : Ref sig .tc) → Buf (Elt F) ((c : Thread nD τ).loc b) := fun c b => Bd4 m ρ c b
theorem hF1 (c : Dev nD) (w : Fin cfg1.W) : (dat1 (At3 m ρ) c).arrAt w cfg1.N = At4 m ρ c (Pipeline.arrRef spec1 w) :=
  (Bd4_arr m ρ c w).symm
theorem hrest1 (c : Dev nD) : ∀ b, b ∉ Finset.univ.image (Pipeline.arrRef spec1) → At4 m ρ c b = At3 m ρ c b :=
  fun b hb => Bd4_of_ne m ρ c b fun w e => hb (Finset.mem_image.mpr ⟨w, Finset.mem_univ _, e⟩)

/-- After the reshape of bias 2 into a row (the entry of call 2). -/
abbrev Bd5 : Dev nD → Valuation τ sig (Elt F) := fun c => StableHlo.after hostOps2 (Bd4 m ρ c)
abbrev At5 : (c : Dev nD) → (b : Ref sig .tc) → Buf (Elt F) ((c : Thread nD τ).loc b) := fun c b => Bd5 m ρ c b

/-- At the exit of call 2: its arrays at what the pipeline leaves (an input as entered, the output with every block's
    write-back folded in), every other buffer as entered. -/
def Bd6 (c : Dev nD) : Valuation τ sig (Elt F) :=
  Pipeline.withArrays spec2 c (Bd5 m ρ c) fun w => (dat2 (At5 m ρ) c).arrAt w cfg2.N
theorem Bd6_arr (c : Dev nD) (w : Fin cfg2.W) :
    Bd6 m ρ c (Proc.devRef .tc (Pipeline.arrRef spec2 w)) = (dat2 (At5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev At6 : (c : Dev nD) → (b : Ref sig .tc) → Buf (Elt F) ((c : Thread nD τ).loc b) := fun c b => Bd6 m ρ c b
theorem hF2 (c : Dev nD) (w : Fin cfg2.W) : (dat2 (At5 m ρ) c).arrAt w cfg2.N = At6 m ρ c (Pipeline.arrRef spec2 w) :=
  (Bd6_arr m ρ c w).symm
theorem hrest2 (c : Dev nD) : ∀ b, b ∉ Finset.univ.image (Pipeline.arrRef spec2) → At6 m ρ c b = At5 m ρ c b :=
  fun b hb => Bd6_of_ne m ρ c b fun w e => hb (Finset.mem_image.mpr ⟨w, Finset.mem_univ _, e⟩)

/-- At the exit of call 3: its arrays at what the pipeline leaves (an input as entered, the output with every block's
    write-back folded in), every other buffer as entered. -/
def Bd7 (c : Dev nD) : Valuation τ sig (Elt F) :=
  Pipeline.withArrays spec3 c (Bd6 m ρ c) fun w => (dat3 (At6 m ρ) c).arrAt w cfg3.N
theorem Bd7_arr (c : Dev nD) (w : Fin cfg3.W) :
    Bd7 m ρ c (Proc.devRef .tc (Pipeline.arrRef spec3 w)) = (dat3 (At6 m ρ) c).arrAt w cfg3.N := by
  unfold Bd7; exact Pipeline.withArrays_arr spec3 launch3.win.arr_inj c _ _ w
theorem Bd7_of_ne (c : Dev nD) (b : Ref sig .tc) (hb : ∀ w, Pipeline.arrRef spec3 w ≠ b) :
    Bd7 m ρ c (Proc.devRef .tc b) = Bd6 m ρ c (Proc.devRef .tc b) := by
  unfold Bd7; exact Pipeline.withArrays_of_ne spec3 c _ _ b hb
abbrev At7 : (c : Dev nD) → (b : Ref sig .tc) → Buf (Elt F) ((c : Thread nD τ).loc b) := fun c b => Bd7 m ρ c b
theorem hF3 (c : Dev nD) (w : Fin cfg3.W) : (dat3 (At6 m ρ) c).arrAt w cfg3.N = At7 m ρ c (Pipeline.arrRef spec3 w) :=
  (Bd7_arr m ρ c w).symm
theorem hrest3 (c : Dev nD) : ∀ b, b ∉ Finset.univ.image (Pipeline.arrRef spec3) → At7 m ρ c b = At6 m ρ c b :=
  fun b hb => Bd7_of_ne m ρ c b fun w e => hb (Finset.mem_image.mpr ⟨w, Finset.mem_univ _, e⟩)

/-! No item writes an argument: a reshape writes its own result, a call writes its output array only, and an argument a
    call stages as an input comes out of the pipeline as it went in. -/

theorem Bd7_main_arg0 (c : Dev nD) : Bd7 m ρ c (Proc.devRef .tc main_arg0) = m ((c : Thread nD τ).loc main_arg0) :=
  calc Bd7 m ρ c (Proc.devRef .tc main_arg0)
    _ = Bd6 m ρ c (Proc.devRef .tc main_arg0) := Bd7_of_ne m ρ c main_arg0 (by decide)
    _ = Bd5 m ρ c (Proc.devRef .tc main_arg0) := Bd6_of_ne m ρ c main_arg0 (by decide)
    _ = Bd4 m ρ c (Proc.devRef .tc main_arg0) := StableHlo.after_of_writes_sub hostOps2 _ hostOps2_writes (by decide)
    _ = Bd3 m ρ c (Proc.devRef .tc main_arg0) := Bd4_of_ne m ρ c main_arg0 (by decide)
    _ = Bd2 m ρ c (Proc.devRef .tc main_arg0) := StableHlo.after_of_writes_sub hostOps1 _ hostOps1_writes (by decide)
    _ = Bd1 m ρ c (Proc.devRef .tc main_arg0) := (Bd2_arr m ρ c 0).trans (((dat0 (At1 m ρ) c).arrAt_in 0 rfl _).trans (A_eq0 (At1 m ρ) c 0))
    _ = Bd0 m ρ c (Proc.devRef .tc main_arg0) := StableHlo.after_of_writes_sub hostOps0 _ hostOps0_writes (by decide)
    _ = m ((c : Thread nD τ).loc main_arg0) := rfl
theorem Bd7_main_arg1 (c : Dev nD) : Bd7 m ρ c (Proc.devRef .tc main_arg1) = m ((c : Thread nD τ).loc main_arg1) :=
  calc Bd7 m ρ c (Proc.devRef .tc main_arg1)
    _ = Bd6 m ρ c (Proc.devRef .tc main_arg1) := Bd7_of_ne m ρ c main_arg1 (by decide)
    _ = Bd5 m ρ c (Proc.devRef .tc main_arg1) := Bd6_of_ne m ρ c main_arg1 (by decide)
    _ = Bd4 m ρ c (Proc.devRef .tc main_arg1) := StableHlo.after_of_writes_sub hostOps2 _ hostOps2_writes (by decide)
    _ = Bd3 m ρ c (Proc.devRef .tc main_arg1) := (Bd4_arr m ρ c 0).trans (((dat1 (At3 m ρ) c).arrAt_in 0 rfl _).trans (A_eq1 (At3 m ρ) c 0))
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl
theorem Bd7_main_arg2 (c : Dev nD) : Bd7 m ρ c (Proc.devRef .tc main_arg2) = m ((c : Thread nD τ).loc main_arg2) :=
  calc Bd7 m ρ c (Proc.devRef .tc main_arg2)
    _ = Bd6 m ρ c (Proc.devRef .tc main_arg2) := Bd7_of_ne m ρ c main_arg2 (by decide)
    _ = Bd5 m ρ c (Proc.devRef .tc main_arg2) := (Bd6_arr m ρ c 0).trans (((dat2 (At5 m ρ) c).arrAt_in 0 rfl _).trans (A_eq2 (At5 m ρ) c 0))
    _ = Bd4 m ρ c (Proc.devRef .tc main_arg2) := StableHlo.after_of_writes_sub hostOps2 _ hostOps2_writes (by decide)
    _ = Bd3 m ρ c (Proc.devRef .tc main_arg2) := Bd4_of_ne m ρ c main_arg2 (by decide)
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl
theorem Bd7_main_arg3 (c : Dev nD) : Bd7 m ρ c (Proc.devRef .tc main_arg3) = m ((c : Thread nD τ).loc main_arg3) :=
  calc Bd7 m ρ c (Proc.devRef .tc main_arg3)
    _ = Bd6 m ρ c (Proc.devRef .tc main_arg3) := Bd7_of_ne m ρ c main_arg3 (by decide)
    _ = Bd5 m ρ c (Proc.devRef .tc main_arg3) := Bd6_of_ne m ρ c main_arg3 (by decide)
    _ = Bd4 m ρ c (Proc.devRef .tc main_arg3) := StableHlo.after_of_writes_sub hostOps2 _ hostOps2_writes (by decide)
    _ = Bd3 m ρ c (Proc.devRef .tc main_arg3) := Bd4_of_ne m ρ c main_arg3 (by decide)
    _ = Bd2 m ρ c (Proc.devRef .tc main_arg3) := StableHlo.after_of_writes_sub hostOps1 _ hostOps1_writes (by decide)
    _ = Bd1 m ρ c (Proc.devRef .tc main_arg3) := (Bd2_arr m ρ c 1).trans (((dat0 (At1 m ρ) c).arrAt_in 1 rfl _).trans (A_eq0 (At1 m ρ) c 1))
    _ = Bd0 m ρ c (Proc.devRef .tc main_arg3) := StableHlo.after_of_writes_sub hostOps0 _ hostOps0_writes (by decide)
    _ = m ((c : Thread nD τ).loc main_arg3) := rfl
theorem Bd7_main_arg4 (c : Dev nD) : Bd7 m ρ c (Proc.devRef .tc main_arg4) = m ((c : Thread nD τ).loc main_arg4) :=
  calc Bd7 m ρ c (Proc.devRef .tc main_arg4)
    _ = Bd6 m ρ c (Proc.devRef .tc main_arg4) := Bd7_of_ne m ρ c main_arg4 (by decide)
    _ = Bd5 m ρ c (Proc.devRef .tc main_arg4) := Bd6_of_ne m ρ c main_arg4 (by decide)
    _ = Bd4 m ρ c (Proc.devRef .tc main_arg4) := StableHlo.after_of_writes_sub hostOps2 _ hostOps2_writes (by decide)
    _ = Bd3 m ρ c (Proc.devRef .tc main_arg4) := Bd4_of_ne m ρ c main_arg4 (by decide)
    _ = Bd2 m ρ c (Proc.devRef .tc main_arg4) := StableHlo.after_of_writes_sub hostOps1 _ hostOps1_writes (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (by decide)
    _ = m ((c : Thread nD τ).loc main_arg4) := rfl
theorem Bd7_main_arg5 (c : Dev nD) : Bd7 m ρ c (Proc.devRef .tc main_arg5) = m ((c : Thread nD τ).loc main_arg5) :=
  calc Bd7 m ρ c (Proc.devRef .tc main_arg5)
    _ = Bd6 m ρ c (Proc.devRef .tc main_arg5) := Bd7_of_ne m ρ c main_arg5 (by decide)
    _ = Bd5 m ρ c (Proc.devRef .tc main_arg5) := Bd6_of_ne m ρ c main_arg5 (by decide)
    _ = Bd4 m ρ c (Proc.devRef .tc main_arg5) := StableHlo.after_of_writes_sub hostOps2 _ hostOps2_writes (by decide)
    _ = Bd3 m ρ c (Proc.devRef .tc main_arg5) := (Bd4_arr m ρ c 1).trans (((dat1 (At3 m ρ) c).arrAt_in 1 rfl _).trans (A_eq1 (At3 m ρ) c 1))
    _ = Bd2 m ρ c (Proc.devRef .tc main_arg5) := StableHlo.after_of_writes_sub hostOps1 _ hostOps1_writes (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (by decide)
    _ = m ((c : Thread nD τ).loc main_arg5) := rfl
theorem Bd7_main_arg6 (c : Dev nD) : Bd7 m ρ c (Proc.devRef .tc main_arg6) = m ((c : Thread nD τ).loc main_arg6) :=
  calc Bd7 m ρ c (Proc.devRef .tc main_arg6)
    _ = Bd6 m ρ c (Proc.devRef .tc main_arg6) := Bd7_of_ne m ρ c main_arg6 (by decide)
    _ = Bd5 m ρ c (Proc.devRef .tc main_arg6) := Bd6_of_ne m ρ c main_arg6 (by decide)
    _ = Bd4 m ρ c (Proc.devRef .tc main_arg6) := StableHlo.after_of_writes_sub hostOps2 _ hostOps2_writes (by decide)
    _ = Bd3 m ρ c (Proc.devRef .tc main_arg6) := Bd4_of_ne m ρ c main_arg6 (by decide)
    _ = Bd2 m ρ c (Proc.devRef .tc main_arg6) := StableHlo.after_of_writes_sub hostOps1 _ hostOps1_writes (by decide)
    _ = Bd1 m ρ c (Proc.devRef .tc main_arg6) := Bd2_of_ne m ρ c main_arg6 (by decide)
    _ = Bd0 m ρ c (Proc.devRef .tc main_arg6) := StableHlo.after_of_writes_sub hostOps0 _ hostOps0_writes (by decide)
    _ = m ((c : Thread nD τ).loc main_arg6) := rfl
theorem Bd7_main_arg7 (c : Dev nD) : Bd7 m ρ c (Proc.devRef .tc main_arg7) = m ((c : Thread nD τ).loc main_arg7) :=
  calc Bd7 m ρ c (Proc.devRef .tc main_arg7)
    _ = Bd6 m ρ c (Proc.devRef .tc main_arg7) := Bd7_of_ne m ρ c main_arg7 (by decide)
    _ = Bd5 m ρ c (Proc.devRef .tc main_arg7) := (Bd6_arr m ρ c 1).trans (((dat2 (At5 m ρ) c).arrAt_in 1 rfl _).trans (A_eq2 (At5 m ρ) c 1))
    _ = Bd4 m ρ c (Proc.devRef .tc main_arg7) := StableHlo.after_of_writes_sub hostOps2 _ hostOps2_writes (by decide)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl
theorem Bd7_main_arg8 (c : Dev nD) : Bd7 m ρ c (Proc.devRef .tc main_arg8) = m ((c : Thread nD τ).loc main_arg8) :=
  calc Bd7 m ρ c (Proc.devRef .tc main_arg8)
    _ = Bd6 m ρ c (Proc.devRef .tc main_arg8) := Bd7_of_ne m ρ c main_arg8 (by decide)
    _ = Bd5 m ρ c (Proc.devRef .tc main_arg8) := Bd6_of_ne m ρ c main_arg8 (by decide)
    _ = Bd4 m ρ c (Proc.devRef .tc main_arg8) := StableHlo.after_of_writes_sub hostOps2 _ hostOps2_writes (by decide)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl

/-- The result array at the last boundary is what the attention pipeline's write-backs leave. -/
theorem Bd7_result (c : Dev nD) : Bd7 m ρ c (Proc.devRef .tc main_v6) = (dat3 (At6 m ρ) c).arrAt 3 cfg3.N :=
  Bd7_arr m ρ c 3

/-- Every pipeline's proof data, each at its call's entry contents. -/
def pdats : (p : Fin 4) → (c : Dev nD) → Dat τ (Elt F) Unit ℕ (Pipeline.UD sig nD τ) ℕ (Pipeline.pin (pcfgs (F := F)) adm p) c
  | ⟨0, _⟩ => fun c => dat0 (At1 m ρ) c
  | ⟨1, _⟩ => fun c => dat1 (At3 m ρ) c
  | ⟨2, _⟩ => fun c => dat2 (At5 m ρ) c
  | ⟨3, _⟩ => fun c => dat3 (At6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (Bd7 m ρ c) ∗ ∃ r, prngReg c r)

set_option backward.isDefEq.respectTransparency.types false in
/-- Call 0 as a segment of @main over the thread state "every unscoped buffer at the boundary's contents, the generator
    register at some state, nothing owed": its arrays are split out of the unscoped buffers at entry and put back at
    their exit contents; the generator register goes into the invariant and comes back; the call has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (At1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (At1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (At1 m ρ c) (At2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main over the thread state "every unscoped buffer at the boundary's contents, the generator
    register at some state, nothing owed": its arrays are split out of the unscoped buffers at entry and put back at
    their exit contents; the generator register goes into the invariant and comes back; the call has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (At3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (At3 m ρ c) (At4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main over the thread state "every unscoped buffer at the boundary's contents, the generator
    register at some state, nothing owed": its arrays are split out of the unscoped buffers at entry and put back at
    their exit contents; the generator register goes into the invariant and comes back; the call has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (At5 m ρ) c).loose
  hwaits := Pipeline.hwaits_of_owed_zero _ _ _ _ L lv 2 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (At5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (At5 m ρ c) (At6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of @main over the thread state "every unscoped buffer at the boundary's contents, the generator
    register at some state, nothing owed": its arrays are split out of the unscoped buffers at entry and put back at
    their exit contents; the generator register goes into the invariant and comes back; the call has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (At6 m ρ) c).loose
  hwaits := Pipeline.hwaits_of_owed_zero _ _ _ _ L lv 3 fun _ _ => rfl
  pre c := iprop(StableHlo.held (c : Thread nD τ) (Pipeline.ucRefs τ sig) (Bd6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (At6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (At6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (At6 m ρ) c)
    unfold Pipeline.ΦA
    iintro ⟨Hp, -, Hr⟩
    isplitl [Hr]; · iexact Hr
    iexact Hp
  hout c := by
    rw [Pipeline.ownSems0_none]
    refine (hout3 (At6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (At6 m ρ c) (At7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's seven items in order. -/
abbrev segs : List (Pipeline.Seg (pcfgs (F := F)) adm (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)),
    .region (reg2 m ρ),
    .region (reg3 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state the result array holds what the last boundary's contents say and each
    argument array what it was launched with. -/
theorem run_main : θ_run defs (onTc (τ := τ) (main (F := F))) ⟨m, fun _ => 0, ρ⟩ (fun r => ∀ c : Dev nD,
      r.2.mem ((c.tc : Thread nD τ).loc main_v6) = (dat3 (At6 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h c =>
      ⟨(h c _ (mem_uc main_v6 (by decide))).trans (Bd7_result m ρ c),
       (h c _ (mem_uc main_arg0 (by decide))).trans (Bd7_main_arg0 m ρ c),
       (h c _ (mem_uc main_arg1 (by decide))).trans (Bd7_main_arg1 m ρ c),
       (h c _ (mem_uc main_arg2 (by decide))).trans (Bd7_main_arg2 m ρ c),
       (h c _ (mem_uc main_arg3 (by decide))).trans (Bd7_main_arg3 m ρ c),
       (h c _ (mem_uc main_arg4 (by decide))).trans (Bd7_main_arg4 m ρ c),
       (h c _ (mem_uc main_arg5 (by decide))).trans (Bd7_main_arg5 m ρ c),
       (h c _ (mem_uc main_arg6 (by decide))).trans (Bd7_main_arg6 m ρ c),
       (h c _ (mem_uc main_arg7 (by decide))).trans (Bd7_main_arg7 m ρ c),
       (h c _ (mem_uc main_arg8 (by decide))).trans (Bd7_main_arg8 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Frm

end
-- ==== Proof.Spec.lean ====
/-
  The attention result as ONE function of the nine argument arrays, read index by index over the literal
  shapes, in the arrangement of the reference: project, score every (query, key) pair, take each query
  row's maximum, exponentiate the differences, take the row's sum, normalise, and mix the projected values.

  With q k v : [4096, 1024], Wq Wk Wv : [1024, 1024], bq bk bv : [1024], all extended reals:

    proj x W b (i, d)  = (Σ_k x(i, k) · W(k, d)) + b(d)
    score (i, j)       = (Σ_d Qp(i, d) · Kp(j, d)) / √(1024.0)
    rowMax i           = max (-∞) (the maximum over j, started from -∞, of score (i, j))
    rowSum i           = 0 + Σ_j exp (score (i, j) − rowMax i)
    attn (i, h)        = Σ_j (exp (score (i, j) − rowMax i) / rowSum i) · Vp(j, h)

  Every operation is the extended reals' own (division is `Ideal.div`, the exponential `Ideal.exp`, the
  square root `Ideal.sqrt`); the three float constants stay the words the program prints (1024.0 is
  0x44800000, -∞ is 0xFF800000, 0 is 0x00000000), so that the same word on two sides is never evaluated.
  Nothing here mentions a program: this module is the common target both programs are read against.
-/
import Idealize.ShloMosaic.PureOps.Ideal
import Idealize.ShloMosaic.Lib.ValueIdx

noncomputable section

namespace Cert.Attn

open Idealize.ShloMosaic Idealize.ShloMosaic.ValueIdx
open scoped BigOperators

/-- A [4096, 1024] array's shape: 4096 sequence positions by 1024 features. -/
abbrev SeqFeat : Shape := ⟨2, ![4096, 1024]⟩
/-- A [1024, 1024] weight matrix's shape. -/
abbrev Weight : Shape := ⟨2, ![1024, 1024]⟩
/-- A [1024] bias vector's shape. -/
abbrev Bias : Shape := ⟨1, ![1024]⟩

/-- A dense projection at (i, d): the row x(i, ·) against the column W(·, d), plus the bias b(d). -/
def proj (x : SeqFeat.Idx → EReal) (W : Weight.Idx → EReal) (b : Bias.Idx → EReal) (i : Fin 4096) (d : Fin 1024) : EReal :=
  (∑ k : Fin 1024, x (ix2 i k) * W (ix2 k d)) + b (ix1 d)

/-- The scaled score of query i against key j: the projected query row against the projected key row,
    divided by the square root of the constant 1024.0. -/
def score (q k : SeqFeat.Idx → EReal) (Wq : Weight.Idx → EReal) (bq : Bias.Idx → EReal) (Wk : Weight.Idx → EReal)
    (bk : Bias.Idx → EReal) (i j : Fin 4096) : EReal :=
  Ideal.div (∑ d : Fin 1024, proj q Wq bq i d * proj k Wk bk j d) (Ideal.sqrt (Ideal.ofBits .f32 0x44800000#32))

/-- Query row i's maximum score: the maximum over the keys started from -∞, then once more against -∞. -/
def rowMax (q k : SeqFeat.Idx → EReal) (Wq : Weight.Idx → EReal) (bq : Bias.Idx → EReal) (Wk : Weight.Idx → EReal)
    (bk : Bias.Idx → EReal) (i : Fin 4096) : EReal :=
  max (Ideal.ofBits .f32 0xFF800000#32)
    ((Finset.univ : Finset (Fin 4096)).fold max (Ideal.ofBits .f32 0xFF800000#32) (fun j => score q k Wq bq Wk bk i j))

/-- The unnormalised softmax weight of key j in query row i. -/
def expScore (q k : SeqFeat.Idx → EReal) (Wq : Weight.Idx → EReal) (bq : Bias.Idx → EReal) (Wk : Weight.Idx → EReal)
    (bk : Bias.Idx → EReal) (i j : Fin 4096) : EReal :=
  Ideal.exp (score q k Wq bq Wk bk i j - rowMax q k Wq bq Wk bk i)

/-- Query row i's normaliser: zero plus the sum of the row's unnormalised weights. -/
def rowSum (q k : SeqFeat.Idx → EReal) (Wq : Weight.Idx → EReal) (bq : Bias.Idx → EReal) (Wk : Weight.Idx → EReal)
    (bk : Bias.Idx → EReal) (i : Fin 4096) : EReal :=
  Ideal.ofBits .f32 0x00000000#32 + ∑ j : Fin 4096, expScore q k Wq bq Wk bk i j

/-- The attention output at (i, h): the normalised weights of row i against column h of the projected values. -/
def attn (q k v : SeqFeat.Idx → EReal) (Wq : Weight.Idx → EReal) (bq : Bias.Idx → EReal) (Wk : Weight.Idx → EReal)
    (bk : Bias.Idx → EReal) (Wv : Weight.Idx → EReal) (bv : Bias.Idx → EReal) (i : Fin 4096) (h : Fin 1024) : EReal :=
  ∑ j : Fin 4096, Ideal.div (expScore q k Wq bq Wk bk i j) (rowSum q k Wq bq Wk bk i) * proj v Wv bv j h

/-- The whole result array: `attn` at an index's two coordinates. -/
def G (q k v : SeqFeat.Idx → EReal) (Wq : Weight.Idx → EReal) (bq : Bias.Idx → EReal) (Wk : Weight.Idx → EReal)
    (bk : Bias.Idx → EReal) (Wv : Weight.Idx → EReal) (bv : Bias.Idx → EReal) : SeqFeat.Idx → EReal :=
  fun idx => attn q k v Wq bq Wk bk Wv bv (idx 0) (idx 1)

/-- At the index built from coordinates (i, h) the result is `attn` there. -/
theorem G_ix2 (q k v : SeqFeat.Idx → EReal) (Wq : Weight.Idx → EReal) (bq : Bias.Idx → EReal) (Wk : Weight.Idx → EReal)
    (bk : Bias.Idx → EReal) (Wv : Weight.Idx → EReal) (bv : Bias.Idx → EReal) (i : Fin 4096) (h : Fin 1024) :
    G q k v Wq bq Wk bk Wv bv (ix2 i h) = attn q k v Wq bq Wk bk Wv bv i h := rfl

end Cert.Attn

end
-- ==== Proof.RefSpec.lean ====
/-
  The reference program computes the specification. Its run ends with the result buffer at the composed
  term of its 33 host operations; read stage by stage at an index built from coordinates, that term is
  `Cert.Attn.G` of the nine argument arrays:

    the three projections   x·W + b      : a contraction over the 1024 input features plus the broadcast bias;
    the scores              Qp·Kpᵀ / √1024.0 : the transpose only swaps the two coordinates of the projected keys;
    each row's maximum      the reduction over the key axis is a fold of max from -∞ over the 4096 keys
                            (max is commutative and associative, so the order of the fold is immaterial),
                            followed by one more max against a broadcast -∞;
    the exponentials, the row sums (0 plus the sum over the key axis), the quotients, and the final contraction
    of the weights against the projected values over the 4096 keys.

  Each broadcast reads its operand at the index with the broadcast axis dropped, so every stage at (i, j) or at
  row i is the corresponding definition of the specification at the same coordinates. From this and the
  reference's generated run: the reference's frame (it terminates, faults nowhere, leaves its arguments
  unchanged) and its run with the result stated as `G` of the arguments.
-/
import proofs.«150159_j62277025792152_2_alg».proof.Defs
import proofs.«150159_j62277025792152_2_alg».proof.Proof.Gen.ReferenceIdeal
import proofs.«150159_j62277025792152_2_alg».proof.Proof.Gen.ReferenceIdeal.Run
import proofs.«150159_j62277025792152_2_alg».proof.Proof.Gen.ReferenceIdeal.Read
import proofs.«150159_j62277025792152_2_alg».proof.Proof.Gen.Pre_finite_inputs
import proofs.«150159_j62277025792152_2_alg».proof.Proof.Spec
import Idealize.ShloMosaic.PureOps.Ideal.Laws
import Idealize.ShloMosaic.PureOps.Reduce
import Idealize.ShloMosaic.Lib.ValueIdx
import Idealize.ShloMosaic.Lib.StableHlo.Run

noncomputable section

namespace Cert.Attn

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

/-! ## The reference's composed index functions at an index built from coordinates -/

section Indices
variable (i j : Fin 4096) (d h k : Fin 1024) (z : Fin 1)

/-- A projection's contraction reads the input at (i, k) … -/
theorem lidx_v0 : lidx_main_v0 (ix2 i d) k = ix2 i k :=
  funext fun a => Fin.ext (by match a with | ⟨0, _⟩ => rfl | ⟨1, _⟩ => rfl)
/-- … and the weight at (k, d). -/
theorem ridx_v0 : ridx_main_v0 (ix2 i d) k = ix2 k d :=
  funext fun a => Fin.ext (by match a with | ⟨0, _⟩ => rfl | ⟨1, _⟩ => rfl)
theorem lidx_v4 : lidx_main_v4 (ix2 i d) k = ix2 i k :=
  funext fun a => Fin.ext (by match a with | ⟨0, _⟩ => rfl | ⟨1, _⟩ => rfl)
theorem ridx_v4 : ridx_main_v4 (ix2 i d) k = ix2 k d :=
  funext fun a => Fin.ext (by match a with | ⟨0, _⟩ => rfl | ⟨1, _⟩ => rfl)
theorem lidx_v8 : lidx_main_v8 (ix2 i d) k = ix2 i k :=
  funext fun a => Fin.ext (by match a with | ⟨0, _⟩ => rfl | ⟨1, _⟩ => rfl)
theorem ridx_v8 : ridx_main_v8 (ix2 i d) k = ix2 k d :=
  funext fun a => Fin.ext (by match a with | ⟨0, _⟩ => rfl | ⟨1, _⟩ => rfl)
/-- The bias, broadcast to a row and then down the rows, is read at feature d. -/
theorem idx_v2 : idx_main_v1 (idx_main_v2 (ix2 i d)) = ix1 d :=
  funext fun a => Fin.ext (by match a with | ⟨0, _⟩ => rfl)
theorem idx_v6 : idx_main_v5 (idx_main_v6 (ix2 i d)) = ix1 d :=
  funext fun a => Fin.ext (by match a with | ⟨0, _⟩ => rfl)
theorem idx_v10 : idx_main_v9 (idx_main_v10 (ix2 i d)) = ix1 d :=
  funext fun a => Fin.ext (by match a with | ⟨0, _⟩ => rfl)
/-- The score's contraction reads the projected query at (i, d) … -/
theorem lidx_v13 : lidx_main_v13 (ix2 i j) d = ix2 i d :=
  funext fun a => Fin.ext (by match a with | ⟨0, _⟩ => rfl | ⟨1, _⟩ => rfl)
/-- … and, through the transpose, the projected key at (j, d). -/
theorem ridx_v13 : idx_main_v12 (ridx_main_v13 (ix2 i j) d) = ix2 j d :=
  funext fun a => Fin.ext (by match a with | ⟨0, _⟩ => rfl | ⟨1, _⟩ => rfl)
/-- A per-row value broadcast to a column and then across the keys is read at row i. -/
theorem idx_v21 : idx_main_v20 (idx_main_v21 (ix2 i j)) = ix1 i :=
  funext fun a => Fin.ext (by match a with | ⟨0, _⟩ => rfl)
theorem idx_v26 : idx_main_v25 (idx_main_v26 (ix2 i j)) = ix1 i :=
  funext fun a => Fin.ext (by match a with | ⟨0, _⟩ => rfl)
/-- The row sum reads the exponentials at (i, j) over the keys j. -/
theorem idx_v24 : idx_main_v24 (ix1 i) j = ix2 i j :=
  funext fun a => Fin.ext (by match a with | ⟨0, _⟩ => rfl | ⟨1, _⟩ => rfl)
/-- The final contraction reads the weights at (i, j) … -/
theorem lidx_v28 : lidx_main_v28 (ix2 i h) j = ix2 i j :=
  funext fun a => Fin.ext (by match a with | ⟨0, _⟩ => rfl | ⟨1, _⟩ => rfl)
/-- … and the projected values at (j, h). -/
theorem ridx_v28 : ridx_main_v28 (ix2 i h) j = ix2 j h :=
  funext fun a => Fin.ext (by match a with | ⟨0, _⟩ => rfl | ⟨1, _⟩ => rfl)

end Indices

/-! ## The stages, at coordinates -/

section Stages
variable (x0 x1 x2 : (⟨S4096x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-- The projected queries. -/
theorem ref_projQ (i : Fin 4096) (d : Fin 1024) :
    val_main_v3 (F := Ideal) x0 x3 x4 (ix2 i d) = proj x0 x3 x4 i d := by
  rw [val_main_v3_apply, val_main_v0_apply, val_main_v2_apply, val_main_v1_apply]
  simp only [lidx_v0, ridx_v0, idx_v2, Ideal.addf_def]
  rfl

/-- The projected keys. -/
theorem ref_projK (j : Fin 4096) (d : Fin 1024) :
    val_main_v7 (F := Ideal) x1 x5 x6 (ix2 j d) = proj x1 x5 x6 j d := by
  rw [val_main_v7_apply, val_main_v4_apply, val_main_v6_apply, val_main_v5_apply]
  simp only [lidx_v4, ridx_v4, idx_v6, Ideal.addf_def]
  rfl

/-- The projected values. -/
theorem ref_projV (j : Fin 4096) (h : Fin 1024) :
    val_main_v11 (F := Ideal) x2 x7 x8 (ix2 j h) = proj x2 x7 x8 j h := by
  rw [val_main_v11_apply, val_main_v8_apply, val_main_v10_apply, val_main_v9_apply]
  simp only [lidx_v8, ridx_v8, idx_v10, Ideal.addf_def]
  rfl

/-- The scaled scores. -/
theorem ref_score (i j : Fin 4096) :
    val_main_v16 (F := Ideal) x0 x1 x3 x4 x5 x6 (ix2 i j) = score x0 x1 x3 x4 x5 x6 i j := by
  rw [val_main_v16_apply, val_main_v13_apply, val_main_v15_apply, val_main_v14_apply, val_main_cst_apply]
  simp only [val_main_v12_apply, lidx_v13, ridx_v13, ref_projQ, ref_projK, Ideal.hostDivf_def,
    Ideal.hostUnary_sqrt_def, Ideal.ofBits_def]
  rfl

/-- The reduction over the key axis by max from -∞ is, in row i, the fold of max from -∞ over the 4096 keys. -/
theorem ref_maxFold (i : Fin 4096) :
    val_main_v17 (F := Ideal) x0 x1 x3 x4 x5 x6 (ix1 i)
      = (Finset.univ : Finset (Fin 4096)).fold max (Ideal.ofBits .f32 0xFF800000#32)
          (fun j => val_main_v16 (F := Ideal) x0 x1 x3 x4 x5 x6 (ix2 i j)) := by
  unfold val_main_v17
  generalize val_main_v16 (F := Ideal) x0 x1 x3 x4 x5 x6 = y
  have hred : S4096x4096.Reduces [1] S4096 := by decide
  refine (Host.reduce_eq_fold_single (FloatOps.maximumf (F := Ideal) (φ := .f32)) y (val_main_cst_0 (F := Ideal))
    reducesTo_S4096x4096_S4096_d1 hred h_S_ (ix1 i)).trans ?_
  have e : (y ∘ hred.lift (ix1 i)) = fun j : Fin 4096 => y (ix2 i j) :=
    funext fun k => congrArg y (funext fun a => Fin.ext (by match a with | ⟨0, _⟩ => rfl | ⟨1, _⟩ => rfl))
  rw [e]
  rfl

/-- Each row's maximum. -/
theorem ref_rowMax (i : Fin 4096) :
    val_main_v19 (F := Ideal) x0 x1 x3 x4 x5 x6 (ix1 i) = rowMax x0 x1 x3 x4 x5 x6 i := by
  rw [val_main_v19_apply, val_main_v18_apply, val_main_cst_1_apply, ref_maxFold]
  simp only [ref_score, Ideal.maximumf_def, Ideal.ofBits_def]
  rfl

/-- The unnormalised weights. -/
theorem ref_expScore (i j : Fin 4096) :
    val_main_v23 (F := Ideal) x0 x1 x3 x4 x5 x6 (ix2 i j) = expScore x0 x1 x3 x4 x5 x6 i j := by
  rw [val_main_v23_apply, val_main_v22_apply, val_main_v21_apply, val_main_v20_apply, idx_v21, ref_rowMax, ref_score]
  simp only [Ideal.hostUnary_exp_def, Ideal.subf_def]
  rfl

/-- Each row's normaliser. -/
theorem ref_rowSum (i : Fin 4096) :
    val_main_v24 (F := Ideal) x0 x1 x3 x4 x5 x6 (ix1 i) = rowSum x0 x1 x3 x4 x5 x6 i := by
  rw [val_main_v24_apply, val_main_cst_2_apply]
  simp only [idx_v24, ref_expScore, Ideal.ofBits_def]
  rfl

/-- The normalised weights. -/
theorem ref_weight (i j : Fin 4096) :
    val_main_v27 (F := Ideal) x0 x1 x3 x4 x5 x6 (ix2 i j)
      = Ideal.div (expScore x0 x1 x3 x4 x5 x6 i j) (rowSum x0 x1 x3 x4 x5 x6 i) := by
  rw [val_main_v27_apply, val_main_v26_apply, val_main_v25_apply, idx_v26, ref_rowSum, ref_expScore]
  rfl

/-- The reference's last stage at (i, h) is the specification there. -/
theorem ref_attn (i : Fin 4096) (h : Fin 1024) :
    val_main_v28 (F := Ideal) x0 x1 x2 x3 x4 x5 x6 x7 x8 (ix2 i h) = attn x0 x1 x2 x3 x4 x5 x6 x7 x8 i h := by
  rw [val_main_v28_apply]
  simp only [lidx_v28, ridx_v28, ref_weight, ref_projV]
  rfl

/-- THE REFERENCE IS THE SPECIFICATION: its last stage, as an array, is `G` of its nine arguments. -/
theorem ref_is_spec :
    val_main_v28 (F := Ideal) x0 x1 x2 x3 x4 x5 x6 x7 x8 = G x0 x1 x2 x3 x4 x5 x6 x7 x8 := by
  funext idx
  obtain ⟨i, h, rfl⟩ : ∃ (i : Fin 4096) (h : Fin 1024), idx = ix2 i h := ⟨idx 0, idx 1, eq_ix2 idx⟩
  rw [ref_attn, G_ix2]

end Stages

/-! ## The reference's frame and its run, with the result stated as the specification -/

section Run

/-- The reference terminates, faults nowhere and leaves its nine arguments unchanged: its generated run with the
    result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- The reference's run from any memory: the result buffer ends at `G` of the nine argument arrays as the run
    found them, and the arguments end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v28)
          = G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
              (m' ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono
    (fun _ h c => ⟨(h c).1.trans ((Cert.ReferenceIdeal.Read.val_main_v28_eq (F := Ideal) m' c).trans (ref_is_spec _ _ _ _ _ _ _ _ _)), (h c).2⟩)
    (Cert.ReferenceIdeal.Value.run (F := Ideal) m' ρ')

end Run

end Cert.Attn

end
-- ==== Proof.IdealProjValue0.lean ====
/-
  Pallas call 0 of the program, read as a value on the extended reals: the output array the four grid points leave
  is the linear projection of the three arrays the call is entered with. With X : [4096, 1024] the input matrix,
  W : [1024, 1024] the weight and B : [1, 1024] the staged bias row,

      out (r, q) = (Σ_j X (r, j) · W (j, q)) + B (0, q).

  Three steps. The body's arithmetic at one entry of a block: the matrix product accumulated from the zero word is the
  plain sum of products over the contraction axis, the bias row is read at the entry's column, and both narrowings to
  the 16-bit format are the identity on the extended reals. The output's block at a grid point t: row a of the input's
  block is row 1024·t + a of X, the weight's and the bias row's blocks are the whole arrays, so the block is rows
  1024·t … 1024·t + 1023 of the projection. The cover: row r lies in the block of point r / 1024, so the four
  write-backs leave the projection everywhere.
-/
import proofs.«150159_j62277025792152_2_alg».proof.Proof.IdealProj0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at one entry -/

/-- The product's left operand is read in the output entry's row, -/
theorem pay0_lhs_row (i : S1024x1024.Idx) (r : dot_S1024x1024_S1024x1024_S1024x1024_1_0_0_1_n_n.contr.Idx) :
    (dot_S1024x1024_S1024x1024_S1024x1024_1_0_0_1_n_n.lhsIdx i r 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- at the contraction position; -/
theorem pay0_lhs_col (i : S1024x1024.Idx) (r : dot_S1024x1024_S1024x1024_S1024x1024_1_0_0_1_n_n.contr.Idx) :
    (dot_S1024x1024_S1024x1024_S1024x1024_1_0_0_1_n_n.lhsIdx i r 1).val = (r ⟨0, by decide⟩).val :=
  dot_S1024x1024_S1024x1024_S1024x1024_1_0_0_1_n_n.lhsIdx_val_of_single rfl i r
/-- the right operand at the contraction position, -/
theorem pay0_rhs_row (i : S1024x1024.Idx) (r : dot_S1024x1024_S1024x1024_S1024x1024_1_0_0_1_n_n.contr.Idx) :
    (dot_S1024x1024_S1024x1024_S1024x1024_1_0_0_1_n_n.rhsIdx i r 0).val = (r ⟨0, by decide⟩).val :=
  dot_S1024x1024_S1024x1024_S1024x1024_1_0_0_1_n_n.rhsIdx_val_of_single rfl i r
/-- in the output entry's column. -/
theorem pay0_rhs_col (i : S1024x1024.Idx) (r : dot_S1024x1024_S1024x1024_S1024x1024_1_0_0_1_n_n.contr.Idx) :
    (dot_S1024x1024_S1024x1024_S1024x1024_1_0_0_1_n_n.rhsIdx i r 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's arithmetic read at one entry, on the extended reals: row p of the first operand against column q of
    the second, summed over the 1024 contraction positions from a zero accumulator, plus entry q of the one bias row;
    the narrowings to the 16-bit format are the identity there. -/
theorem pay0_apply (x0 : Vec Ideal S1024x1024 .f32) (x1 : Vec Ideal S1024x1024 .f32) (x2 : Vec Ideal S1x1024 .f32) (p q : Fin 1024) :
    k0_pay1 (F := Ideal) x0 x1 x2 (ix2 p q) = (∑ j : Fin 1024, x0 (ix2 p j) * x1 (ix2 j q)) + x2 (ix2 (0 : Fin 1) q) := by
  unfold k0_pay1
  refine (truncf_apply (s := S1024x1024) (φ := .f32) (ψ := .bf16) _ bitsLt_bf16_f32 (ix2 p q)).trans ?_
  refine (addf_apply (s := S1024x1024) (φ := .f32) _ _ (ix2 p q)).trans ?_
  refine congrArg₂ (· + ·) ?_ ?_
  · refine (Ideal.matmul_constant_zero_apply dot_S1024x1024_S1024x1024_S1024x1024_1_0_0_1_n_n none _ _ (ix2 p q)).trans ?_
    rw [← Equiv.sum_comp (contrEquiv1 dot_S1024x1024_S1024x1024_S1024x1024_1_0_0_1_n_n 1024 rfl rfl).symm]
    refine Finset.sum_congr rfl fun j _ => ?_
    have hj := contrEquiv1_symm_val dot_S1024x1024_S1024x1024_S1024x1024_1_0_0_1_n_n 1024 rfl rfl j
    have el : dot_S1024x1024_S1024x1024_S1024x1024_1_0_0_1_n_n.lhsIdx (ix2 p q) ((contrEquiv1 dot_S1024x1024_S1024x1024_S1024x1024_1_0_0_1_n_n 1024 rfl rfl).symm j) = ix2 p j := funext fun a => Fin.ext (by
      match a with
      | ⟨0, _⟩ => exact pay0_lhs_row _ _
      | ⟨1, _⟩ => exact (pay0_lhs_col _ _).trans hj)
    have er : dot_S1024x1024_S1024x1024_S1024x1024_1_0_0_1_n_n.rhsIdx (ix2 p q) ((contrEquiv1 dot_S1024x1024_S1024x1024_S1024x1024_1_0_0_1_n_n 1024 rfl rfl).symm j) = ix2 j q := funext fun a => Fin.ext (by
      match a with
      | ⟨0, _⟩ => exact (pay0_rhs_row _ _).trans hj
      | ⟨1, _⟩ => exact pay0_rhs_col _ _)
    show x0 (dot_S1024x1024_S1024x1024_S1024x1024_1_0_0_1_n_n.lhsIdx (ix2 p q) _) * x1 (dot_S1024x1024_S1024x1024_S1024x1024_1_0_0_1_n_n.rhsIdx (ix2 p q) _) = _
    rw [el, er]
  · rw [shapeCast_self]
    exact broadcastTo_1b_ab_apply x2 broadcasts_S1x1024_S1024x1024 p q

/-! ## The output's block at a grid point -/

variable (V : (c : Dev nD) → (b : Ref sig .tc) → Buf (Elt Ideal) ((c : Thread nD τ).loc b))

theorem origin0 : (![0, 0] : Fin 2 → Nat) = fun _ => 0 := funext fun a => by fin_cases a <;> rfl

/-- The same at any entry of the block, its coordinates read off the entry. -/
theorem pay0_apply_idx (x0 : Vec Ideal S1024x1024 .f32) (x1 : Vec Ideal S1024x1024 .f32) (x2 : Vec Ideal S1x1024 .f32) (y : S1024x1024.Idx) :
    k0_pay1 (F := Ideal) x0 x1 x2 y = (∑ j : Fin 1024, x0 (ix2 (y 0) j) * x1 (ix2 j (y 1))) + x2 (ix2 (0 : Fin 1) (y 1)) := by
  obtain ⟨p, q, rfl⟩ : ∃ (p q : Fin 1024), y = ix2 p q := ⟨y 0, y 1, eq_ix2 y⟩
  exact pay0_apply x0 x1 x2 p q

/-- The printed index maps over the four grid points: the input matrix's and the output's block index is the point's
    number on the row axis and zero on the column axis; the weight's and the bias row's never move from zero. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (a, j) of the input matrix's block at point t is entry (1024 t + a, j) of the matrix. -/
theorem iblk0_x_apply (c : Dev nD) (t : Fin cfg0.N) (a j : Fin 1024) (r : Fin 4096) (hr : r.val = t.val * 1024 + a.val) :
    (iblk0 V c 0 t : Vec Ideal S1024x1024 .f32) (ix2 a j) = (V c main_arg0 : S4096x1024.Idx → EReal) (ix2 r j) := by
  obtain ⟨e00, e01, -⟩ := blockIndex0 t
  unfold iblk0
  rw [View.read_apply]
  show V c main_arg0 _ = V c main_arg0 _
  congr 1
  funext ax
  apply Fin.ext
  match ax with
  | ⟨0, _⟩ => show win0_0.index t (0 : Fin 2) * 1024 + 1 * a.val = r.val; omega
  | ⟨1, _⟩ => show win0_0.index t (1 : Fin 2) * 1024 + 1 * j.val = j.val; omega

/-- The weight's block at every point is the whole weight matrix. -/
theorem iblk0_w_apply (c : Dev nD) (t : Fin cfg0.N) (j b b' : Fin 1024) (hb : b'.val = b.val) :
    (iblk0 V c 1 t : Vec Ideal S1024x1024 .f32) (ix2 j b) = (V c main_arg3 : S1024x1024.Idx → EReal) (ix2 j b') := by
  obtain ⟨-, -, e10, e11, -⟩ := blockIndex0 t
  unfold iblk0
  rw [View.read_apply]
  show V c main_arg3 _ = V c main_arg3 _
  congr 1
  funext ax
  apply Fin.ext
  match ax with
  | ⟨0, _⟩ => show win0_1.index t (0 : Fin 2) * 1024 + 1 * j.val = j.val; omega
  | ⟨1, _⟩ => show win0_1.index t (1 : Fin 2) * 1024 + 1 * b.val = b'.val; omega

/-- The bias row's block at every point is the whole row. -/
theorem iblk0_b_apply (c : Dev nD) (t : Fin cfg0.N) (b b' : Fin 1024) (hb : b'.val = b.val) :
    (iblk0 V c 2 t : Vec Ideal S1x1024 .f32) (ix2 (0 : Fin 1) b) = (V c main_v0 : S1x1024.Idx → EReal) (ix2 (0 : Fin 1) b') := by
  obtain ⟨-, -, -, -, e20, e21, -⟩ := blockIndex0 t
  unfold iblk0
  rw [View.read_apply]
  show V c main_v0 _ = V c main_v0 _
  congr 1
  funext ax
  apply Fin.ext
  match ax with
  | ⟨0, _⟩ => show win0_2.index t (0 : Fin 2) * 1 + 1 * 0 = 0; omega
  | ⟨1, _⟩ => show win0_2.index t (1 : Fin 2) * 1024 + 1 * b.val = b'.val; omega

/-! ## From the four row blocks to the array -/

/-- The projection as one function of an input matrix, a weight matrix and a staged bias row: entry (r, q) is row r of
    the input against column q of the weight, summed over the 1024 contraction positions, plus entry q of the row. -/
abbrev linear0 (X : S4096x1024.Idx → EReal) (W : S1024x1024.Idx → EReal) (B : S1x1024.Idx → EReal) : S4096x1024.Idx → EReal :=
  fun idx => (∑ j : Fin 1024, X (ix2 (idx 0) j) * W (ix2 j (idx 1))) + B (ix2 (0 : Fin 1) (idx 1))

/-- The same at an entry given by its two coordinates. -/
theorem linear0_ix2 (X : S4096x1024.Idx → EReal) (W : S1024x1024.Idx → EReal) (B : S1x1024.Idx → EReal) (r : Fin 4096) (q : Fin 1024) :
    linear0 X W B (ix2 r q) = (∑ j : Fin 1024, X (ix2 r j) * W (ix2 j q)) + B (ix2 (0 : Fin 1) q) := rfl

/-- What point t writes back is row block t of the projection: the body's arithmetic at an entry of the block, each
    input block read where that entry's row and column say. -/
theorem flushed0_eq (c : Dev nD) (t : Fin cfg0.N) :
    (dat0 (F := Ideal) V c).flushed 3 t
      = ((cfg0.win 3).blk t).view.read (Elt Ideal) (linear0 (V c main_arg0) (V c main_arg3) (V c main_v0)) := by
  show (cfg0.win 3).cut (grid0.coords t) ((dat0 (F := Ideal) V c).after 3 t) = _
  rw [after0_3]
  unfold out0_3
  rw [View.canon_unit_zero origin0]
  simp only [View.ld_unit_zero (S := S1024x1024) origin0, View.ld_unit_zero (S := S1x1024) origin0]
  obtain ⟨-, -, -, -, -, -, e30, e31⟩ := blockIndex0 t
  funext y
  refine (pay0_apply_idx (iblk0 V c 0 t) (iblk0 V c 1 t) (iblk0 V c 2 t) ((cfg0.win 3).xinj (grid0.coords t) y)).trans ?_
  rw [View.read_apply]
  show _ = linear0 (V c main_arg0) (V c main_arg3) (V c main_v0) (((cfg0.win 3).blk t).view.emb y)
  have hy0 : (y 0).val < 1024 := (y 0).isLt
  have hy1 : (y 1).val < 1024 := (y 1).isLt
  have h0 : ((((cfg0.win 3).blk t).view.emb y) 0).val = t.val * 1024 + (((cfg0.win 3).xinj (grid0.coords t) y) 0).val := by
    show win0_3.index t (0 : Fin 2) * 1024 + 1 * (y 0).val = t.val * 1024 + (y 0).val; omega
  have h1 : ((((cfg0.win 3).blk t).view.emb y) 1).val = (((cfg0.win 3).xinj (grid0.coords t) y) 1).val := by
    show win0_3.index t (1 : Fin 2) * 1024 + 1 * (y 1).val = (y 1).val; omega
  refine congrArg₂ (· + ·) (Finset.sum_congr rfl fun j _ => congrArg₂ (· * ·) ?_ ?_) ?_
  · exact iblk0_x_apply V c t _ j _ h0
  · exact iblk0_w_apply V c t j _ _ h1
  · exact iblk0_b_apply V c t _ _ h1

/-- An entry of the array is in point t's block iff each coordinate is in the block's range on its axis. -/
theorem mem_blk0 (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- The four row blocks cover the array: the point covering row r is r / 1024. -/
theorem cover0 (i : S4096x1024.Idx) : ∃ t : Fin cfg0.N, (cfg0.win 3).flush t = true ∧ i ∈ ((cfg0.win 3).blk t).view.set := by
  have hN : grid0.N = 4 := N_0
  have hi0 : (i 0).val < 4096 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, -, -, -, e30, e31⟩ := blockIndex0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the last point's write-back is the projection of the arrays the region was entered with. -/
theorem projValue0 (c : Dev nD) :
    (dat0 (F := Ideal) V c).arrAt 3 cfg0.N = linear0 (V c main_arg0) (V c main_arg3) (V c main_v0) :=
  (dat0 (F := Ideal) V c).arrAt_eq_of_cover 3 (linear0 (V c main_arg0) (V c main_arg3) (V c main_v0)) (fun t _ => flushed0_eq V c t) (cover0)

end Cert.KernelIdeal.Frm

end
-- ==== Proof.IdealProjValue1.lean ====
/-
  Pallas call 1 of the program, read as a value on the extended reals: the output array the four grid points leave
  is the linear projection of the three arrays the call is entered with. With X : [4096, 1024] the input matrix,
  W : [1024, 1024] the weight and B : [1, 1024] the staged bias row,

      out (r, q) = (Σ_j X (r, j) · W (j, q)) + B (0, q).

  Three steps. The body's arithmetic at one entry of a block: the matrix product accumulated from the zero word is the
  plain sum of products over the contraction axis, the bias row is read at the entry's column, and both narrowings to
  the 16-bit format are the identity on the extended reals. The output's block at a grid point t: row a of the input's
  block is row 1024·t + a of X, the weight's and the bias row's blocks are the whole arrays, so the block is rows
  1024·t … 1024·t + 1023 of the projection. The cover: row r lies in the block of point r / 1024, so the four
  write-backs leave the projection everywhere.
-/
import proofs.«150159_j62277025792152_2_alg».proof.Proof.IdealProj1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at one entry -/

/-- The product's left operand is read in the output entry's row, -/
theorem pay1_lhs_row (i : S1024x1024.Idx) (r : dot_S1024x1024_S1024x1024_S1024x1024_1_0_0_1_n_n.contr.Idx) :
    (dot_S1024x1024_S1024x1024_S1024x1024_1_0_0_1_n_n.lhsIdx i r 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- at the contraction position; -/
theorem pay1_lhs_col (i : S1024x1024.Idx) (r : dot_S1024x1024_S1024x1024_S1024x1024_1_0_0_1_n_n.contr.Idx) :
    (dot_S1024x1024_S1024x1024_S1024x1024_1_0_0_1_n_n.lhsIdx i r 1).val = (r ⟨0, by decide⟩).val :=
  dot_S1024x1024_S1024x1024_S1024x1024_1_0_0_1_n_n.lhsIdx_val_of_single rfl i r
/-- the right operand at the contraction position, -/
theorem pay1_rhs_row (i : S1024x1024.Idx) (r : dot_S1024x1024_S1024x1024_S1024x1024_1_0_0_1_n_n.contr.Idx) :
    (dot_S1024x1024_S1024x1024_S1024x1024_1_0_0_1_n_n.rhsIdx i r 0).val = (r ⟨0, by decide⟩).val :=
  dot_S1024x1024_S1024x1024_S1024x1024_1_0_0_1_n_n.rhsIdx_val_of_single rfl i r
/-- in the output entry's column. -/
theorem pay1_rhs_col (i : S1024x1024.Idx) (r : dot_S1024x1024_S1024x1024_S1024x1024_1_0_0_1_n_n.contr.Idx) :
    (dot_S1024x1024_S1024x1024_S1024x1024_1_0_0_1_n_n.rhsIdx i r 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's arithmetic read at one entry, on the extended reals: row p of the first operand against column q of
    the second, summed over the 1024 contraction positions from a zero accumulator, plus entry q of the one bias row;
    the narrowings to the 16-bit format are the identity there. -/
theorem pay1_apply (x0 : Vec Ideal S1024x1024 .f32) (x1 : Vec Ideal S1024x1024 .f32) (x2 : Vec Ideal S1x1024 .f32) (p q : Fin 1024) :
    k1_pay1 (F := Ideal) x0 x1 x2 (ix2 p q) = (∑ j : Fin 1024, x0 (ix2 p j) * x1 (ix2 j q)) + x2 (ix2 (0 : Fin 1) q) := by
  unfold k1_pay1
  refine (truncf_apply (s := S1024x1024) (φ := .f32) (ψ := .bf16) _ bitsLt_bf16_f32 (ix2 p q)).trans ?_
  refine (addf_apply (s := S1024x1024) (φ := .f32) _ _ (ix2 p q)).trans ?_
  refine congrArg₂ (· + ·) ?_ ?_
  · refine (Ideal.matmul_constant_zero_apply dot_S1024x1024_S1024x1024_S1024x1024_1_0_0_1_n_n none _ _ (ix2 p q)).trans ?_
    rw [← Equiv.sum_comp (contrEquiv1 dot_S1024x1024_S1024x1024_S1024x1024_1_0_0_1_n_n 1024 rfl rfl).symm]
    refine Finset.sum_congr rfl fun j _ => ?_
    have hj := contrEquiv1_symm_val dot_S1024x1024_S1024x1024_S1024x1024_1_0_0_1_n_n 1024 rfl rfl j
    have el : dot_S1024x1024_S1024x1024_S1024x1024_1_0_0_1_n_n.lhsIdx (ix2 p q) ((contrEquiv1 dot_S1024x1024_S1024x1024_S1024x1024_1_0_0_1_n_n 1024 rfl rfl).symm j) = ix2 p j := funext fun a => Fin.ext (by
      match a with
      | ⟨0, _⟩ => exact pay1_lhs_row _ _
      | ⟨1, _⟩ => exact (pay1_lhs_col _ _).trans hj)
    have er : dot_S1024x1024_S1024x1024_S1024x1024_1_0_0_1_n_n.rhsIdx (ix2 p q) ((contrEquiv1 dot_S1024x1024_S1024x1024_S1024x1024_1_0_0_1_n_n 1024 rfl rfl).symm j) = ix2 j q := funext fun a => Fin.ext (by
      match a with
      | ⟨0, _⟩ => exact (pay1_rhs_row _ _).trans hj
      | ⟨1, _⟩ => exact pay1_rhs_col _ _)
    show x0 (dot_S1024x1024_S1024x1024_S1024x1024_1_0_0_1_n_n.lhsIdx (ix2 p q) _) * x1 (dot_S1024x1024_S1024x1024_S1024x1024_1_0_0_1_n_n.rhsIdx (ix2 p q) _) = _
    rw [el, er]
  · rw [shapeCast_self]
    exact broadcastTo_1b_ab_apply x2 broadcasts_S1x1024_S1024x1024 p q

/-! ## The output's block at a grid point -/

variable (V : (c : Dev nD) → (b : Ref sig .tc) → Buf (Elt Ideal) ((c : Thread nD τ).loc b))

theorem origin1 : (![0, 0] : Fin 2 → Nat) = fun _ => 0 := funext fun a => by fin_cases a <;> rfl

/-- The same at any entry of the block, its coordinates read off the entry. -/
theorem pay1_apply_idx (x0 : Vec Ideal S1024x1024 .f32) (x1 : Vec Ideal S1024x1024 .f32) (x2 : Vec Ideal S1x1024 .f32) (y : S1024x1024.Idx) :
    k1_pay1 (F := Ideal) x0 x1 x2 y = (∑ j : Fin 1024, x0 (ix2 (y 0) j) * x1 (ix2 j (y 1))) + x2 (ix2 (0 : Fin 1) (y 1)) := by
  obtain ⟨p, q, rfl⟩ : ∃ (p q : Fin 1024), y = ix2 p q := ⟨y 0, y 1, eq_ix2 y⟩
  exact pay1_apply x0 x1 x2 p q

/-- The printed index maps over the four grid points: the input matrix's and the output's block index is the point's
    number on the row axis and zero on the column axis; the weight's and the bias row's never move from zero. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (a, j) of the input matrix's block at point t is entry (1024 t + a, j) of the matrix. -/
theorem iblk1_x_apply (c : Dev nD) (t : Fin cfg1.N) (a j : Fin 1024) (r : Fin 4096) (hr : r.val = t.val * 1024 + a.val) :
    (iblk1 V c 0 t : Vec Ideal S1024x1024 .f32) (ix2 a j) = (V c main_arg1 : S4096x1024.Idx → EReal) (ix2 r j) := by
  obtain ⟨e00, e01, -⟩ := blockIndex1 t
  unfold iblk1
  rw [View.read_apply]
  show V c main_arg1 _ = V c main_arg1 _
  congr 1
  funext ax
  apply Fin.ext
  match ax with
  | ⟨0, _⟩ => show win1_0.index t (0 : Fin 2) * 1024 + 1 * a.val = r.val; omega
  | ⟨1, _⟩ => show win1_0.index t (1 : Fin 2) * 1024 + 1 * j.val = j.val; omega

/-- The weight's block at every point is the whole weight matrix. -/
theorem iblk1_w_apply (c : Dev nD) (t : Fin cfg1.N) (j b b' : Fin 1024) (hb : b'.val = b.val) :
    (iblk1 V c 1 t : Vec Ideal S1024x1024 .f32) (ix2 j b) = (V c main_arg5 : S1024x1024.Idx → EReal) (ix2 j b') := by
  obtain ⟨-, -, e10, e11, -⟩ := blockIndex1 t
  unfold iblk1
  rw [View.read_apply]
  show V c main_arg5 _ = V c main_arg5 _
  congr 1
  funext ax
  apply Fin.ext
  match ax with
  | ⟨0, _⟩ => show win1_1.index t (0 : Fin 2) * 1024 + 1 * j.val = j.val; omega
  | ⟨1, _⟩ => show win1_1.index t (1 : Fin 2) * 1024 + 1 * b.val = b'.val; omega

/-- The bias row's block at every point is the whole row. -/
theorem iblk1_b_apply (c : Dev nD) (t : Fin cfg1.N) (b b' : Fin 1024) (hb : b'.val = b.val) :
    (iblk1 V c 2 t : Vec Ideal S1x1024 .f32) (ix2 (0 : Fin 1) b) = (V c main_v2 : S1x1024.Idx → EReal) (ix2 (0 : Fin 1) b') := by
  obtain ⟨-, -, -, -, e20, e21, -⟩ := blockIndex1 t
  unfold iblk1
  rw [View.read_apply]
  show V c main_v2 _ = V c main_v2 _
  congr 1
  funext ax
  apply Fin.ext
  match ax with
  | ⟨0, _⟩ => show win1_2.index t (0 : Fin 2) * 1 + 1 * 0 = 0; omega
  | ⟨1, _⟩ => show win1_2.index t (1 : Fin 2) * 1024 + 1 * b.val = b'.val; omega

/-! ## From the four row blocks to the array -/

/-- The projection as one function of an input matrix, a weight matrix and a staged bias row: entry (r, q) is row r of
    the input against column q of the weight, summed over the 1024 contraction positions, plus entry q of the row. -/
abbrev linear1 (X : S4096x1024.Idx → EReal) (W : S1024x1024.Idx → EReal) (B : S1x1024.Idx → EReal) : S4096x1024.Idx → EReal :=
  fun idx => (∑ j : Fin 1024, X (ix2 (idx 0) j) * W (ix2 j (idx 1))) + B (ix2 (0 : Fin 1) (idx 1))

/-- The same at an entry given by its two coordinates. -/
theorem linear1_ix2 (X : S4096x1024.Idx → EReal) (W : S1024x1024.Idx → EReal) (B : S1x1024.Idx → EReal) (r : Fin 4096) (q : Fin 1024) :
    linear1 X W B (ix2 r q) = (∑ j : Fin 1024, X (ix2 r j) * W (ix2 j q)) + B (ix2 (0 : Fin 1) q) := rfl

/-- What point t writes back is row block t of the projection: the body's arithmetic at an entry of the block, each
    input block read where that entry's row and column say. -/
theorem flushed1_eq (c : Dev nD) (t : Fin cfg1.N) :
    (dat1 (F := Ideal) V c).flushed 3 t
      = ((cfg1.win 3).blk t).view.read (Elt Ideal) (linear1 (V c main_arg1) (V c main_arg5) (V c main_v2)) := by
  show (cfg1.win 3).cut (grid1.coords t) ((dat1 (F := Ideal) V c).after 3 t) = _
  rw [after1_3]
  unfold out1_3
  rw [View.canon_unit_zero origin1]
  simp only [View.ld_unit_zero (S := S1024x1024) origin1, View.ld_unit_zero (S := S1x1024) origin1]
  obtain ⟨-, -, -, -, -, -, e30, e31⟩ := blockIndex1 t
  funext y
  refine (pay1_apply_idx (iblk1 V c 0 t) (iblk1 V c 1 t) (iblk1 V c 2 t) ((cfg1.win 3).xinj (grid1.coords t) y)).trans ?_
  rw [View.read_apply]
  show _ = linear1 (V c main_arg1) (V c main_arg5) (V c main_v2) (((cfg1.win 3).blk t).view.emb y)
  have hy0 : (y 0).val < 1024 := (y 0).isLt
  have hy1 : (y 1).val < 1024 := (y 1).isLt
  have h0 : ((((cfg1.win 3).blk t).view.emb y) 0).val = t.val * 1024 + (((cfg1.win 3).xinj (grid1.coords t) y) 0).val := by
    show win1_3.index t (0 : Fin 2) * 1024 + 1 * (y 0).val = t.val * 1024 + (y 0).val; omega
  have h1 : ((((cfg1.win 3).blk t).view.emb y) 1).val = (((cfg1.win 3).xinj (grid1.coords t) y) 1).val := by
    show win1_3.index t (1 : Fin 2) * 1024 + 1 * (y 1).val = (y 1).val; omega
  refine congrArg₂ (· + ·) (Finset.sum_congr rfl fun j _ => congrArg₂ (· * ·) ?_ ?_) ?_
  · exact iblk1_x_apply V c t _ j _ h0
  · exact iblk1_w_apply V c t j _ _ h1
  · exact iblk1_b_apply V c t _ _ h1

/-- An entry of the array is in point t's block iff each coordinate is in the block's range on its axis. -/
theorem mem_blk1 (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- The four row blocks cover the array: the point covering row r is r / 1024. -/
theorem cover1 (i : S4096x1024.Idx) : ∃ t : Fin cfg1.N, (cfg1.win 3).flush t = true ∧ i ∈ ((cfg1.win 3).blk t).view.set := by
  have hN : grid1.N = 4 := N_1
  have hi0 : (i 0).val < 4096 := (i 0).isLt
  have hi1 : (i 1).val < 1024 := (i 1).isLt
  obtain ⟨t, ht⟩ : ∃ t : Fin cfg1.N, t.val = (i 0).val / 1024 :=
    ⟨⟨(i 0).val / 1024, by show (i 0).val / 1024 < grid1.N; rw [hN]; omega⟩, rfl⟩
  obtain ⟨-, -, -, -, -, -, e30, e31⟩ := blockIndex1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the last point's write-back is the projection of the arrays the region was entered with. -/
theorem projValue1 (c : Dev nD) :
    (dat1 (F := Ideal) V c).arrAt 3 cfg1.N = linear1 (V c main_arg1) (V c main_arg5) (V c main_v2) :=
  (dat1 (F := Ideal) V c).arrAt_eq_of_cover 3 (linear1 (V c main_arg1) (V c main_arg5) (V c main_v2)) (fun t _ => flushed1_eq V c t) (cover1)

end Cert.KernelIdeal.Frm

end
-- ==== Proof.IdealProjValue2.lean ====
/-
  Pallas call 2 of the program, read as a value on the extended reals: the output array the four grid points leave
  is the linear projection of the three arrays the call is entered with. With X : [4096, 1024] the input matrix,
  W : [1024, 1024] the weight and B : [1, 1024] the staged bias row,

      out (r, q) = (Σ_j X (r, j) · W (j, q)) + B (0, q).

  Three steps. The body's arithmetic at one entry of a block: the matrix product accumulated from the zero word is the
  plain sum of products over the contraction axis, the bias row is read at the entry's column, and both narrowings to
  the 16-bit format are the identity on the extended reals. The output's block at a grid point t: row a of the input's
  block is row 1024·t + a of X, the weight's and the bias row's blocks are the whole arrays, so the block is rows
  1024·t … 1024·t + 1023 of the projection. The cover: row r lies in the block of point r / 1024, so the four
  write-backs leave the projection everywhere.
-/
import proofs.«150159_j62277025792152_2_alg».proof.Proof.IdealProj2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at one entry -/

/-- The product's left operand is read in the output entry's row, -/
theorem pay2_lhs_row (i : S1024x1024.Idx) (r : dot_S1024x1024_S1024x1024_S1024x1024_1_0_0_1_n_n.contr.Idx) :
    (dot_S1024x1024_S1024x1024_S1024x1024_1_0_0_1_n_n.lhsIdx i r 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- at the contraction position; -/
theorem pay2_lhs_col (i : S1024x1024.Idx) (r : dot_S1024x1024_S1024x1024_S1024x1024_1_0_0_1_n_n.contr.Idx) :
    (dot_S1024x1024_S1024x1024_S1024x1024_1_0_0_1_n_n.lhsIdx i r 1).val = (r ⟨0, by decide⟩).val :=
  dot_S1024x1024_S1024x1024_S1024x1024_1_0_0_1_n_n.lhsIdx_val_of_single rfl i r
/-- the right operand at the contraction position, -/
theorem pay2_rhs_row (i : S1024x1024.Idx) (r : dot_S1024x1024_S1024x1024_S1024x1024_1_0_0_1_n_n.contr.Idx) :
    (dot_S1024x1024_S1024x1024_S1024x1024_1_0_0_1_n_n.rhsIdx i r 0).val = (r ⟨0, by decide⟩).val :=
  dot_S1024x1024_S1024x1024_S1024x1024_1_0_0_1_n_n.rhsIdx_val_of_single rfl i r
/-- in the output entry's column. -/
theorem pay2_rhs_col (i : S1024x1024.Idx) (r : dot_S1024x1024_S1024x1024_S1024x1024_1_0_0_1_n_n.contr.Idx) :
    (dot_S1024x1024_S1024x1024_S1024x1024_1_0_0_1_n_n.rhsIdx i r 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's arithmetic read at one entry, on the extended reals: row p of the first operand against column q of
    the second, summed over the 1024 contraction positions from a zero accumulator, plus entry q of the one bias row;
    the narrowings to the 16-bit format are the identity there. -/
theorem pay2_apply (x0 : Vec Ideal S1024x1024 .f32) (x1 : Vec Ideal S1024x1024 .f32) (x2 : Vec Ideal S1x1024 .f32) (p q : Fin 1024) :
    k2_pay1 (F := Ideal) x0 x1 x2 (ix2 p q) = (∑ j : Fin 1024, x0 (ix2 p j) * x1 (ix2 j q)) + x2 (ix2 (0 : Fin 1) q) := by
  unfold k2_pay1
  refine (truncf_apply (s := S1024x1024) (φ := .f32) (ψ := .bf16) _ bitsLt_bf16_f32 (ix2 p q)).trans ?_
  refine (addf_apply (s := S1024x1024) (φ := .f32) _ _ (ix2 p q)).trans ?_
  refine congrArg₂ (· + ·) ?_ ?_
  · refine (Ideal.matmul_constant_zero_apply dot_S1024x1024_S1024x1024_S1024x1024_1_0_0_1_n_n none _ _ (ix2 p q)).trans ?_
    rw [← Equiv.sum_comp (contrEquiv1 dot_S1024x1024_S1024x1024_S1024x1024_1_0_0_1_n_n 1024 rfl rfl).symm]
    refine Finset.sum_congr rfl fun j _ => ?_
    have hj := contrEquiv1_symm_val dot_S1024x1024_S1024x1024_S1024x1024_1_0_0_1_n_n 1024 rfl rfl j
    have el : dot_S1024x1024_S1024x1024_S1024x1024_1_0_0_1_n_n.lhsIdx (ix2 p q) ((contrEquiv1 dot_S1024x1024_S1024x1024_S1024x1024_1_0_0_1_n_n 1024 rfl rfl).symm j) = ix2 p j := funext fun a => Fin.ext (by
      match a with
      | ⟨0, _⟩ => exact pay2_lhs_row _ _
      | ⟨1, _⟩ => exact (pay2_lhs_col _ _).trans hj)
    have er : dot_S1024x1024_S1024x1024_S1024x1024_1_0_0_1_n_n.rhsIdx (ix2 p q) ((contrEquiv1 dot_S1024x1024_S1024x1024_S1024x1024_1_0_0_1_n_n 1024 rfl rfl).symm j) = ix2 j q := funext fun a => Fin.ext (by
      match a with
      | ⟨0, _⟩ => exact (pay2_rhs_row _ _).trans hj
      | ⟨1, _⟩ => exact pay2_rhs_col _ _)
    show x0 (dot_S1024x1024_S1024x1024_S1024x1024_1_0_0_1_n_n.lhsIdx (ix2 p q) _) * x1 (dot_S1024x1024_S1024x1024_S1024x1024_1_0_0_1_n_n.rhsIdx (ix2 p q) _) = _
    rw [el, er]
  · rw [shapeCast_self]
    exact broadcastTo_1b_ab_apply x2 broadcasts_S1x1024_S1024x1024 p q

/-! ## The output's block at a grid point -/

variable (V : (c : Dev nD) → (b : Ref sig .tc) → Buf (Elt Ideal) ((c : Thread nD τ).loc b))

theorem origin2 : (![0, 0] : Fin 2 → Nat) = fun _ => 0 := funext fun a => by fin_cases a <;> rfl

/-- The same at any entry of the block, its coordinates read off the entry. -/
theorem pay2_apply_idx (x0 : Vec Ideal S1024x1024 .f32) (x1 : Vec Ideal S1024x1024 .f32) (x2 : Vec Ideal S1x1024 .f32) (y : S1024x1024.Idx) :
    k2_pay1 (F := Ideal) x0 x1 x2 y = (∑ j : Fin 1024, x0 (ix2 (y 0) j) * x1 (ix2 j (y 1))) + x2 (ix2 (0 : Fin 1) (y 1)) := by
  obtain ⟨p, q, rfl⟩ : ∃ (p q : Fin 1024), y = ix2 p q := ⟨y 0, y 1, eq_ix2 y⟩
  exact pay2_apply x0 x1 x2 p q

/-- The printed index maps over the four grid points: the input matrix's and the output's block index is the point's
    number on the row axis and zero on the column axis; the weight's and the bias row's never move from zero. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (a, j) of the input matrix's block at point t is entry (1024 t + a, j) of the matrix. -/
theorem iblk2_x_apply (c : Dev nD) (t : Fin cfg2.N) (a j : Fin 1024) (r : Fin 4096) (hr : r.val = t.val * 1024 + a.val) :
    (iblk2 V c 0 t : Vec Ideal S1024x1024 .f32) (ix2 a j) = (V c main_arg2 : S4096x1024.Idx → EReal) (ix2 r j) := by
  obtain ⟨e00, e01, -⟩ := blockIndex2 t
  unfold iblk2
  rw [View.read_apply]
  show V c main_arg2 _ = V c main_arg2 _
  congr 1
  funext ax
  apply Fin.ext
  match ax with
  | ⟨0, _⟩ => show win2_0.index t (0 : Fin 2) * 1024 + 1 * a.val = r.val; omega
  | ⟨1, _⟩ => show win2_0.index t (1 : Fin 2) * 1024 + 1 * j.val = j.val; omega

/-- The weight's block at every point is the whole weight matrix. -/
theorem iblk2_w_apply (c : Dev nD) (t : Fin cfg2.N) (j b b' : Fin 1024) (hb : b'.val = b.val) :
    (iblk2 V c 1 t : Vec Ideal S1024x1024 .f32) (ix2 j b) = (V c main_arg7 : S1024x1024.Idx → EReal) (ix2 j b') := by
  obtain ⟨-, -, e10, e11, -⟩ := blockIndex2 t
  unfold iblk2
  rw [View.read_apply]
  show V c main_arg7 _ = V c main_arg7 _
  congr 1
  funext ax
  apply Fin.ext
  match ax with
  | ⟨0, _⟩ => show win2_1.index t (0 : Fin 2) * 1024 + 1 * j.val = j.val; omega
  | ⟨1, _⟩ => show win2_1.index t (1 : Fin 2) * 1024 + 1 * b.val = b'.val; omega

/-- The bias row's block at every point is the whole row. -/
theorem iblk2_b_apply (c : Dev nD) (t : Fin cfg2.N) (b b' : Fin 1024) (hb : b'.val = b.val) :
    (iblk2 V c 2 t : Vec Ideal S1x1024 .f32) (ix2 (0 : Fin 1) b) = (V c main_v4 : S1x1024.Idx → EReal) (ix2 (0 : Fin 1) b') := by
  obtain ⟨-, -, -, -, e20, e21, -⟩ := blockIndex2 t
  unfold iblk2
  rw [View.read_apply]
  show V c main_v4 _ = V c main_v4 _
  congr 1
  funext ax
  apply Fin.ext
  match ax with
  | ⟨0, _⟩ => show win2_2.index t (0 : Fin 2) * 1 + 1 * 0 = 0; omega
  | ⟨1, _⟩ => show win2_2.index t (1 : Fin 2) * 1024 + 1 * b.val = b'.val; omega

/-! ## From the four row blocks to the array -/

/-- The projection as one function of an input matrix, a weight matrix and a staged bias row: entry (r, q) is row r of
    the input against column q of the weight, summed over the 1024 contraction positions, plus entry q of the row. -/
abbrev linear2 (X : S4096x1024.Idx → EReal) (W : S1024x1024.Idx → EReal) (B : S1x1024.Idx → EReal) : S4096x1024.Idx → EReal :=
  fun idx => (∑ j : Fin 1024, X (ix2 (idx 0) j) * W (ix2 j (idx 1))) + B (ix2 (0 : Fin 1) (idx 1))

/-- The same at an entry given by its two coordinates. -/
theorem linear2_ix2 (X : S4096x1024.Idx → EReal) (W : S1024x1024.Idx → EReal) (B : S1x1024.Idx → EReal) (r : Fin 4096) (q : Fin 1024) :
    linear2 X W B (ix2 r q) = (∑ j : Fin 1024, X (ix2 r j) * W (ix2 j q)) + B (ix2 (0 : Fin 1) q) := rfl

/-- What point t writes back is row block t of the projection: the body's arithmetic at an entry of the block, each
    input block read where that entry's row and column say. -/
theorem flushed2_eq (c : Dev nD) (t : Fin cfg2.N) :
    (dat2 (F := Ideal) V c).flushed 3 t
      = ((cfg2.win 3).blk t).view.read (Elt Ideal) (linear2 (V c main_arg2) (V c main_arg7) (V c main_v4)) := by
  show (cfg2.win 3).cut (grid2.coords t) ((dat2 (F := Ideal) V c).after 3 t) = _
  rw [after2_3]
  unfold out2_3
  rw [View.canon_unit_zero origin2]
  simp only [View.ld_unit_zero (S := S1024x1024) origin2, View.ld_unit_zero (S := S1x1024) origin2]
  obtain ⟨-, -, -, -, -, -, e30, e31⟩ := blockIndex2 t
  funext y
  refine (pay2_apply_idx (iblk2 V c 0 t) (iblk2 V c 1 t) (iblk2 V c 2 t) ((cfg2.win 3).xinj (grid2.coords t) y)).trans ?_
  rw [View.read_apply]
  show _ = linear2 (V c main_arg2) (V c main_arg7) (V c main_v4) (((cfg2.win 3).blk t).view.emb y)
  have hy0 : (y 0).val < 1024 := (y 0).isLt
  have hy1 : (y 1).val < 1024 := (y 1).isLt
  have h0 : ((((cfg2.win 3).blk t).view.emb y) 0).val = t.val * 1024 + (((cfg2.win 3).xinj (grid2.coords t) y) 0).val := by
    show win2_3.index t (0 : Fin 2) * 1024 + 1 * (y 0).val = t.val * 1024 + (y 0).val; omega
  have h1 : ((((cfg2.win 3).blk t).view.emb y) 1).val = (((cfg2.win 3).xinj (grid2.coords t) y) 1).val := by
    show win2_3.index t (1 : Fin 2) * 1024 + 1 * (y 1).val = (y 1).val; omega
  refine congrArg₂ (· + ·) (Finset.sum_congr rfl fun j _ => congrArg₂ (· * ·) ?_ ?_) ?_
  · exact iblk2_x_apply V c t _ j _ h0
  · exact iblk2_w_apply V c t j _ _ h1
  · exact iblk2_b_apply V c t _ _ h1

/-- An entry of the array is in point t's block iff each coordinate is in the block's range on its axis. -/
theorem mem_blk2 (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v5).slice (win2_3.rect t)).set ↔ _
  rw [View.set_slice_whole, Rect.mem_set_unit]
  exact Iff.rfl

/-- The four row blocks cover the array: the point covering row r is r / 1024. -/
theorem cover2 (i : S4096x1024.Idx) : ∃ t : Fin cfg2.N, (cfg2.win 3).flush t = true ∧ i ∈ ((cfg2.win 3).blk t).view.set := by
  have hN : grid2.N = 4 := N_2
  have hi0 : (i 0).val < 4096 := (i 0).isLt
  have hi1 : (i 1).val < 1024 := (i 1).isLt
  obtain ⟨t, ht⟩ : ∃ t : Fin cfg2.N, t.val = (i 0).val / 1024 :=
    ⟨⟨(i 0).val / 1024, by show (i 0).val / 1024 < grid2.N; rw [hN]; omega⟩, rfl⟩
  obtain ⟨-, -, -, -, -, -, e30, e31⟩ := blockIndex2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the last point's write-back is the projection of the arrays the region was entered with. -/
theorem projValue2 (c : Dev nD) :
    (dat2 (F := Ideal) V c).arrAt 3 cfg2.N = linear2 (V c main_arg2) (V c main_arg7) (V c main_v4) :=
  (dat2 (F := Ideal) V c).arrAt_eq_of_cover 3 (linear2 (V c main_arg2) (V c main_arg7) (V c main_v4)) (fun t _ => flushed2_eq V c t) (cover2)

end Cert.KernelIdeal.Frm

end
-- ==== Proof.IdealAttnPieces.lean ====
/-
  The attention call's found pieces, read: what each whole-body run leaves in the three kept buffers and in the output
  block, as the body's arithmetic applied to the buffers it read. One key tile takes the running row maximum `m`, row
  sum `l` and weighted sum `a` to
     m' = the entrywise maximum of m and the tile's row maxima of the scaled scores,
     l' = exp(m − m')·l + the tile's row sums of exp(score − m'),
     a' = exp(m − m')·a + (exp(score − m')) · (the tile's value rows),
  where at the first key tile m, l, a are the reset values (−∞, 0, 0); the last key tile also stores a' / l'.
-/
import proofs.«150159_j62277025792152_2_alg».proof.Proof.IdealAttn
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- The new row maximum, from the query tile, the key tile and the old row maximum. -/
def newMax (x0 : Vec F S1024x1024 .bf16) (x1 : Vec F S512x1024 .bf16) (m : Vec F S1024x1 .f32) : Vec F S1024x1 .f32 :=
  k3_pay2 (k3_pay8 x0 x1 m)
/-- The new row sum, from those and the old row sum. -/
def newSum (x0 : Vec F S1024x1024 .bf16) (x1 : Vec F S512x1024 .bf16) (m l : Vec F S1024x1 .f32) : Vec F S1024x1 .f32 :=
  k3_pay11 x0 x1 m m l
/-- The new weighted sum, from those, the value tile and the old weighted sum. -/
def newAcc (x0 : Vec F S1024x1024 .bf16) (x1 x2 : Vec F S512x1024 .bf16) (m : Vec F S1024x1 .f32) (a : Vec F S1024x1024 .f32) : Vec F S1024x1024 .f32 :=
  k3_pay1 (k3_pay10 x0 x1 m) (k3_pay12 x2) (k3_pay13 x0 x1 m m a)

theorem sout_A_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) :
    sout3_A_0 c i arg2 harg2 arg3 harg3 arg4 harg4 arg5 harg5 arg6 harg6 arg7 harg7 arg8 harg8 hc0 hc1 x0 x1 x2 = newMax x0 x1 (k3_pay4 (F := F)) := by
  unfold sout3_A_0 newMax
  rw [View.read_writes_eq_canon _ _ _ (scover3_A_0 c i arg2 harg2 arg3 harg3 arg4 harg4 arg5 harg5 arg6 harg6 arg7 harg7 arg8 harg8 hc0 hc1 x0 x1 x2)]
  unfold kernelRun3_A
  dsimp only
  sl_unfold_words
  rw [View.canon_cons_unit_zero (S := S1024x1) hz2]
  simp only [View.readCov_unit_zero (S := S1024x1) _ hz2, View.readCov_unit_zero (S := S1024x1024) _ hz2, View.readAt_eq_ld, harg2.read_unread, harg3.read_unread, harg4.read_unread, View.ld_unit_zero (S := S1024x1024) hz2, View.ld_unit_zero (S := S512x1024) hz2, View.ld_unit_zero (S := S1024x1) hz2]

theorem sout_A_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) :
    sout3_A_1 c i arg2 harg2 arg3 harg3 arg4 harg4 arg5 harg5 arg6 harg6 arg7 harg7 arg8 harg8 hc0 hc1 x0 x1 x2 = newSum x0 x1 (k3_pay4 (F := F)) (k3_pay5 (F := F)) := by
  unfold sout3_A_1 newSum
  rw [View.read_writes_eq_canon _ _ _ (scover3_A_1 c i arg2 harg2 arg3 harg3 arg4 harg4 arg5 harg5 arg6 harg6 arg7 harg7 arg8 harg8 hc0 hc1 x0 x1 x2)]
  unfold kernelRun3_A
  dsimp only
  sl_unfold_words
  rw [View.canon_cons_unit_zero (S := S1024x1) hz2]
  simp only [View.readCov_unit_zero (S := S1024x1) _ hz2, View.readCov_unit_zero (S := S1024x1024) _ hz2, View.readAt_eq_ld, harg2.read_unread, harg3.read_unread, harg4.read_unread, View.ld_unit_zero (S := S1024x1024) hz2, View.ld_unit_zero (S := S512x1024) hz2, View.ld_unit_zero (S := S1024x1) hz2]

theorem sout_A_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond3_0 i) (hc1 : ¬cond3_1 i)
    (x0 : Vec F S1024x1024 .bf16) (x1 : Vec F S512x1024 .bf16) (x2 : Vec F S512x1024 .bf16) :
    sout3_A_2 c i arg2 harg2 arg3 harg3 arg4 harg4 arg5 harg5 arg6 harg6 arg7 harg7 arg8 harg8 hc0 hc1 x0 x1 x2 = newAcc x0 x1 x2 (k3_pay4 (F := F)) (k3_pay6 (F := F)) := by
  unfold sout3_A_2 newAcc
  rw [View.read_writes_eq_canon _ _ _ (scover3_A_2 c i arg2 harg2 arg3 harg3 arg4 harg4 arg5 harg5 arg6 harg6 arg7 harg7 arg8 harg8 hc0 hc1 x0 x1 x2)]
  unfold kernelRun3_A
  dsimp only
  sl_unfold_words
  rw [View.canon_cons_unit_zero (S := S1024x1024) hz2]
  simp only [View.readCov_unit_zero (S := S1024x1) _ hz2, View.readCov_unit_zero (S := S1024x1024) _ hz2, View.readAt_eq_ld, harg2.read_unread, harg3.read_unread, harg4.read_unread, View.ld_unit_zero (S := S1024x1024) hz2, View.ld_unit_zero (S := S512x1024) hz2, View.ld_unit_zero (S := S1024x1) hz2]

theorem sout_B_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout3_B_0 c i arg2 harg2 arg3 harg3 arg4 harg4 arg5 harg5 arg6 harg6 arg7 harg7 arg8 harg8 hc0 hc1 x0 x1 x2 xs0 xs1 xs2 = newMax x0 x1 xs0 := by
  unfold sout3_B_0 newMax
  rw [View.read_writes_eq_canon _ _ _ (scover3_B_0 c i arg2 harg2 arg3 harg3 arg4 harg4 arg5 harg5 arg6 harg6 arg7 harg7 arg8 harg8 hc0 hc1 x0 x1 x2 xs0 xs1 xs2)]
  unfold kernelRun3_B
  dsimp only
  sl_unfold_words
  rw [View.canon_unit_zero hz2]
  simp only [View.readAt_eq_ld, harg2.read_unread, harg3.read_unread, harg4.read_unread, harg6.read_unread, harg7.read_unread, harg8.read_unread, View.ld_unit_zero (S := S1024x1024) hz2, View.ld_unit_zero (S := S512x1024) hz2, View.ld_unit_zero (S := S1024x1) hz2]

theorem sout_B_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout3_B_1 c i arg2 harg2 arg3 harg3 arg4 harg4 arg5 harg5 arg6 harg6 arg7 harg7 arg8 harg8 hc0 hc1 x0 x1 x2 xs0 xs1 xs2 = newSum x0 x1 xs0 xs1 := by
  unfold sout3_B_1 newSum
  rw [View.read_writes_eq_canon _ _ _ (scover3_B_1 c i arg2 harg2 arg3 harg3 arg4 harg4 arg5 harg5 arg6 harg6 arg7 harg7 arg8 harg8 hc0 hc1 x0 x1 x2 xs0 xs1 xs2)]
  unfold kernelRun3_B
  dsimp only
  sl_unfold_words
  rw [View.canon_unit_zero hz2]
  simp only [View.readAt_eq_ld, harg2.read_unread, harg3.read_unread, harg4.read_unread, harg6.read_unread, harg7.read_unread, harg8.read_unread, View.ld_unit_zero (S := S1024x1024) hz2, View.ld_unit_zero (S := S512x1024) hz2, View.ld_unit_zero (S := S1024x1) hz2]

theorem sout_B_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : ¬cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout3_B_2 c i arg2 harg2 arg3 harg3 arg4 harg4 arg5 harg5 arg6 harg6 arg7 harg7 arg8 harg8 hc0 hc1 x0 x1 x2 xs0 xs1 xs2 = newAcc x0 x1 x2 xs0 xs2 := by
  unfold sout3_B_2 newAcc
  rw [View.read_writes_eq_canon _ _ _ (scover3_B_2 c i arg2 harg2 arg3 harg3 arg4 harg4 arg5 harg5 arg6 harg6 arg7 harg7 arg8 harg8 hc0 hc1 x0 x1 x2 xs0 xs1 xs2)]
  unfold kernelRun3_B
  dsimp only
  sl_unfold_words
  rw [View.canon_unit_zero hz2]
  simp only [View.readAt_eq_ld, harg2.read_unread, harg3.read_unread, harg4.read_unread, harg6.read_unread, harg7.read_unread, harg8.read_unread, View.ld_unit_zero (S := S1024x1024) hz2, View.ld_unit_zero (S := S512x1024) hz2, View.ld_unit_zero (S := S1024x1) hz2]

theorem sout_C_0 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout3_C_0 c i arg2 harg2 arg3 harg3 arg4 harg4 arg5 harg5 arg6 harg6 arg7 harg7 arg8 harg8 hc0 hc1 x0 x1 x2 xs0 xs1 xs2 = newMax x0 x1 xs0 := by
  unfold sout3_C_0 newMax
  rw [View.read_writes_eq_canon _ _ _ (scover3_C_0 c i arg2 harg2 arg3 harg3 arg4 harg4 arg5 harg5 arg6 harg6 arg7 harg7 arg8 harg8 hc0 hc1 x0 x1 x2 xs0 xs1 xs2)]
  unfold kernelRun3_C
  dsimp only
  sl_unfold_words
  rw [View.canon_unit_zero hz2]
  simp only [View.readAt_eq_ld, harg2.read_unread, harg3.read_unread, harg4.read_unread, harg6.read_unread, harg7.read_unread, harg8.read_unread, View.ld_unit_zero (S := S1024x1024) hz2, View.ld_unit_zero (S := S512x1024) hz2, View.ld_unit_zero (S := S1024x1) hz2]

theorem sout_C_1 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout3_C_1 c i arg2 harg2 arg3 harg3 arg4 harg4 arg5 harg5 arg6 harg6 arg7 harg7 arg8 harg8 hc0 hc1 x0 x1 x2 xs0 xs1 xs2 = newSum x0 x1 xs0 xs1 := by
  unfold sout3_C_1 newSum
  rw [View.read_writes_eq_canon _ _ _ (scover3_C_1 c i arg2 harg2 arg3 harg3 arg4 harg4 arg5 harg5 arg6 harg6 arg7 harg7 arg8 harg8 hc0 hc1 x0 x1 x2 xs0 xs1 xs2)]
  unfold kernelRun3_C
  dsimp only
  sl_unfold_words
  rw [View.canon_unit_zero hz2]
  simp only [View.readAt_eq_ld, harg2.read_unread, harg3.read_unread, harg4.read_unread, harg6.read_unread, harg7.read_unread, harg8.read_unread, View.ld_unit_zero (S := S1024x1024) hz2, View.ld_unit_zero (S := S512x1024) hz2, View.ld_unit_zero (S := S1024x1) hz2]

theorem sout_C_2 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout3_C_2 c i arg2 harg2 arg3 harg3 arg4 harg4 arg5 harg5 arg6 harg6 arg7 harg7 arg8 harg8 hc0 hc1 x0 x1 x2 xs0 xs1 xs2 = newAcc x0 x1 x2 xs0 xs2 := by
  unfold sout3_C_2 newAcc
  rw [View.read_writes_eq_canon _ _ _ (scover3_C_2 c i arg2 harg2 arg3 harg3 arg4 harg4 arg5 harg5 arg6 harg6 arg7 harg7 arg8 harg8 hc0 hc1 x0 x1 x2 xs0 xs1 xs2)]
  unfold kernelRun3_C
  dsimp only
  sl_unfold_words
  rw [View.canon_unit_zero hz2]
  simp only [View.readAt_eq_ld, harg2.read_unread, harg3.read_unread, harg4.read_unread, harg6.read_unread, harg7.read_unread, harg8.read_unread, View.ld_unit_zero (S := S1024x1024) hz2, View.ld_unit_zero (S := S512x1024) hz2, View.ld_unit_zero (S := S1024x1) hz2]

/-- At the last key tile the output block is the new weighted sum divided by the new row sum. -/
theorem out_C_3 (c : Dev nD) (i : grid3.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond3_0 i) (hc1 : cond3_1 i)
    (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    out3_C_3 c i arg2 harg2 arg3 harg3 arg4 harg4 arg5 harg5 arg6 harg6 arg7 harg7 arg8 harg8 hc0 hc1 x0 x1 x2 xs0 xs1 xs2 = k3_pay3 (newAcc x0 x1 x2 xs0 xs2) (newSum x0 x1 xs0 xs1) := by
  unfold out3_C_3 newSum newAcc
  rw [View.read_writes_eq_canon _ _ _ (cover3_C_3 c i arg2 harg2 arg3 harg3 arg4 harg4 arg5 harg5 arg6 harg6 arg7 harg7 arg8 harg8 hc0 hc1 x0 x1 x2 xs0 xs1 xs2)]
  unfold kernelRun3_C
  dsimp only
  sl_unfold_words
  rw [View.canon_unit_zero hz2]
  simp only [View.readCov_unit_zero (S := S1024x1) _ hz2, View.readCov_unit_zero (S := S1024x1024) _ hz2, View.readAt_eq_ld, harg2.read_unread, harg3.read_unread, harg4.read_unread, harg6.read_unread, harg7.read_unread, harg8.read_unread, View.ld_unit_zero (S := S1024x1024) hz2, View.ld_unit_zero (S := S512x1024) hz2, View.ld_unit_zero (S := S1024x1) hz2]

end Cert.KernelIdeal.Frm

end
-- ==== Proof.IdealAttnFold.lean ====
/-
  The attention call's accumulation over the grid, in closed form. One grid point takes the three kept buffers (row
  maximum, row sum, weighted sum) through one key tile: `foldTile` of the point's query, key and value blocks. At the first
  key tile of a query tile it starts from the reset values, elsewhere from what the point before left. At the last key
  tile the block handed to the output window is the weighted sum divided by the row sum.
-/
import proofs.«150159_j62277025792152_2_alg».proof.Proof.IdealAttnPieces

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- One key tile folded into the kept buffers. -/
def foldTile (x0 : Vec F S1024x1024 .bf16) (x1 x2 : Vec F S512x1024 .bf16) (s : Vec F S1024x1 .f32 × Vec F S1024x1 .f32 × Vec F S1024x1024 .f32) : Vec F S1024x1 .f32 × Vec F S1024x1 .f32 × Vec F S1024x1024 .f32 :=
  (newMax x0 x1 s.1, newSum x0 x1 s.1 s.2.1, newAcc x0 x1 x2 s.1 s.2.2)

/-- The reset values: the row maximum at −∞, the row sum and the weighted sum at zero. -/
def resetVals : Vec F S1024x1 .f32 × Vec F S1024x1 .f32 × Vec F S1024x1024 .f32 := (k3_pay4 (F := F), k3_pay5 (F := F), k3_pay6 (F := F))

/-- What a grid point leaves in the kept buffers: its three blocks folded into the reset values at the first key tile of
    a query tile, into what it was handed elsewhere. -/
theorem stepAt3_kept (c : Dev nD) (t : Fin cfg3.N) (xs : Vec F S1024x1 .f32 × Vec F S1024x1 .f32 × Vec F S1024x1024 .f32) :
    (stepAt3 V c t xs).2 = foldTile (iblk3 V c 0 t) (iblk3 V c 1 t) (iblk3 V c 2 t) (if t.val % 8 = 0 then resetVals else xs) := by
  have hN : t.val < 32 := lt_of_lt_of_eq t.isLt (show cfg3.N = 32 from N_3)
  by_cases h0 : t.val % 8 = 0
  · have h1 : ¬t.val % 8 = 7 := by omega
    rw [stepAt3_A V c t xs h0 h1, if_pos h0]
    unfold foldTile resetVals
    simp only [sout_A_0, sout_A_1, sout_A_2]
  · by_cases h1 : t.val % 8 = 7
    · rw [stepAt3_C V c t xs h0 h1, if_neg h0]
      unfold foldTile
      simp only [sout_C_0, sout_C_1, sout_C_2]
    · rw [stepAt3_B V c t xs h0 h1, if_neg h0]
      unfold foldTile
      simp only [sout_B_0, sout_B_1, sout_B_2]

/-- At the last key tile the output's staging buffer is the new weighted sum divided by the new row sum. -/
theorem stepAt3_out (c : Dev nD) (t : Fin cfg3.N) (xs : Vec F S1024x1 .f32 × Vec F S1024x1 .f32 × Vec F S1024x1024 .f32) (h1 : t.val % 8 = 7) :
    (stepAt3 V c t xs).1 = k3_pay3 (foldTile (iblk3 V c 0 t) (iblk3 V c 1 t) (iblk3 V c 2 t) xs).2.2 (foldTile (iblk3 V c 0 t) (iblk3 V c 1 t) (iblk3 V c 2 t) xs).2.1 := by
  have h0 : ¬t.val % 8 = 0 := by omega
  rw [stepAt3_C V c t xs h0 h1]
  unfold foldTile
  simp only [out_C_3]

/-- The kept buffers after point `n`: the point's blocks folded into the reset values or into the kept buffers after
    point `n - 1`. -/
theorem kept_after (c : Dev nD) (t : Fin cfg3.N) :
    (outsAt3 V c t.val t.isLt).2 = foldTile (iblk3 V c 0 t) (iblk3 V c 1 t) (iblk3 V c 2 t)
      (if t.val % 8 = 0 then resetVals else (outsAt3 V c (t.val - 1) (Nat.lt_of_le_of_lt (Nat.sub_le _ _) t.isLt)).2) := by
  by_cases hz : t.val = 0
  · rw [outsAt3_zero V c t hz, stepAt3_kept, if_pos (by rw [hz]), if_pos (by rw [hz])]
  · rw [outsAt3_pos V c t hz, stepAt3_kept]

/-- The block handed to the output window at the last key tile of a query tile. -/
theorem out_after (c : Dev nD) (t : Fin cfg3.N) (h1 : t.val % 8 = 7) :
    (outsAt3 V c t.val t.isLt).1 = k3_pay3 (outsAt3 V c t.val t.isLt).2.2.2 (outsAt3 V c t.val t.isLt).2.2.1 := by
  have hz : t.val ≠ 0 := by omega
  have h0 : ¬t.val % 8 = 0 := by omega
  have hk := kept_after V c t
  rw [if_neg h0] at hk
  rw [hk, outsAt3_pos V c t hz, stepAt3_out V c t _ h1]

end Cert.KernelIdeal.Frm

end
-- ==== Proof.IdealAttnBlocks.lean ====
/-
  The attention call's windows, read. Grid point t = 8·qi + kv stages rows 1024·qi … 1024·qi + 1023 of the projected
  queries, rows 512·kv … 512·kv + 511 of the projected keys and of the projected values, and its output block is rows
  1024·qi … of the result. The output is written back at the points with kv = 7 only, and those four blocks cover the
  result array.
-/
import proofs.«150159_j62277025792152_2_alg».proof.Proof.IdealAttnFold
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (V : (c : Dev nD) → (b : Ref sig .tc) → Buf (Elt F) ((c : Thread nD τ).loc b))

/-- The windows' block indices in terms of the linear point number, decided over the 32 points. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val % 8 ∧ win3_2.index t (1 : Fin 2) = 0
    ∧ win3_3.index t (0 : Fin 2) = t.val / 8 ∧ win3_3.index t (1 : Fin 2) = 0 :=
  (by decide +kernel : ∀ t : Fin grid3.N, _)

theorem point_lt (t : Fin cfg3.N) : t.val < 32 := lt_of_lt_of_eq t.isLt (show cfg3.N = 32 from N_3)

/-- The query row that row `r` of point `t`'s query block is. -/
def rowQ (t : Fin cfg3.N) (r : Fin 1024) : Fin 4096 := ⟨1024 * (t.val / 8) + r.val, by have := point_lt t; omega⟩
/-- The key that row `b` of point `t`'s key block (and value block) is. -/
def rowK (t : Fin cfg3.N) (b : Fin 512) : Fin 4096 := ⟨512 * (t.val % 8) + b.val, by omega⟩

theorem qblock_apply (c : Dev nD) (t : Fin cfg3.N) (r d : Fin 1024) :
    (iblk3 V c 0 t : Vec F S1024x1024 .bf16) (ix2 r d) = V c main_v1 (ix2 (rowQ t r) d) := by
  obtain ⟨e0, e1, -⟩ := idx_facts3 t
  show V c main_v1 (((cfg3.win 0).blk t).view.emb (ix2 r d)) = V c main_v1 (ix2 (rowQ t r) d)
  refine congrArg _ ?_
  funext a; apply Fin.ext
  match a with
  | ⟨0, _⟩ => show win3_0.index t (0 : Fin 2) * 1024 + 1 * r.val = 1024 * (t.val / 8) + r.val; rw [e0]; omega
  | ⟨1, _⟩ => show win3_0.index t (1 : Fin 2) * 1024 + 1 * d.val = d.val; rw [e1]; omega

theorem kblock_apply (c : Dev nD) (t : Fin cfg3.N) (b : Fin 512) (d : Fin 1024) :
    (iblk3 V c 1 t : Vec F S512x1024 .bf16) (ix2 b d) = V c main_v3 (ix2 (rowK t b) d) := by
  obtain ⟨-, -, e0, e1, -⟩ := idx_facts3 t
  show V c main_v3 (((cfg3.win 1).blk t).view.emb (ix2 b d)) = V c main_v3 (ix2 (rowK t b) d)
  refine congrArg _ ?_
  funext a; apply Fin.ext
  match a with
  | ⟨0, _⟩ => show win3_1.index t (0 : Fin 2) * 512 + 1 * b.val = 512 * (t.val % 8) + b.val; rw [e0]; omega
  | ⟨1, _⟩ => show win3_1.index t (1 : Fin 2) * 1024 + 1 * d.val = d.val; rw [e1]; omega

theorem vblock_apply (c : Dev nD) (t : Fin cfg3.N) (b : Fin 512) (h : Fin 1024) :
    (iblk3 V c 2 t : Vec F S512x1024 .bf16) (ix2 b h) = V c main_v5 (ix2 (rowK t b) h) := by
  obtain ⟨-, -, -, -, e0, e1, -⟩ := idx_facts3 t
  show V c main_v5 (((cfg3.win 2).blk t).view.emb (ix2 b h)) = V c main_v5 (ix2 (rowK t b) h)
  refine congrArg _ ?_
  funext a; apply Fin.ext
  match a with
  | ⟨0, _⟩ => show win3_2.index t (0 : Fin 2) * 512 + 1 * b.val = 512 * (t.val % 8) + b.val; rw [e0]; omega
  | ⟨1, _⟩ => show win3_2.index t (1 : Fin 2) * 1024 + 1 * h.val = h.val; rw [e1]; omega

/-- Where point `t`'s output block sits in the result array. -/
theorem oblock_emb (t : Fin cfg3.N) (j : S1024x1024.Idx) :
    ((cfg3.win 3).blk t).view.emb j = ix2 (rowQ t (j 0)) (j 1) := by
  obtain ⟨-, -, -, -, -, -, e0, e1⟩ := idx_facts3 t
  funext a; apply Fin.ext
  match a with
  | ⟨0, _⟩ => show win3_3.index t (0 : Fin 2) * 1024 + 1 * (j 0).val = 1024 * (t.val / 8) + (j 0).val; rw [e0]; omega
  | ⟨1, _⟩ => show win3_3.index t (1 : Fin 2) * 1024 + 1 * (j 1).val = (j 1).val; rw [e1]; omega

/-- An index of the result array is in point `t`'s output block iff each coordinate is in the block's range. -/
theorem mem_oblock (t : Fin cfg3.N) (i : S4096x1024.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v6).slice (win3_3.rect t)).set ↔ _
  rw [View.set_slice_whole, Rect.mem_set_unit]
  exact Iff.rfl

/-- Every index of the result array lies in the block written back at the last key tile of its query tile. -/
theorem covered3 (i : S4096x1024.Idx) :
    ∃ t : Fin cfg3.N, (cfg3.win 3).flush t = true ∧ i ∈ ((cfg3.win 3).blk t).view.set := by
  have hi0 : (i 0).val < 4096 := (i 0).isLt
  have hi1 : (i 1).val < 1024 := (i 1).isLt
  refine ⟨⟨8 * ((i 0).val / 1024) + 7, by rw [show cfg3.N = 32 from N_3]; omega⟩, (flush3_3 _).mpr (by dsimp only; omega), ?_⟩
  rw [mem_oblock]
  obtain ⟨-, -, -, -, -, -, e0, e1⟩ := idx_facts3 ⟨8 * ((i 0).val / 1024) + 7, by rw [show cfg3.N = 32 from N_3]; omega⟩
  intro a
  match a with
  | ⟨0, _⟩ =>
    show win3_3.index _ (0 : Fin 2) * 1024 ≤ (i 0).val ∧ (i 0).val < win3_3.index _ (0 : Fin 2) * 1024 + 1024
    rw [e0]; dsimp only; omega
  | ⟨1, _⟩ =>
    show win3_3.index _ (1 : Fin 2) * 1024 ≤ (i 1).val ∧ (i 1).val < win3_3.index _ (1 : Fin 2) * 1024 + 1024
    rw [e1]; omega

end Cert.KernelIdeal.Frm

end
-- ==== Proof.OnlineSoftmax.lean ====
/-
  THE ONLINE-SOFTMAX LAW, abstractly, on the extended reals.

  One query row. Its keys arrive in tiles of B lanes; tile t brings scores s t b and values w t b (b < B). A state
  (m, l, acc) — running maximum, running sum of exponentials, running weighted sum — starts at (-∞, 0, 0) and one tile
  takes it to

      m'   = max m (the maximum over the lanes, started from -∞, of s t b)
      l'   = exp (m − m') · l + (0 + Σ_b exp (s t b − m'))
      acc' = exp (m − m') · acc + Σ_b exp (s t b − m') · w t b

  with max, −, ·, + the extended reals' own and exp the ideal exponential (exp (-∞) = 0). `step` is that update and
  `run` its iteration over the tiles in order.

  THE INVARIANT (`run_eq`), for real scores and values: after n tiles the state is

      ( M_n ,  Σ_{t<n} Σ_b exp (s t b − M_n) ,  Σ_{t<n} Σ_b exp (s t b − M_n) · w t b )

  where M_n (`seenMax`) is the maximum of the scores seen so far (-∞ before the first tile, a real from then on:
  `seenMax_coe`). The step is the identity exp (m − m') · exp (x − m) = exp (x − m') on the reals, summed; at the first
  tile m = -∞, the factor is exp (-∞) = 0 and the old sums are empty. Only here are the scores used as REALS: a
  product moves across a finite sum of reals, which it does not on the extended reals at infinities.

  THE END (`run_div`): after n + 1 tiles acc / l is Σ_{t≤n} Σ_b (exp (s t b − M) / L) · w t b with
  L = 0 + Σ_{t≤n} Σ_b exp (s t b − M): the normaliser L is a sum of positive reals over a nonempty set, so it is a
  positive real and dividing by it is multiplying by its reciprocal, term by term.

  REGROUPING (`online_eq_ref`): when the T·B (tile, lane) pairs enumerate a key set κ (`e : Fin T × Fin B ≃ κ`) the
  tiled sums are the sums over κ and the tiled maximum is the maximum over κ, started from -∞ and taken once more
  against -∞ as a reference's row maximum is (`refMax`, `refSum`, `refOut`: a row's maximum, normaliser and output in
  that order of operations). `tileKey` is the enumeration of 4096 keys by 8 tiles of 512: key 512·t + b.

  Last, the constants that meet here: the f32 word of -∞, of 0, of 1024.0 (whose ideal square root is 32), the bf16
  word 0x3D00 (1/32), and x / 32 = x · (1/32) in the form the ideal division takes.
-/
import Idealize.ShloMosaic.PureOps.Ideal

noncomputable section

namespace Cert.Attn

open Idealize.ShloMosaic
open scoped BigOperators

/-! ## Coercions of finite sums, and the exponential of a difference of reals -/

/-- The coercion of a finite sum of reals is the sum of the coercions. -/
theorem coe_sum {ι : Type*} (S : Finset ι) (f : ι → ℝ) : ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-- The same for a double sum. -/
theorem coe_sum₂ {ι κ : Type*} (S : Finset ι) (S' : Finset κ) (f : ι → κ → ℝ) :
    ((∑ i ∈ S, ∑ j ∈ S', f i j : ℝ) : EReal) = ∑ i ∈ S, ∑ j ∈ S', (f i j : EReal) := by
  rw [coe_sum]; exact Finset.sum_congr rfl fun i _ => coe_sum _ _

/-- The coercion of a maximum of reals is the maximum of the coercions. -/
theorem coe_max (x y : ℝ) : ((max x y : ℝ) : EReal) = max (x : EReal) (y : EReal) :=
  EReal.coe_strictMono.monotone.map_max

/-- The ideal exponential of a difference of two reals is the real exponential of the difference. -/
theorem exp_coe_sub_coe (x r : ℝ) : Ideal.exp ((x : EReal) - (r : EReal)) = ((Real.exp (x - r) : ℝ) : EReal) := by
  rw [← EReal.coe_sub]; rfl

/-- The ideal exponential of -∞ less anything is 0. -/
theorem exp_bot_sub (y : EReal) : Ideal.exp (⊥ - y) = 0 := by
  rw [EReal.bot_sub]; rfl

/-! ## The recurrence -/

/-- A tile's lane maximum, started from -∞. -/
def tileMax {B : ℕ} (sk : Fin B → EReal) : EReal := (Finset.univ : Finset (Fin B)).fold max ⊥ sk

/-- One tile's update of the state (running maximum, running sum, running weighted sum). -/
def step {B : ℕ} (sk wv : Fin B → EReal) (st : EReal × EReal × EReal) : EReal × EReal × EReal :=
  (max st.1 (tileMax sk),
   Ideal.exp (st.1 - max st.1 (tileMax sk)) * st.2.1 + (0 + ∑ b, Ideal.exp (sk b - max st.1 (tileMax sk))),
   Ideal.exp (st.1 - max st.1 (tileMax sk)) * st.2.2 + ∑ b, Ideal.exp (sk b - max st.1 (tileMax sk)) * wv b)

/-- The state after the first n tiles, from (-∞, 0, 0). -/
def run {B : ℕ} (s w : ℕ → Fin B → EReal) : ℕ → EReal × EReal × EReal
  | 0 => (⊥, 0, 0)
  | n + 1 => step (s n) (w n) (run s w n)

/-- The maximum of the scores of the first n tiles: -∞ before the first. -/
def seenMax {B : ℕ} (s : ℕ → Fin B → EReal) : ℕ → EReal
  | 0 => ⊥
  | n + 1 => max (seenMax s n) (tileMax (s n))

theorem run_zero {B : ℕ} (s w : ℕ → Fin B → EReal) : run s w 0 = (⊥, 0, 0) := rfl
theorem run_succ {B : ℕ} (s w : ℕ → Fin B → EReal) (n : ℕ) : run s w (n + 1) = step (s n) (w n) (run s w n) := rfl
theorem seenMax_zero {B : ℕ} (s : ℕ → Fin B → EReal) : seenMax s 0 = ⊥ := rfl
theorem seenMax_succ {B : ℕ} (s : ℕ → Fin B → EReal) (n : ℕ) :
    seenMax s (n + 1) = max (seenMax s n) (tileMax (s n)) := rfl

/-- The state's first component is the maximum of the scores seen. -/
theorem run_fst {B : ℕ} (s w : ℕ → Fin B → EReal) (n : ℕ) : (run s w n).1 = seenMax s n := by
  induction n with
  | zero => rfl
  | succ n ih => rw [run_succ, seenMax_succ, ← ih]; rfl

/-! ## The running maximum of real scores is a real from the first tile on -/

/-- A fold of max from -∞ over a nonempty set of reals is a real. -/
theorem fold_max_coe {ι : Type*} (S : Finset ι) (hS : S.Nonempty) (x : ι → ℝ) :
    ∃ r : ℝ, S.fold max (⊥ : EReal) (fun i => (x i : EReal)) = (r : EReal) := by
  classical
  induction hS using Finset.Nonempty.cons_induction with
  | singleton a => exact ⟨x a, by rw [Finset.fold_singleton]; exact max_eq_left bot_le⟩
  | cons a s ha hs ih =>
    obtain ⟨r, hr⟩ := ih
    exact ⟨max (x a) r, by rw [Finset.fold_cons, hr, coe_max]⟩

theorem tileMax_coe {B : ℕ} (hB : 0 < B) (x : Fin B → ℝ) :
    ∃ r : ℝ, tileMax (fun b => (x b : EReal)) = (r : EReal) :=
  fold_max_coe Finset.univ ⟨⟨0, hB⟩, Finset.mem_univ _⟩ x

theorem seenMax_coe {B : ℕ} (hB : 0 < B) (sr : ℕ → Fin B → ℝ) (n : ℕ) :
    ∃ r : ℝ, seenMax (fun t b => (sr t b : EReal)) (n + 1) = (r : EReal) := by
  induction n with
  | zero =>
    obtain ⟨μ, hμ⟩ := tileMax_coe hB (sr 0)
    exact ⟨μ, by rw [seenMax_succ, seenMax_zero, hμ]; exact max_eq_right bot_le⟩
  | succ n ih =>
    obtain ⟨r, hr⟩ := ih
    obtain ⟨μ, hμ⟩ := tileMax_coe hB (sr (n + 1))
    exact ⟨max r μ, by rw [seenMax_succ, hr, hμ, coe_max]⟩

/-! ## Rescaling the sums from one real maximum to another -/

theorem rescale_sum {B : ℕ} (sr : ℕ → Fin B → ℝ) (n : ℕ) (r r' : ℝ) :
    Ideal.exp ((r : EReal) - (r' : EReal)) * ∑ t ∈ Finset.range n, ∑ b, Ideal.exp ((sr t b : EReal) - (r : EReal))
      = ∑ t ∈ Finset.range n, ∑ b, Ideal.exp ((sr t b : EReal) - (r' : EReal)) := by
  simp only [exp_coe_sub_coe]
  rw [← coe_sum₂, ← coe_sum₂, ← EReal.coe_mul, Finset.mul_sum]
  refine congrArg _ (Finset.sum_congr rfl fun t _ => ?_)
  rw [Finset.mul_sum]
  refine Finset.sum_congr rfl fun b _ => ?_
  rw [← Real.exp_add]; congr 1; ring

theorem rescale_wsum {B : ℕ} (sr wr : ℕ → Fin B → ℝ) (n : ℕ) (r r' : ℝ) :
    Ideal.exp ((r : EReal) - (r' : EReal))
        * ∑ t ∈ Finset.range n, ∑ b, Ideal.exp ((sr t b : EReal) - (r : EReal)) * (wr t b : EReal)
      = ∑ t ∈ Finset.range n, ∑ b, Ideal.exp ((sr t b : EReal) - (r' : EReal)) * (wr t b : EReal) := by
  simp only [exp_coe_sub_coe, ← EReal.coe_mul]
  rw [← coe_sum₂, ← coe_sum₂, ← EReal.coe_mul, Finset.mul_sum]
  refine congrArg _ (Finset.sum_congr rfl fun t _ => ?_)
  rw [Finset.mul_sum]
  refine Finset.sum_congr rfl fun b _ => ?_
  rw [← mul_assoc, ← Real.exp_add]; congr 2; ring

/-! ## The invariant -/

/-- After n tiles of real scores and values the state is (the maximum seen, Σ exp (s − max), Σ exp (s − max) · w). -/
theorem run_eq {B : ℕ} (hB : 0 < B) (sr wr : ℕ → Fin B → ℝ) (n : ℕ) :
    run (fun t b => (sr t b : EReal)) (fun t b => (wr t b : EReal)) n
      = (seenMax (fun t b => (sr t b : EReal)) n,
         ∑ t ∈ Finset.range n, ∑ b, Ideal.exp ((sr t b : EReal) - seenMax (fun t b => (sr t b : EReal)) n),
         ∑ t ∈ Finset.range n, ∑ b,
           Ideal.exp ((sr t b : EReal) - seenMax (fun t b => (sr t b : EReal)) n) * (wr t b : EReal)) := by
  induction n with
  | zero => simp [run_zero, seenMax_zero]
  | succ n ih =>
    obtain ⟨r', hr'⟩ := seenMax_coe hB sr n
    rw [run_succ, ih, hr']
    have hm' : max (seenMax (fun t b => (sr t b : EReal)) n) (tileMax (fun b => (sr n b : EReal))) = (r' : EReal) := by
      rw [← hr', seenMax_succ]
    unfold step
    simp only [hm']
    rw [Finset.sum_range_succ, Finset.sum_range_succ, zero_add]
    rcases n with _ | k
    · simp [seenMax_zero, exp_bot_sub]
    · obtain ⟨r, hr⟩ := seenMax_coe hB sr k
      rw [hr, rescale_sum, rescale_wsum]

/-! ## The end: acc / l -/

/-- The normaliser over at least one tile of at least one lane is a positive real. -/
theorem seen_sum_pos {B : ℕ} (hB : 0 < B) (sr : ℕ → Fin B → ℝ) (n : ℕ) (r : ℝ) :
    0 < ∑ t ∈ Finset.range (n + 1), ∑ b : Fin B, Real.exp (sr t b - r) :=
  Finset.sum_pos (fun _ _ => Finset.sum_pos (fun _ _ => Real.exp_pos _) ⟨⟨0, hB⟩, Finset.mem_univ _⟩)
    ⟨0, Finset.mem_range.2 (Nat.succ_pos n)⟩

/-- After n + 1 tiles the weighted sum divided by the sum is the sum of the normalised weights against the values,
    with the maximum M seen and the normaliser 0 + Σ exp (s − M). -/
theorem run_div {B : ℕ} (hB : 0 < B) (sr wr : ℕ → Fin B → ℝ) (n : ℕ) :
    Ideal.div (run (fun t b => (sr t b : EReal)) (fun t b => (wr t b : EReal)) (n + 1)).2.2
        (run (fun t b => (sr t b : EReal)) (fun t b => (wr t b : EReal)) (n + 1)).2.1
      = ∑ t ∈ Finset.range (n + 1), ∑ b,
          Ideal.div (Ideal.exp ((sr t b : EReal) - seenMax (fun t b => (sr t b : EReal)) (n + 1)))
              (0 + ∑ t ∈ Finset.range (n + 1), ∑ b,
                Ideal.exp ((sr t b : EReal) - seenMax (fun t b => (sr t b : EReal)) (n + 1)))
            * (wr t b : EReal) := by
  obtain ⟨r, hr⟩ := seenMax_coe hB sr n
  rw [run_eq hB, hr]
  dsimp only
  simp only [exp_coe_sub_coe, zero_add, ← EReal.coe_mul]
  rw [← coe_sum₂, ← coe_sum₂]
  have hℓ := seen_sum_pos hB sr n r
  simp only [Ideal.div_coe hℓ.ne', ← EReal.coe_mul]
  rw [← coe_sum₂]
  refine congrArg _ ?_
  rw [Finset.sum_mul]
  refine Finset.sum_congr rfl fun t _ => ?_
  rw [Finset.sum_mul]
  exact Finset.sum_congr rfl fun b _ => by ring

/-! ## A reference's row over a finite key set, and the regrouping of the tiles into it -/

/-- A row's maximum as a reference takes it: the maximum over the keys started from -∞, then once more against -∞. -/
def refMax {κ : Type*} [Fintype κ] (σ : κ → EReal) : EReal := max ⊥ ((Finset.univ : Finset κ).fold max ⊥ σ)
/-- A row's normaliser: zero plus the sum of the exponentials of the scores less the row's maximum. -/
def refSum {κ : Type*} [Fintype κ] (σ : κ → EReal) : EReal := 0 + ∑ j, Ideal.exp (σ j - refMax σ)
/-- A row's output: the normalised weights against the values. -/
def refOut {κ : Type*} [Fintype κ] (σ ω : κ → EReal) : EReal :=
  ∑ j, Ideal.div (Ideal.exp (σ j - refMax σ)) (refSum σ) * ω j

theorem tileMax_le_iff {B : ℕ} (sk : Fin B → EReal) (c : EReal) : tileMax sk ≤ c ↔ ∀ b, sk b ≤ c := by
  unfold tileMax; rw [Finset.fold_max_le]; simp

theorem seenMax_le_iff {B : ℕ} (s : ℕ → Fin B → EReal) (n : ℕ) (c : EReal) :
    seenMax s n ≤ c ↔ ∀ t < n, ∀ b, s t b ≤ c := by
  induction n with
  | zero => simp [seenMax_zero]
  | succ n ih =>
    rw [seenMax_succ, max_le_iff, ih, tileMax_le_iff]
    constructor
    · rintro ⟨h1, h2⟩ t ht b
      rcases Nat.lt_succ_iff_lt_or_eq.1 ht with h | rfl
      exacts [h1 t h b, h2 b]
    · intro h
      exact ⟨fun t ht b => h t (Nat.lt_succ_of_lt ht) b, fun b => h n (Nat.lt_succ_self n) b⟩

theorem refMax_le_iff {κ : Type*} [Fintype κ] (σ : κ → EReal) (c : EReal) : refMax σ ≤ c ↔ ∀ j, σ j ≤ c := by
  unfold refMax; rw [max_le_iff, Finset.fold_max_le]; simp

/-- The maximum seen over T tiles that enumerate the key set is the row's maximum. -/
theorem seenMax_tiled {T B : ℕ} {κ : Type*} [Fintype κ] (e : Fin T × Fin B ≃ κ) (σ : κ → EReal)
    (s : ℕ → Fin B → EReal) (hs : ∀ (t : Fin T) (b : Fin B), s t.val b = σ (e (t, b))) :
    seenMax s T = refMax σ := by
  refine eq_of_forall_ge_iff fun c => ?_
  rw [seenMax_le_iff, refMax_le_iff]
  constructor
  · intro h j
    obtain ⟨⟨t, b⟩, rfl⟩ := e.surjective j
    rw [← hs]; exact h t.val t.isLt b
  · intro h t ht b
    rw [hs ⟨t, ht⟩ b]; exact h _

/-- A sum over T tiles of B lanes that enumerate the key set is the sum over the keys. -/
theorem sum_tiled {T B : ℕ} {κ M : Type*} [Fintype κ] [AddCommMonoid M] (e : Fin T × Fin B ≃ κ) (g : κ → M)
    (F : ℕ → Fin B → M) (hF : ∀ (t : Fin T) (b : Fin B), F t.val b = g (e (t, b))) :
    ∑ t ∈ Finset.range T, ∑ b, F t b = ∑ j, g j := by
  rw [Finset.sum_range (fun t => ∑ b, F t b), ← Equiv.sum_comp e g, Fintype.sum_prod_type]
  exact Finset.sum_congr rfl fun t _ => Finset.sum_congr rfl fun b _ => hF t b

/-- THE LAW: real scores σ and values ω over a key set enumerated by T ≥ 1 tiles of B ≥ 1 lanes; the online
    recurrence run over the tiles in order ends with acc / l equal to the row's output as a reference computes it. -/
theorem online_eq_ref {T B : ℕ} {κ : Type*} [Fintype κ] (hT : 0 < T) (hB : 0 < B) (e : Fin T × Fin B ≃ κ)
    (σ ω : κ → ℝ) (sr wr : ℕ → Fin B → ℝ) (hs : ∀ (t : Fin T) (b : Fin B), sr t.val b = σ (e (t, b)))
    (hw : ∀ (t : Fin T) (b : Fin B), wr t.val b = ω (e (t, b))) :
    Ideal.div (run (fun t b => (sr t b : EReal)) (fun t b => (wr t b : EReal)) T).2.2
        (run (fun t b => (sr t b : EReal)) (fun t b => (wr t b : EReal)) T).2.1
      = refOut (fun j => (σ j : EReal)) (fun j => (ω j : EReal)) := by
  obtain ⟨n, rfl⟩ : ∃ n, T = n + 1 := ⟨T - 1, by omega⟩
  rw [run_div hB]
  have hM : seenMax (fun t b => (sr t b : EReal)) (n + 1) = refMax (fun j => (σ j : EReal)) :=
    seenMax_tiled e _ _ (fun t b => by rw [hs])
  rw [hM]
  have hL : ∑ t ∈ Finset.range (n + 1), ∑ b, Ideal.exp ((sr t b : EReal) - refMax (fun j => (σ j : EReal)))
      = ∑ j, Ideal.exp ((σ j : EReal) - refMax (fun j => (σ j : EReal))) :=
    sum_tiled e (fun j => Ideal.exp ((σ j : EReal) - refMax (fun j => (σ j : EReal))))
      (fun t b => Ideal.exp ((sr t b : EReal) - refMax (fun j => (σ j : EReal)))) (fun t b => by simp only [hs])
  rw [hL]
  unfold refOut refSum
  exact sum_tiled e
    (fun j => Ideal.div (Ideal.exp ((σ j : EReal) - refMax (fun j => (σ j : EReal))))
        (0 + ∑ j, Ideal.exp ((σ j : EReal) - refMax (fun j => (σ j : EReal)))) * (ω j : EReal))
    (fun t b => Ideal.div (Ideal.exp ((sr t b : EReal) - refMax (fun j => (σ j : EReal))))
        (0 + ∑ j, Ideal.exp ((σ j : EReal) - refMax (fun j => (σ j : EReal)))) * (wr t b : EReal))
    (fun t b => by simp only [hs, hw])

/-- 4096 keys as 8 tiles of 512 lanes: key 512·t + b. -/
def tileKey : Fin 8 × Fin 512 ≃ Fin 4096 where
  toFun p := ⟨512 * p.1.val + p.2.val, by have := p.1.isLt; have := p.2.isLt; omega⟩
  invFun j := (⟨j.val / 512, by have := j.isLt; omega⟩, ⟨j.val % 512, Nat.mod_lt _ (by norm_num)⟩)
  left_inv := fun ⟨t, b⟩ => Prod.ext
    (Fin.ext (by show (512 * t.val + b.val) / 512 = t.val; have := b.isLt; omega))
    (Fin.ext (by show (512 * t.val + b.val) % 512 = b.val; have := b.isLt; omega))
  right_inv := fun j => Fin.ext (by show 512 * (j.val / 512) + j.val % 512 = j.val; omega)

theorem tileKey_val (t : Fin 8) (b : Fin 512) : (tileKey (t, b)).val = 512 * t.val + b.val := rfl

/-! ## The constants -/

/-- The f32 word 0xFF800000 is -∞. -/
theorem negInf_f32 : Ideal.ofBits .f32 0xFF800000#32 = ⊥ := by simp [Ideal.ofBits, Ideal.ieee]

/-- The f32 word 0x00000000 is 0. -/
theorem zero_f32 : Ideal.ofBits .f32 0x00000000#32 = 0 := by simp [Ideal.ofBits, Ideal.ieee]

/-- The f32 word 0x44800000 is 1024. -/
theorem f32_1024 : Ideal.ofBits .f32 0x44800000#32 = ((1024 : ℝ) : EReal) := by
  simp [Ideal.ofBits, Ideal.ieee, -EReal.coe_mul]; norm_num

/-- Its ideal square root is 32. -/
theorem sqrt_f32_1024 : Ideal.sqrt (Ideal.ofBits .f32 0x44800000#32) = ((32 : ℝ) : EReal) := by
  rw [f32_1024, Ideal.sqrt_coe, if_neg (by norm_num)]
  refine congrArg _ ?_
  rw [show (1024 : ℝ) = 32 ^ 2 by norm_num, Real.sqrt_sq (by norm_num)]

/-- The bf16 word 0x3D00 is 2⁻⁵ = 1/32. -/
theorem bf16_inv32 : Ideal.ofBits .bf16 0x3D00#16 = (((1 : ℝ) / 32 : ℝ) : EReal) := by
  simp [Ideal.ofBits, Ideal.ieee, -EReal.coe_mul]; norm_num

/-- Dividing by 32 is multiplying by 1/32, at the infinities too. -/
theorem div_32 (x : EReal) : Ideal.div x ((32 : ℝ) : EReal) = x * (((1 : ℝ) / 32 : ℝ) : EReal) :=
  Ideal.div_coe (by norm_num) x

/-- A contraction of real rows with the left factors scaled by 1/32 first is the contraction divided by 32. -/
theorem scaled_dot {D : ℕ} (x y : Fin D → ℝ) :
    ∑ d, ((x d : EReal) * (((1 : ℝ) / 32 : ℝ) : EReal)) * (y d : EReal)
      = Ideal.div (∑ d, (x d : EReal) * (y d : EReal)) ((32 : ℝ) : EReal) := by
  rw [div_32]
  simp only [← EReal.coe_mul]
  rw [← coe_sum, ← coe_sum, ← EReal.coe_mul]
  refine congrArg _ ?_
  rw [Finset.sum_mul]
  exact Finset.sum_congr rfl fun d _ => by ring

end Cert.Attn

end
-- ==== Proof.IdealAttnLayout.lean ====
/-
  LAYOUT, CONTRACTIONS AND LANE REDUCTIONS OF THE ATTENTION BODY, READ AT AN INDEX.

  A vector cast to a column reads the vector's entry at the row; a column broadcast along its rows reads the column's
  entry at the row. The score product into a zero accumulator is, at (r, b), the sum over the 1024 features of the
  left operand's row r against the right operand's column b; the value product is, at (r, h), the sum over the 512
  keys of the weights' row r against the value tile's column h. The lane maximum from the word of -∞ is, at row r,
  the fold of max from ⊥ over the 512 lanes, and the lane sum from the word of 0 is the sum over the lanes.
-/
import proofs.«150159_j62277025792152_2_alg».proof.KernelIdeal
import proofs.«150159_j62277025792152_2_alg».proof.Proof.Gen.KernelIdeal
import proofs.«150159_j62277025792152_2_alg».proof.Proof.OnlineSoftmax
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.Frm

open Cert.KernelIdeal Cert.KernelIdeal.Gen Cert.Attn
open Idealize.ShloMosaic Idealize.ShloMosaic.ValueIdx
open scoped BigOperators

/-! ## Two column layouts read at an index -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions and the two lane reductions read at an index -/

theorem dotQK_lhs0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem dotQK_lhs1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem dotQK_rhs0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem dotQK_rhs1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The score contraction: row r of the left operand against column b of the right, over the 1024 features. -/
theorem dotQK_apply (l : FVec Ideal S1024x1024 .bf16) (rr : FVec Ideal S1024x512 .bf16) (r : Fin 1024) (b : Fin 512) :
    FloatOps.matmul dot_S1024x1024_S1024x512_S1024x512_1_0_0_1_n_n none l rr (constant (F := Ideal) S1024x512 .f32 0x00000000#32) (ix2 r b)
      = ∑ d : Fin 1024, l (ix2 r d) * rr (ix2 d b) := by
  refine (Ideal.matmul_constant_zero_apply dot_S1024x1024_S1024x512_S1024x512_1_0_0_1_n_n none l rr (ix2 r b)).trans ?_
  rw [← Equiv.sum_comp (contrEquiv1 dot_S1024x1024_S1024x512_S1024x512_1_0_0_1_n_n 1024 rfl rfl).symm]
  refine Finset.sum_congr rfl fun d _ => ?_
  have hk := contrEquiv1_symm_val dot_S1024x1024_S1024x512_S1024x512_1_0_0_1_n_n 1024 rfl rfl d
  have el : dot_S1024x1024_S1024x512_S1024x512_1_0_0_1_n_n.lhsIdx (ix2 r b) ((contrEquiv1 dot_S1024x1024_S1024x512_S1024x512_1_0_0_1_n_n 1024 rfl rfl).symm d) = (ix2 r d) :=
    funext fun a => Fin.ext (by
      match a with
      | ⟨0, _⟩ => exact dotQK_lhs0 _ _
      | ⟨1, _⟩ => exact (dotQK_lhs1 _ _).trans hk)
  have er : dot_S1024x1024_S1024x512_S1024x512_1_0_0_1_n_n.rhsIdx (ix2 r b) ((contrEquiv1 dot_S1024x1024_S1024x512_S1024x512_1_0_0_1_n_n 1024 rfl rfl).symm d) = (ix2 d b) :=
    funext fun a => Fin.ext (by
      match a with
      | ⟨0, _⟩ => exact (dotQK_rhs0 _ _).trans hk
      | ⟨1, _⟩ => exact dotQK_rhs1 _ _)
  rw [el, er]

theorem dotPV_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem dotPV_lhs1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem dotPV_rhs0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem dotPV_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The value contraction: row r of the weights against column h of the value tile, over the 512 keys. -/
theorem dotPV_apply (l : FVec Ideal S1024x512 .bf16) (rr : FVec Ideal S512x1024 .bf16) (r h : Fin 1024) :
    FloatOps.matmul dot_S1024x512_S512x1024_S1024x1024_1_0_0_1_n_n none l rr (constant (F := Ideal) S1024x1024 .f32 0x00000000#32) (ix2 r h)
      = ∑ b : Fin 512, l (ix2 r b) * rr (ix2 b h) := by
  refine (Ideal.matmul_constant_zero_apply dot_S1024x512_S512x1024_S1024x1024_1_0_0_1_n_n none l rr (ix2 r h)).trans ?_
  rw [← Equiv.sum_comp (contrEquiv1 dot_S1024x512_S512x1024_S1024x1024_1_0_0_1_n_n 512 rfl rfl).symm]
  refine Finset.sum_congr rfl fun b _ => ?_
  have hk := contrEquiv1_symm_val dot_S1024x512_S512x1024_S1024x1024_1_0_0_1_n_n 512 rfl rfl b
  have el : dot_S1024x512_S512x1024_S1024x1024_1_0_0_1_n_n.lhsIdx (ix2 r h) ((contrEquiv1 dot_S1024x512_S512x1024_S1024x1024_1_0_0_1_n_n 512 rfl rfl).symm b) = (ix2 r b) :=
    funext fun a => Fin.ext (by
      match a with
      | ⟨0, _⟩ => exact dotPV_lhs0 _ _
      | ⟨1, _⟩ => exact (dotPV_lhs1 _ _).trans hk)
  have er : dot_S1024x512_S512x1024_S1024x1024_1_0_0_1_n_n.rhsIdx (ix2 r h) ((contrEquiv1 dot_S1024x512_S512x1024_S1024x1024_1_0_0_1_n_n 512 rfl rfl).symm b) = (ix2 b h) :=
    funext fun a => Fin.ext (by
      match a with
      | ⟨0, _⟩ => exact (dotPV_rhs0 _ _).trans hk
      | ⟨1, _⟩ => exact dotPV_rhs1 _ _)
  rw [el, er]

/-- The lane maximum from the word of -∞, at row r: the fold of max from ⊥ over the 512 lanes. -/
theorem laneMax_apply (src : FVec Ideal S1024x512 .f32) (r : Fin 1024) :
    multiReduction (F := Ideal) .maximumf [1] S1024 src 0xFF800000#32 Facts₀.reduces_S1024x512_S1024 (.inl rfl) rfl (ix1 r)
      = tileMax (fun b : Fin 512 => src (ix2 r b)) := by
  refine (Ideal.multiReduction_maximumf_single src 0xFF800000#32 Facts₀.reduces_S1024x512_S1024 (.inl rfl) rfl (ix1 r)).trans ?_
  have e : (src ∘ (Facts₀.reduces_S1024x512_S1024).lift (ix1 r)) = fun b : Fin 512 => src (ix2 r b) :=
    funext fun k => congrArg src (funext fun a => Fin.ext (by match a with | ⟨0, _⟩ => rfl | ⟨1, _⟩ => rfl))
  rw [e]
  show (Finset.univ : Finset (Fin 512)).fold max (Ideal.ofBits .f32 0xFF800000#32) _ = _
  rw [negInf_f32]
  rfl

/-- The lane sum from the word of 0, at row r: the sum over the 512 lanes. -/
theorem laneSum_apply (src : FVec Ideal S1024x512 .f32) (r : Fin 1024) :
    multiReduction (F := Ideal) .add [1] S1024 src 0x00000000#32 Facts₀.reduces_S1024x512_S1024 (.inl rfl) rfl (ix1 r)
      = ∑ b : Fin 512, src (ix2 r b) := by
  refine (Ideal.multiReduction_add_single src 0x00000000#32 Facts₀.reduces_S1024x512_S1024 (.inl rfl) rfl (ix1 r)).trans ?_
  show (∑ k : Fin 512, src ((Facts₀.reduces_S1024x512_S1024).lift (ix1 r) k)) = _
  exact Finset.sum_congr rfl fun k _ =>
    congrArg src (funext fun a => Fin.ext (by match a with | ⟨0, _⟩ => rfl | ⟨1, _⟩ => rfl))

end Cert.KernelIdeal.Frm

end
-- ==== Proof.IdealAttnAt.lean ====
/-
  THE ATTENTION BODY'S ARITHMETIC AT AN ELEMENT IS ONE STEP OF THE ONLINE-SOFTMAX RECURRENCE.

  One key tile's work on a query tile x0 (row r, feature d), a key tile x1 (key b, feature d) and a value tile x2
  (key b, column h), read at query row r and output column h:

    the scaled score of lane b is Σ_d (x0(r, d) · 1/32) · x1(b, d): the product of the scaled queries with the
    transposed keys into a zero accumulator, a contraction over the 1024 features, the transpose only swapping the
    two coordinates of the keys;
    the lane maximum over the 512 keys from the word of -∞ is the fold of max from ⊥ over the lanes (max is commutative
    and associative, so the order of the fold is immaterial); cast to a column and joined with the old maximum m(r) it
    is m'(r) = max (m(r)) (that fold);
    the rescaling factor is exp (m(r) − m'(r)) and lane b's weight exp (score_b − m'(r)), a column read along its row
    being the column's entry at that row;
    the new sum is the factor times l(r) plus the lane sum of the weights, the new weighted sum at column h the factor
    times a(r, h) plus the contraction over the 512 keys of the weights against the value tile's column h (a change of
    float format is the identity on the extended reals).

  These are the three components of `Cert.Attn.step` on the lane scores and the value column, from the state
  (m(r), l(r), a(r, h)). The stored quotient at (r, h) is the ideal division of the weighted sum there by the sum's
  column at row r, and the reset values are ⊥, 0 and 0.
-/
import proofs.«150159_j62277025792152_2_alg».proof.Proof.IdealAttnPieces
import proofs.«150159_j62277025792152_2_alg».proof.Proof.IdealAttnLayout
import proofs.«150159_j62277025792152_2_alg».proof.Proof.OnlineSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Frm

open Cert.KernelIdeal Cert.KernelIdeal.Gen Cert.Attn
open Idealize.ShloMosaic Idealize.ShloMosaic.ValueIdx
open scoped BigOperators

/-! ## The body's pieces at an element -/

section Pieces
variable (x0 : Vec Ideal S1024x1024 .bf16) (x1 x2 : Vec Ideal S512x1024 .bf16) (m l : Vec Ideal S1024x1 .f32)
  (a : Vec Ideal S1024x1024 .f32)

/-- Lane b's scaled score in row r. -/
theorem scores_at (r : Fin 1024) (b : Fin 512) :
    k3_pay7 (F := Ideal) x0 x1 (ix2 r b)
      = ∑ d : Fin 1024, (x0 (ix2 r d) * Ideal.ofBits .bf16 0x3D00#16) * x1 (ix2 b d) := by
  unfold k3_pay7
  try dsimp only
  refine (dotQK_apply _ _ r b).trans ?_
  refine Finset.sum_congr rfl fun d _ => ?_
  refine congrArg₂ (fun x y : EReal => x * y) ?_ ?_
  · rw [shapeCast_self]; rfl
  · refine (transpose_ix2_apply _ _ d b).trans ?_
    rw [shapeCast_self]

/-- The new maximum of row r. -/
theorem max_at (r : Fin 1024) :
    k3_pay8 (F := Ideal) x0 x1 m (ix2 r (0 : Fin 1)) = (max (m (ix2 r (0 : Fin 1))) (tileMax (fun b : Fin 512 => ∑ d : Fin 1024, (x0 (ix2 r d) * Ideal.ofBits .bf16 0x3D00#16) * x1 (ix2 b d)))) := by
  unfold k3_pay8
  try dsimp only
  refine congrArg (max (m (ix2 r (0 : Fin 1)))) ?_
  refine (shapeCast_a_a1_apply _ _ r 0).trans ?_
  refine (laneMax_apply _ r).trans ?_
  exact congrArg tileMax (funext fun b => scores_at x0 x1 r b)

/-- The rescaling factor of row r, from a column m' of old maxima. -/
theorem factor_at (m' : Vec Ideal S1024x1 .f32) (r : Fin 1024) :
    k3_pay9 (F := Ideal) x0 x1 m m' (ix2 r (0 : Fin 1)) = Ideal.exp (m' (ix2 r (0 : Fin 1)) - (max (m (ix2 r (0 : Fin 1))) (tileMax (fun b : Fin 512 => ∑ d : Fin 1024, (x0 (ix2 r d) * Ideal.ofBits .bf16 0x3D00#16) * x1 (ix2 b d))))) := by
  unfold k3_pay9
  try dsimp only
  show Ideal.exp (m' (ix2 r (0 : Fin 1)) - k3_pay8 (F := Ideal) x0 x1 m (ix2 r (0 : Fin 1))) = _
  rw [max_at]

/-- Lane b's weight in row r. -/
theorem weight_at (r : Fin 1024) (b : Fin 512) :
    k3_pay10 (F := Ideal) x0 x1 m (ix2 r b)
      = Ideal.exp ((∑ d : Fin 1024, (x0 (ix2 r d) * Ideal.ofBits .bf16 0x3D00#16) * x1 (ix2 b d)) - (max (m (ix2 r (0 : Fin 1))) (tileMax (fun b : Fin 512 => ∑ d : Fin 1024, (x0 (ix2 r d) * Ideal.ofBits .bf16 0x3D00#16) * x1 (ix2 b d))))) := by
  unfold k3_pay10
  try dsimp only
  show Ideal.exp (k3_pay7 (F := Ideal) x0 x1 (ix2 r b)
    - broadcastTo S1024x512 (k3_pay8 (F := Ideal) x0 x1 m) _ (ix2 r b)) = _
  rw [broadcastTo_a1_ab_apply, max_at, scores_at]

end Pieces

/-! ## One key tile is one step of the recurrence -/

section Step
variable (x0 : Vec Ideal S1024x1024 .bf16) (x1 x2 : Vec Ideal S512x1024 .bf16) (m l : Vec Ideal S1024x1 .f32)
  (a : Vec Ideal S1024x1024 .f32)

/-- The new maximum at row r is the step's first component. -/
theorem newMax_at (r h : Fin 1024) :
    newMax (F := Ideal) x0 x1 m (ix2 r (0 : Fin 1))
      = (step (fun b : Fin 512 => ∑ d : Fin 1024, (x0 (ix2 r d) * Ideal.ofBits .bf16 0x3D00#16) * x1 (ix2 b d)) (fun b : Fin 512 => x2 (ix2 b h)) (m (ix2 r (0 : Fin 1)), l (ix2 r (0 : Fin 1)), a (ix2 r h))).1 := by
  unfold newMax k3_pay2
  try dsimp only
  rw [shapeCast_self]
  exact max_at x0 x1 m r

/-- The new sum at row r is the step's second component. -/
theorem newSum_at (r h : Fin 1024) :
    newSum (F := Ideal) x0 x1 m l (ix2 r (0 : Fin 1))
      = (step (fun b : Fin 512 => ∑ d : Fin 1024, (x0 (ix2 r d) * Ideal.ofBits .bf16 0x3D00#16) * x1 (ix2 b d)) (fun b : Fin 512 => x2 (ix2 b h)) (m (ix2 r (0 : Fin 1)), l (ix2 r (0 : Fin 1)), a (ix2 r h))).2.1 := by
  unfold newSum k3_pay11
  try dsimp only
  rw [shapeCast_self]
  show k3_pay9 (F := Ideal) x0 x1 m m (ix2 r (0 : Fin 1)) * l (ix2 r (0 : Fin 1))
      + shapeCast S1024x1 (multiReduction (F := Ideal) .add [1] S1024 (k3_pay10 (F := Ideal) x0 x1 m) 0x00000000#32
          Facts₀.reduces_S1024x512_S1024 (.inl rfl) rfl) _ (ix2 r (0 : Fin 1)) = _
  rw [factor_at, shapeCast_a_a1_apply, laneSum_apply]
  simp only [weight_at]
  show _ = Ideal.exp (m (ix2 r (0 : Fin 1)) - (max (m (ix2 r (0 : Fin 1))) (tileMax (fun b : Fin 512 => ∑ d : Fin 1024, (x0 (ix2 r d) * Ideal.ofBits .bf16 0x3D00#16) * x1 (ix2 b d))))) * l (ix2 r (0 : Fin 1))
      + (0 + ∑ b : Fin 512, Ideal.exp ((∑ d : Fin 1024, (x0 (ix2 r d) * Ideal.ofBits .bf16 0x3D00#16) * x1 (ix2 b d)) - (max (m (ix2 r (0 : Fin 1))) (tileMax (fun b : Fin 512 => ∑ d : Fin 1024, (x0 (ix2 r d) * Ideal.ofBits .bf16 0x3D00#16) * x1 (ix2 b d))))))
  rw [zero_add]

/-- The new weighted sum at (r, h) is the step's third component. -/
theorem newAcc_at (r h : Fin 1024) :
    newAcc (F := Ideal) x0 x1 x2 m a (ix2 r h)
      = (step (fun b : Fin 512 => ∑ d : Fin 1024, (x0 (ix2 r d) * Ideal.ofBits .bf16 0x3D00#16) * x1 (ix2 b d)) (fun b : Fin 512 => x2 (ix2 b h)) (m (ix2 r (0 : Fin 1)), l (ix2 r (0 : Fin 1)), a (ix2 r h))).2.2 := by
  unfold newAcc k3_pay1 k3_pay12 k3_pay13
  try dsimp only
  simp only [shapeCast_self]
  show broadcastTo S1024x1024 (k3_pay9 (F := Ideal) x0 x1 m m) _ (ix2 r h) * a (ix2 r h)
      + FloatOps.matmul dot_S1024x512_S512x1024_S1024x1024_1_0_0_1_n_n none
          (truncf .bf16 (k3_pay10 (F := Ideal) x0 x1 m) _) x2 (constant (F := Ideal) S1024x1024 .f32 0x00000000#32) (ix2 r h) = _
  rw [broadcastTo_a1_ab_apply, factor_at, dotPV_apply]
  simp only [truncf_apply, weight_at]
  rfl

end Step

/-! ## The stored quotient and the reset values -/

/-- The stored quotient at (r, h): the weighted sum there divided by the sum's column at row r. -/
theorem quot_at (A : Vec Ideal S1024x1024 .f32) (Lc : Vec Ideal S1024x1 .f32) (r h : Fin 1024) :
    k3_pay3 (F := Ideal) A Lc (ix2 r h) = Ideal.div (A (ix2 r h)) (Lc (ix2 r (0 : Fin 1))) := by
  unfold k3_pay3
  try dsimp only
  show Ideal.div (A (ix2 r h)) (broadcastTo S1024x1024 Lc _ (ix2 r h)) = _
  rw [broadcastTo_a1_ab_apply]

/-- The maximum's reset value is -∞. -/
theorem reset_max_at (r : Fin 1024) : k3_pay4 (F := Ideal) (ix2 r (0 : Fin 1)) = ⊥ := by
  unfold k3_pay4
  try dsimp only
  rw [shapeCast_self]
  exact negInf_f32

/-- The sum's reset value is 0. -/
theorem reset_sum_at (r : Fin 1024) : k3_pay5 (F := Ideal) (ix2 r (0 : Fin 1)) = 0 := by
  unfold k3_pay5
  try dsimp only
  rw [shapeCast_self]
  exact zero_f32

/-- The weighted sum's reset value is 0. -/
theorem reset_acc_at (r h : Fin 1024) : k3_pay6 (F := Ideal) (ix2 r h) = 0 := by
  unfold k3_pay6
  try dsimp only
  rw [shapeCast_self]
  exact zero_f32

end Cert.KernelIdeal.Frm

end
-- ==== Proof.SpecReal.lean ====
/-
  THE SPECIFICATION MEETS THE ONLINE-SOFTMAX LAW.

  The specification through its three projected arrays. `projArr x W b` is the projection x·W + b as a [4096, 1024]
  array; `scoreP` and `attnP` are the scaled score and the attention output written over three such arrays Qp, Kp, Vp
  alone, a row being a reference row over the 4096 keys (`refOut`: the row's maximum from -∞ and once more against -∞,
  the exponentials, the normaliser 0 + Σ, the quotients against column h of Vp). The specification at (i, h) is
  `attnP` of the three projections (`G_eq_attnP`): only the f32 words of -∞ and 0 are read as ⊥ and 0.

  Real entries. When Qp and Kp have real entries the score of (i, j) is a real: √1024.0 = 32, and the contraction of
  two real rows divided by 32 is a real. The same score is the contraction with the query row's factors scaled by the
  bf16 constant 1/32 FIRST, (Qp·c)·Kp summed over the features — the form in which a kernel that folds the scale into
  the queries computes it — because a real factor moves across a finite sum of reals (`scoreP_eq_scaled`). A
  projection of real arrays has real entries (`projArr_real`).

  Assembled (`online_is_attnP`, `online_is_attn`): for real entries, if the 8 tiles of 512 lanes carry, at tile t and
  lane b, the scaled contraction of query row i against key row 512·t + b and the value Vp(512·t + b, h), then the
  online recurrence run over the 8 tiles ends with acc / l equal to the attention output at (i, h). The recurrence
  reads only the tiles it runs over (`run_congr`), so nothing is asked of tiles past the eighth.
-/
import proofs.«150159_j62277025792152_2_alg».proof.Proof.Spec
import proofs.«150159_j62277025792152_2_alg».proof.Proof.OnlineSoftmax

noncomputable section

namespace Cert.Attn

open Idealize.ShloMosaic Idealize.ShloMosaic.ValueIdx
open scoped BigOperators

/-! ## The recurrence reads only the tiles it has run over -/

theorem run_congr {B : ℕ} (s s' w w' : ℕ → Fin B → EReal) (n : ℕ) (hs : ∀ t < n, s t = s' t)
    (hw : ∀ t < n, w t = w' t) : run s w n = run s' w' n := by
  induction n with
  | zero => rfl
  | succ n ih =>
    rw [run_succ, run_succ, ih (fun t ht => hs t (Nat.lt_succ_of_lt ht)) (fun t ht => hw t (Nat.lt_succ_of_lt ht)),
      hs n (Nat.lt_succ_self n), hw n (Nat.lt_succ_self n)]

/-- A function of the 4096 keys laid out as tiles of 512 lanes (zero past the eighth tile). -/
def tiledKeys (f : Fin 4096 → ℝ) : ℕ → Fin 512 → ℝ :=
  fun t b => if ht : t < 8 then f (tileKey (⟨t, ht⟩, b)) else 0

theorem tiledKeys_of_lt (f : Fin 4096 → ℝ) (t : Fin 8) (b : Fin 512) : tiledKeys f t.val b = f (tileKey (t, b)) := by
  unfold tiledKeys; rw [dif_pos t.isLt]

/-! ## The specification over its three projected arrays -/

/-- The projection x·W + b as an array. -/
def projArr (x : SeqFeat.Idx → EReal) (W : Weight.Idx → EReal) (b : Bias.Idx → EReal) : SeqFeat.Idx → EReal :=
  fun idx => proj x W b (idx 0) (idx 1)

theorem projArr_ix2 (x : SeqFeat.Idx → EReal) (W : Weight.Idx → EReal) (b : Bias.Idx → EReal) (i : Fin 4096)
    (d : Fin 1024) : projArr x W b (ix2 i d) = proj x W b i d := rfl

/-- The scaled score of query row i of Qp against key row j of Kp. -/
def scoreP (Qp Kp : SeqFeat.Idx → EReal) (i j : Fin 4096) : EReal :=
  Ideal.div (∑ d : Fin 1024, Qp (ix2 i d) * Kp (ix2 j d)) (Ideal.sqrt (Ideal.ofBits .f32 0x44800000#32))

/-- The attention output at (i, h) over the projected arrays: row i's scores as a reference row against column h of Vp. -/
def attnP (Qp Kp Vp : SeqFeat.Idx → EReal) (i : Fin 4096) (h : Fin 1024) : EReal :=
  refOut (fun j => scoreP Qp Kp i j) (fun j => Vp (ix2 j h))

section Row
variable (q k v : SeqFeat.Idx → EReal) (Wq : Weight.Idx → EReal) (bq : Bias.Idx → EReal) (Wk : Weight.Idx → EReal)
  (bk : Bias.Idx → EReal) (Wv : Weight.Idx → EReal) (bv : Bias.Idx → EReal)

theorem score_eq_scoreP (i j : Fin 4096) :
    score q k Wq bq Wk bk i j = scoreP (projArr q Wq bq) (projArr k Wk bk) i j := rfl

theorem rowMax_eq_refMax (i : Fin 4096) :
    rowMax q k Wq bq Wk bk i = refMax (fun j => score q k Wq bq Wk bk i j) := by
  unfold rowMax refMax; rw [negInf_f32]

theorem rowSum_eq_refSum (i : Fin 4096) :
    rowSum q k Wq bq Wk bk i = refSum (fun j => score q k Wq bq Wk bk i j) := by
  unfold rowSum refSum expScore; rw [zero_f32]; simp only [rowMax_eq_refMax]

theorem attn_eq_refOut (i : Fin 4096) (h : Fin 1024) :
    attn q k v Wq bq Wk bk Wv bv i h = refOut (fun j => score q k Wq bq Wk bk i j) (fun j => proj v Wv bv j h) := by
  unfold attn refOut expScore; simp only [rowSum_eq_refSum, rowMax_eq_refMax]

/-- The specification at (i, h) is the attention output over the three projections. -/
theorem attn_eq_attnP (i : Fin 4096) (h : Fin 1024) :
    attn q k v Wq bq Wk bk Wv bv i h = attnP (projArr q Wq bq) (projArr k Wk bk) (projArr v Wv bv) i h :=
  attn_eq_refOut q k v Wq bq Wk bk Wv bv i h

/-- The same, of the result array at the index built from (i, h). -/
theorem G_eq_attnP (i : Fin 4096) (h : Fin 1024) :
    G q k v Wq bq Wk bk Wv bv (ix2 i h) = attnP (projArr q Wq bq) (projArr k Wk bk) (projArr v Wv bv) i h :=
  attn_eq_refOut q k v Wq bq Wk bk Wv bv i h

end Row

/-! ## Real entries -/

/-- A projection of real arrays has real entries. -/
theorem projArr_real (x : SeqFeat.Idx → EReal) (W : Weight.Idx → EReal) (b : Bias.Idx → EReal)
    (hx : ∀ i, ∃ r : ℝ, x i = (r : EReal)) (hW : ∀ i, ∃ r : ℝ, W i = (r : EReal)) (hb : ∀ i, ∃ r : ℝ, b i = (r : EReal)) :
    ∀ idx, ∃ r : ℝ, projArr x W b idx = (r : EReal) := by
  choose xr hxr using hx
  choose Wr hWr using hW
  choose br hbr using hb
  intro idx
  refine ⟨(∑ k : Fin 1024, xr (ix2 (idx 0) k) * Wr (ix2 k (idx 1))) + br (ix1 (idx 1)), ?_⟩
  unfold projArr proj
  simp only [hxr, hWr, hbr, ← EReal.coe_mul]
  rw [← coe_sum, ← EReal.coe_add]

section Score
variable (Qp Kp : SeqFeat.Idx → EReal) (Qr Kr : SeqFeat.Idx → ℝ)
  (hQ : ∀ idx, Qp idx = (Qr idx : EReal)) (hK : ∀ idx, Kp idx = (Kr idx : EReal))
include hQ hK

/-- With real entries the score is the real contraction times 1/32. -/
theorem scoreP_real (i j : Fin 4096) :
    scoreP Qp Kp i j = (((∑ d : Fin 1024, Qr (ix2 i d) * Kr (ix2 j d)) * (1 / 32) : ℝ) : EReal) := by
  unfold scoreP
  rw [sqrt_f32_1024, div_32]
  simp only [hQ, hK, ← EReal.coe_mul]
  rw [← coe_sum, ← EReal.coe_mul]

/-- With real entries the score is the contraction with the query's factors scaled by the bf16 word of 1/32 first. -/
theorem scoreP_eq_scaled (i j : Fin 4096) :
    scoreP Qp Kp i j = ∑ d : Fin 1024, (Qp (ix2 i d) * Ideal.ofBits .bf16 0x3D00#16) * Kp (ix2 j d) := by
  unfold scoreP
  rw [sqrt_f32_1024, bf16_inv32]
  simp only [hQ, hK]
  exact (scaled_dot (fun d => Qr (ix2 i d)) (fun d => Kr (ix2 j d))).symm

end Score

/-! ## Assembled -/

/-- Over projected arrays with real entries: the online recurrence over the 8 tiles of 512 keys, fed the scaled
    contraction of query row i against key row 512·t + b and the value Vp(512·t + b, h), ends with acc / l equal to
    the attention output at (i, h). -/
theorem online_is_attnP (Qp Kp Vp : SeqFeat.Idx → EReal)
    (hQ : ∀ idx, ∃ r : ℝ, Qp idx = (r : EReal)) (hK : ∀ idx, ∃ r : ℝ, Kp idx = (r : EReal))
    (hV : ∀ idx, ∃ r : ℝ, Vp idx = (r : EReal))
    (i : Fin 4096) (h : Fin 1024) (S W : ℕ → Fin 512 → EReal)
    (hS : ∀ (t : Fin 8) (b : Fin 512), S t.val b
      = ∑ d : Fin 1024, (Qp (ix2 i d) * Ideal.ofBits .bf16 0x3D00#16) * Kp (ix2 (tileKey (t, b)) d))
    (hW : ∀ (t : Fin 8) (b : Fin 512), W t.val b = Vp (ix2 (tileKey (t, b)) h)) :
    Ideal.div (run S W 8).2.2 (run S W 8).2.1 = attnP Qp Kp Vp i h := by
  choose Qr hQr using hQ
  choose Kr hKr using hK
  choose Vr hVr using hV
  have hσ : ∀ j, scoreP Qp Kp i j = (((∑ d : Fin 1024, Qr (ix2 i d) * Kr (ix2 j d)) * (1 / 32) : ℝ) : EReal) :=
    fun j => scoreP_real Qp Kp Qr Kr hQr hKr i j
  have e1 : run S W 8
      = run (fun t b => (tiledKeys (fun j => (∑ d : Fin 1024, Qr (ix2 i d) * Kr (ix2 j d)) * (1 / 32)) t b : EReal))
          (fun t b => (tiledKeys (fun j => Vr (ix2 j h)) t b : EReal)) 8 :=
    run_congr _ _ _ _ 8
      (fun t ht => funext fun b => (hS ⟨t, ht⟩ b).trans (by
        rw [← scoreP_eq_scaled Qp Kp Qr Kr hQr hKr i (tileKey (⟨t, ht⟩, b)), hσ,
          ← tiledKeys_of_lt (fun j => (∑ d : Fin 1024, Qr (ix2 i d) * Kr (ix2 j d)) * (1 / 32)) ⟨t, ht⟩ b]))
      (fun t ht => funext fun b => (hW ⟨t, ht⟩ b).trans (by
        rw [hVr, ← tiledKeys_of_lt (fun j => Vr (ix2 j h)) ⟨t, ht⟩ b]))
  rw [e1]
  unfold attnP
  simp only [hσ, hVr]
  exact online_eq_ref (by norm_num) (by norm_num) tileKey
    (fun j => (∑ d : Fin 1024, Qr (ix2 i d) * Kr (ix2 j d)) * (1 / 32)) (fun j => Vr (ix2 j h))
    _ _ (tiledKeys_of_lt _) (tiledKeys_of_lt _)

/-- For real inputs: the same over the projections of the nine argument arrays, concluding the specification. -/
theorem online_is_attn (q k v : SeqFeat.Idx → EReal) (Wq : Weight.Idx → EReal) (bq : Bias.Idx → EReal)
    (Wk : Weight.Idx → EReal) (bk : Bias.Idx → EReal) (Wv : Weight.Idx → EReal) (bv : Bias.Idx → EReal)
    (hfin : (∀ i, ∃ r : ℝ, q i = (r : EReal)) ∧ (∀ i, ∃ r : ℝ, k i = (r : EReal)) ∧ (∀ i, ∃ r : ℝ, v i = (r : EReal))
      ∧ (∀ i, ∃ r : ℝ, Wq i = (r : EReal)) ∧ (∀ i, ∃ r : ℝ, bq i = (r : EReal)) ∧ (∀ i, ∃ r : ℝ, Wk i = (r : EReal))
      ∧ (∀ i, ∃ r : ℝ, bk i = (r : EReal)) ∧ (∀ i, ∃ r : ℝ, Wv i = (r : EReal)) ∧ (∀ i, ∃ r : ℝ, bv i = (r : EReal)))
    (i : Fin 4096) (h : Fin 1024) (S W : ℕ → Fin 512 → EReal)
    (hS : ∀ (t : Fin 8) (b : Fin 512), S t.val b
      = ∑ d : Fin 1024, (proj q Wq bq i d * Ideal.ofBits .bf16 0x3D00#16) * proj k Wk bk (tileKey (t, b)) d)
    (hW : ∀ (t : Fin 8) (b : Fin 512), W t.val b = proj v Wv bv (tileKey (t, b)) h) :
    Ideal.div (run S W 8).2.2 (run S W 8).2.1 = attn q k v Wq bq Wk bk Wv bv i h := by
  obtain ⟨hq, hk, hv, hWq, hbq, hWk, hbk, hWv, hbv⟩ := hfin
  rw [attn_eq_attnP]
  exact online_is_attnP (projArr q Wq bq) (projArr k Wk bk) (projArr v Wv bv)
    (projArr_real q Wq bq hq hWq hbq) (projArr_real k Wk bk hk hWk hbk) (projArr_real v Wv bv hv hWv hbv)
    i h S W hS hW

end Cert.Attn

end
-- ==== Proof.IdealAttnValue.lean ====
/-
  The attention call's result array over the extended reals. For a query row i and an output column h, let S t b be the
  scaled score of row i against key 512·t + b and W t b the value entry of that key in column h. By induction on the
  grid point: after key tile kv of the query tile holding row i, the three kept buffers hold, at that row (and column),
  exactly the online-softmax state after kv + 1 tiles of (S, W). So the block stored at the last key tile is the
  quotient of the state after all eight tiles, which on real entries is the softmax-weighted sum of the value column;
  and the four stored blocks cover the result array.
-/
import proofs.«150159_j62277025792152_2_alg».proof.Proof.IdealAttnBlocks
import proofs.«150159_j62277025792152_2_alg».proof.Proof.IdealAttnAt
import proofs.«150159_j62277025792152_2_alg».proof.Proof.SpecReal
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx Cert.Attn

variable (V : (c : Dev nD) → (b : Ref sig .tc) → Buf (Elt Ideal) ((c : Thread nD τ).loc b)) (c : Dev nD)

/-- The scaled scores of query row `i`, by key tile and position in the tile (zero past the eighth tile). -/
def tileScores (Qp Kp : SeqFeat.Idx → EReal) (i : Fin 4096) : ℕ → Fin 512 → EReal := fun t b =>
  if ht : t < 8 then ∑ d : Fin 1024, (Qp (ix2 i d) * Ideal.ofBits .bf16 0x3D00#16) * Kp (ix2 (tileKey (⟨t, ht⟩, b)) d) else 0
/-- The value entries of column `h`, by key tile and position in the tile. -/
def tileVals (Vp : SeqFeat.Idx → EReal) (h : Fin 1024) : ℕ → Fin 512 → EReal := fun t b =>
  if ht : t < 8 then Vp (ix2 (tileKey (⟨t, ht⟩, b)) h) else 0

theorem tileKey_rowK (t : Fin cfg3.N) (b : Fin 512) : tileKey (⟨t.val % 8, Nat.mod_lt _ (by decide)⟩, b) = rowK t b :=
  Fin.ext (by rw [tileKey_val]; rfl)

/-- The three kept buffers after point `n`, read at query-block row `r` (and column `h`). -/
def keptAt (n : ℕ) (hn : n < cfg3.N) (r h : Fin 1024) : EReal × EReal × EReal :=
  ((outsAt3 V c n hn).2.1 (ix2 r (0 : Fin 1)), (outsAt3 V c n hn).2.2.1 (ix2 r (0 : Fin 1)), (outsAt3 V c n hn).2.2.2 (ix2 r h))

/-- One key tile folded in, read at a row and a column: one online-softmax step on the tile's scores of that row and the
    tile's values of that column. -/
theorem fold_at (x0 : Vec Ideal S1024x1024 .bf16) (x1 x2 : Vec Ideal S512x1024 .bf16)
    (s : Vec Ideal S1024x1 .f32 × Vec Ideal S1024x1 .f32 × Vec Ideal S1024x1024 .f32) (r h : Fin 1024) :
    ((foldTile x0 x1 x2 s).1 (ix2 r (0 : Fin 1)), (foldTile x0 x1 x2 s).2.1 (ix2 r (0 : Fin 1)), (foldTile x0 x1 x2 s).2.2 (ix2 r h))
      = step (fun b : Fin 512 => ∑ d : Fin 1024, (x0 (ix2 r d) * Ideal.ofBits .bf16 0x3D00#16) * x1 (ix2 b d)) (fun b : Fin 512 => x2 (ix2 b h))
          (s.1 (ix2 r (0 : Fin 1)), s.2.1 (ix2 r (0 : Fin 1)), s.2.2 (ix2 r h)) := by
  unfold foldTile
  dsimp only
  rw [newMax_at x0 x1 x2 s.1 s.2.1 s.2.2 r h, newSum_at x0 x1 x2 s.1 s.2.1 s.2.2 r h, newAcc_at x0 x1 x2 s.1 s.2.1 s.2.2 r h]

/-- A query block's row against a key block, when the blocks are the stated rows of the projected arrays: the tile's
    scaled scores. -/
theorem scores_of_blocks (x0 : Vec Ideal S1024x1024 .bf16) (x1 : Vec Ideal S512x1024 .bf16) (Qp Kp : SeqFeat.Idx → EReal)
    (r : Fin 1024) (i : Fin 4096) (k : ℕ) (hk : k < 8) (hx0 : ∀ d, x0 (ix2 r d) = Qp (ix2 i d))
    (hx1 : ∀ b d, x1 (ix2 b d) = Kp (ix2 (tileKey (⟨k, hk⟩, b)) d)) :
    (fun b : Fin 512 => ∑ d : Fin 1024, (x0 (ix2 r d) * Ideal.ofBits .bf16 0x3D00#16) * x1 (ix2 b d)) = tileScores Qp Kp i k := by
  funext b
  unfold tileScores
  rw [dif_pos hk]
  exact Finset.sum_congr rfl fun d _ => by rw [hx0, hx1]

theorem vals_of_blocks (x2 : Vec Ideal S512x1024 .bf16) (Vp : SeqFeat.Idx → EReal) (h : Fin 1024) (k : ℕ) (hk : k < 8)
    (hx2 : ∀ b, x2 (ix2 b h) = Vp (ix2 (tileKey (⟨k, hk⟩, b)) h)) :
    (fun b : Fin 512 => x2 (ix2 b h)) = tileVals Vp h k := by
  funext b
  unfold tileVals
  rw [dif_pos hk, hx2]

/-- One point, read at a row and a column: one online-softmax step on the point's tile of scores and values. -/
theorem keptAt_step (t : Fin cfg3.N) (r h : Fin 1024) :
    keptAt V c t.val t.isLt r h
      = step (tileScores (V c main_v1) (V c main_v3) (rowQ t r) (t.val % 8)) (tileVals (V c main_v5) h (t.val % 8))
          (if t.val % 8 = 0 then (⊥, 0, 0) else keptAt V c (t.val - 1) (Nat.lt_of_le_of_lt (Nat.sub_le _ _) t.isLt) r h) := by
  have hmod : t.val % 8 < 8 := Nat.mod_lt _ (by decide)
  unfold keptAt
  rw [kept_after V c t]
  refine (fold_at _ _ _ _ r h).trans ?_
  rw [scores_of_blocks _ _ (V c main_v1) (V c main_v3) r (rowQ t r) (t.val % 8) hmod (fun d => qblock_apply V c t r d)
      (fun b d => (kblock_apply V c t b d).trans (by rw [tileKey_rowK])),
    vals_of_blocks _ (V c main_v5) h (t.val % 8) hmod (fun b => (vblock_apply V c t b h).trans (by rw [tileKey_rowK]))]
  by_cases h0 : t.val % 8 = 0
  · rw [if_pos h0, if_pos h0]
    unfold resetVals
    dsimp only
    rw [reset_max_at, reset_sum_at, reset_acc_at]
  · rw [if_neg h0, if_neg h0]

/-- THE INVARIANT: after point `n` the kept buffers hold, at a row and a column, the online-softmax state after
    `n % 8 + 1` tiles of that row's scores and that column's values. -/
theorem keptAt_run : ∀ (n : ℕ) (hn : n < cfg3.N) (r h : Fin 1024),
    keptAt V c n hn r h = run (tileScores (V c main_v1) (V c main_v3) (rowQ ⟨n, hn⟩ r)) (tileVals (V c main_v5) h) (n % 8 + 1)
  | 0, hn, r, h => by
    rw [keptAt_step V c ⟨0, hn⟩ r h]
    show step _ _ (if (0 : ℕ) % 8 = 0 then (⊥, 0, 0) else _) = run _ _ (0 % 8 + 1)
    rw [if_pos (Nat.zero_mod 8)]
    rfl
  | n + 1, hn, r, h => by
    rw [keptAt_step V c ⟨n + 1, hn⟩ r h]
    by_cases h0 : (n + 1) % 8 = 0
    · show step (tileScores _ _ _ ((n + 1) % 8)) (tileVals _ _ ((n + 1) % 8)) (if (n + 1) % 8 = 0 then (⊥, 0, 0) else _) = run _ _ ((n + 1) % 8 + 1)
      rw [if_pos h0, h0]
      rfl
    · have ih := keptAt_run n (Nat.lt_of_succ_lt hn) r h
      have hq : rowQ ⟨n, Nat.lt_of_succ_lt hn⟩ r = rowQ ⟨n + 1, hn⟩ r := Fin.ext (by
        show 1024 * (n / 8) + r.val = 1024 * ((n + 1) / 8) + r.val
        have : n / 8 = (n + 1) / 8 := by omega
        rw [this])
      have hm : n % 8 + 1 = (n + 1) % 8 := by omega
      show step (tileScores _ _ _ ((n + 1) % 8)) (tileVals _ _ ((n + 1) % 8)) (if (n + 1) % 8 = 0 then (⊥, 0, 0) else keptAt V c n (Nat.lt_of_succ_lt hn) r h) = run _ _ ((n + 1) % 8 + 1)
      rw [if_neg h0, ih, hq, hm]
      exact (run_succ _ _ _).symm

/-- The result array as one function of the three projected arrays the call finds. -/
abbrev attnArr (Qp Kp Vp : SeqFeat.Idx → EReal) : SeqFeat.Idx → EReal := fun idx => attnP Qp Kp Vp (idx 0) (idx 1)

/-- What a write-back writes: the block of `attnArr`. -/
theorem flushed3_eq (hQ : ∀ idx, ∃ x : ℝ, V c main_v1 idx = (x : EReal)) (hK : ∀ idx, ∃ x : ℝ, V c main_v3 idx = (x : EReal))
    (hV : ∀ idx, ∃ x : ℝ, V c main_v5 idx = (x : EReal)) (t : Fin cfg3.N) (hf : (cfg3.win 3).flush t = true) :
    (dat3 (F := Ideal) V c).flushed 3 t = ((cfg3.win 3).blk t).view.read (Elt Ideal) (attnArr (V c main_v1) (V c main_v3) (V c main_v5)) := by
  have h7 : t.val % 8 = 7 := (flush3_3 t).mp hf
  show (cfg3.win 3).cut (grid3.coords t) ((dat3 (F := Ideal) V c).after 3 t) = _
  rw [after3_3, out_after V c t h7]
  funext j
  obtain ⟨r, h, rfl⟩ : ∃ (r h : Fin 1024), j = ix2 r h := ⟨j 0, j 1, eq_ix2 j⟩
  show k3_pay3 (F := Ideal) (outsAt3 V c t.val t.isLt).2.2.2 (outsAt3 V c t.val t.isLt).2.2.1 (ix2 r h) = attnArr (V c main_v1) (V c main_v3) (V c main_v5) (((cfg3.win 3).blk t).view.emb (ix2 r h))
  rw [quot_at, oblock_emb]
  have hrun := keptAt_run V c t.val t.isLt r h
  unfold keptAt at hrun
  rw [h7] at hrun
  have e1 : (outsAt3 V c t.val t.isLt).2.2.2 (ix2 r h) = (run (tileScores (V c main_v1) (V c main_v3) (rowQ t r)) (tileVals (V c main_v5) h) 8).2.2 := congrArg (fun p => p.2.2) hrun
  have e2 : (outsAt3 V c t.val t.isLt).2.2.1 (ix2 r (0 : Fin 1)) = (run (tileScores (V c main_v1) (V c main_v3) (rowQ t r)) (tileVals (V c main_v5) h) 8).2.1 := congrArg (fun p => p.2.1) hrun
  rw [e1, e2]
  exact online_is_attnP (V c main_v1) (V c main_v3) (V c main_v5) hQ hK hV (rowQ t r) h _ _
    (fun t' b => by unfold tileScores; rw [dif_pos t'.isLt])
    (fun t' b => by unfold tileVals; rw [dif_pos t'.isLt])

/-- THE RESULT ARRAY after the call: the attention of the three projected arrays, on real entries. -/
theorem attnValue (hQ : ∀ idx, ∃ x : ℝ, V c main_v1 idx = (x : EReal)) (hK : ∀ idx, ∃ x : ℝ, V c main_v3 idx = (x : EReal))
    (hV : ∀ idx, ∃ x : ℝ, V c main_v5 idx = (x : EReal)) :
    (dat3 (F := Ideal) V c).arrAt 3 cfg3.N = attnArr (V c main_v1) (V c main_v3) (V c main_v5) :=
  (dat3 (F := Ideal) V c).arrAt_eq_of_cover 3 (attnArr (V c main_v1) (V c main_v3) (V c main_v5))
    (fun t hf => flushed3_eq V c hQ hK hV t hf) (covered3)

end Cert.KernelIdeal.Frm

end
-- ==== Proof.FiniteInputs.lean ====
/-
  FINITE INPUTS ARE REAL INPUTS. The precondition says, of each of the nine argument arrays, that every entry's
  absolute value is below +∞ (an `and` over all entries of the comparison |x| < +∞, the nine results joined by
  `and`). On the extended reals |x| = max x (−x) is +∞ exactly at x = ±∞, so every entry of every array is the
  coercion of a real number.
-/
import proofs.«150159_j62277025792152_2_alg».proof.Pre_finite_inputs
import proofs.«150159_j62277025792152_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attn

open Idealize.ShloMosaic Idealize.ShloMosaic.ValueIdx

/-- An extended real whose absolute value is below the f32 word of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The scalar shape has one index. -/
instance scalarIdx_subsingleton : Subsingleton (⟨0, ![]⟩ : Shape).Idx := ⟨fun a b => funext fun d => d.elim0⟩

/-- An array all of whose entries pass |x| < +∞ (the `and` over every axis is 1) has real entries. -/
theorem real_of_all_finite {S : Shape} {axes : List (Fin S.rank)} (a : FVec Ideal S .f32)
    (hb : (⟨0, ![]⟩ : Shape).BroadcastsInDim S (![] : Fin 0 → Fin S.rank))
    (hred : S.ReducesTo axes (⟨0, ![]⟩ : Shape)) (hu : 0 < (⟨0, ![]⟩ : Shape).numel)
    (h : Host.reduce IntOp.andi
          (cmpf .olt (Host.absf a) (broadcastInDim S ![] hb (constant (F := Ideal) (⟨0, ![]⟩ : Shape) .f32 0x7F800000#32)))
          (constantI (⟨0, ![]⟩ : Shape) 1 1#1) hred hu ix0 = 1#1)
    (i : S.Idx) : ∃ r : ℝ, a i = (r : EReal) :=
  real_of_abs_lt_inf (a i) (Host.reduce_andi_all _ _ hred hu ix0 h i)

open Cert.Pre_finite_inputs in
/-- Under the precondition every entry of each of the nine argument arrays is a real. -/
theorem finite_inputs (a0 a1 a2 : FVec Ideal S4096x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 : FVec Ideal S1024 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ix0
  dsimp only [fn, fn_part1, fn_part2, Idealize.ShloMosaic.andi] at h0
  simp only [IntOp.andi_eq_one] at h0
  obtain ⟨⟨⟨⟨⟨⟨⟨⟨h3, h7⟩, h12⟩, h17⟩, h22⟩, h27⟩, h32⟩, h37⟩, h42⟩ := h0
  exact ⟨real_of_all_finite a0 _ _ _ h3, real_of_all_finite a1 _ _ _ h7, real_of_all_finite a2 _ _ _ h12,
    real_of_all_finite a3 _ _ _ h17, real_of_all_finite a4 _ _ _ h22, real_of_all_finite a5 _ _ _ h27,
    real_of_all_finite a6 _ _ _ h32, real_of_all_finite a7 _ _ _ h37, real_of_all_finite a8 _ _ _ h42⟩

end Cert.Attn

end
-- ==== Proof.IdealValue.lean ====
/-
  The idealized kernel program's result, as the specification of the launch arrays. Walking the boundaries of @main:
  each projection call finds its input matrix, its weight matrix and its bias (reshaped into a row by the host just
  before) as launched, so its output array is the projection `x·W + b` of launch arrays; the attention call finds
  those three outputs untouched; its own output is then the attention of the three projections, whose entries are real
  because the launch arrays' are (the precondition); and that is the specification, index by index.
-/
import proofs.«150159_j62277025792152_2_alg».proof.Defs
import proofs.«150159_j62277025792152_2_alg».proof.Proof.IdealRun
import proofs.«150159_j62277025792152_2_alg».proof.Proof.IdealProjValue0
import proofs.«150159_j62277025792152_2_alg».proof.Proof.IdealProjValue1
import proofs.«150159_j62277025792152_2_alg».proof.Proof.IdealProjValue2
import proofs.«150159_j62277025792152_2_alg».proof.Proof.IdealAttnValue
import proofs.«150159_j62277025792152_2_alg».proof.Proof.SpecReal
import proofs.«150159_j62277025792152_2_alg».proof.Proof.FiniteInputs
import Idealize.ShloMosaic.Lib.Pipeline.Value
import Idealize.ShloMosaic.Lib.StableHlo.Run
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

variable (m : (ℓ : Loc nD τ sig) → Buf (Elt Ideal) ℓ) (ρ : Dev nD → PrngReg)

/-! The launch arrays as each call finds them: no item before it writes them. -/

theorem Bd1_main_arg0 (c : Dev nD) : Bd1 m ρ c (Proc.devRef .tc main_arg0) = m ((c : Thread nD τ).loc main_arg0) :=
  calc Bd1 m ρ c (Proc.devRef .tc main_arg0)
    _ = Bd0 m ρ c (Proc.devRef .tc main_arg0) := StableHlo.after_of_writes_sub hostOps0 _ hostOps0_writes (by decide)
    _ = m ((c : Thread nD τ).loc main_arg0) := rfl
theorem At1_main_arg0 (c : Dev nD) : At1 m ρ c main_arg0 = m ((c : Thread nD τ).loc main_arg0) := Bd1_main_arg0 m ρ c
theorem Bd1_main_arg3 (c : Dev nD) : Bd1 m ρ c (Proc.devRef .tc main_arg3) = m ((c : Thread nD τ).loc main_arg3) :=
  calc Bd1 m ρ c (Proc.devRef .tc main_arg3)
    _ = Bd0 m ρ c (Proc.devRef .tc main_arg3) := StableHlo.after_of_writes_sub hostOps0 _ hostOps0_writes (by decide)
    _ = m ((c : Thread nD τ).loc main_arg3) := rfl
theorem At1_main_arg3 (c : Dev nD) : At1 m ρ c main_arg3 = m ((c : Thread nD τ).loc main_arg3) := Bd1_main_arg3 m ρ c
theorem Bd0_main_arg4 (c : Dev nD) : Bd0 m ρ c (Proc.devRef .tc main_arg4) = m ((c : Thread nD τ).loc main_arg4) :=
  calc Bd0 m ρ c (Proc.devRef .tc main_arg4)

    _ = m ((c : Thread nD τ).loc main_arg4) := rfl
theorem Bd3_main_arg1 (c : Dev nD) : Bd3 m ρ c (Proc.devRef .tc main_arg1) = m ((c : Thread nD τ).loc main_arg1) :=
  calc Bd3 m ρ c (Proc.devRef .tc main_arg1)
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl
theorem At3_main_arg1 (c : Dev nD) : At3 m ρ c main_arg1 = m ((c : Thread nD τ).loc main_arg1) := Bd3_main_arg1 m ρ c
theorem Bd3_main_arg5 (c : Dev nD) : Bd3 m ρ c (Proc.devRef .tc main_arg5) = m ((c : Thread nD τ).loc main_arg5) :=
  calc Bd3 m ρ c (Proc.devRef .tc main_arg5)
    _ = Bd2 m ρ c (Proc.devRef .tc main_arg5) := StableHlo.after_of_writes_sub hostOps1 _ hostOps1_writes (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (by decide)
    _ = m ((c : Thread nD τ).loc main_arg5) := rfl
theorem At3_main_arg5 (c : Dev nD) : At3 m ρ c main_arg5 = m ((c : Thread nD τ).loc main_arg5) := Bd3_main_arg5 m ρ c
theorem Bd2_main_arg6 (c : Dev nD) : Bd2 m ρ c (Proc.devRef .tc main_arg6) = m ((c : Thread nD τ).loc main_arg6) :=
  calc Bd2 m ρ c (Proc.devRef .tc main_arg6)
    _ = Bd1 m ρ c (Proc.devRef .tc main_arg6) := Bd2_of_ne m ρ c main_arg6 (by decide)
    _ = Bd0 m ρ c (Proc.devRef .tc main_arg6) := StableHlo.after_of_writes_sub hostOps0 _ hostOps0_writes (by decide)
    _ = m ((c : Thread nD τ).loc main_arg6) := rfl
theorem Bd5_main_arg2 (c : Dev nD) : Bd5 m ρ c (Proc.devRef .tc main_arg2) = m ((c : Thread nD τ).loc main_arg2) :=
  calc Bd5 m ρ c (Proc.devRef .tc main_arg2)
    _ = Bd4 m ρ c (Proc.devRef .tc main_arg2) := StableHlo.after_of_writes_sub hostOps2 _ hostOps2_writes (by decide)
    _ = Bd3 m ρ c (Proc.devRef .tc main_arg2) := Bd4_of_ne m ρ c main_arg2 (by decide)
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl
theorem At5_main_arg2 (c : Dev nD) : At5 m ρ c main_arg2 = m ((c : Thread nD τ).loc main_arg2) := Bd5_main_arg2 m ρ c
theorem Bd5_main_arg7 (c : Dev nD) : Bd5 m ρ c (Proc.devRef .tc main_arg7) = m ((c : Thread nD τ).loc main_arg7) :=
  calc Bd5 m ρ c (Proc.devRef .tc main_arg7)
    _ = Bd4 m ρ c (Proc.devRef .tc main_arg7) := StableHlo.after_of_writes_sub hostOps2 _ hostOps2_writes (by decide)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl
theorem At5_main_arg7 (c : Dev nD) : At5 m ρ c main_arg7 = m ((c : Thread nD τ).loc main_arg7) := Bd5_main_arg7 m ρ c
theorem Bd4_main_arg8 (c : Dev nD) : Bd4 m ρ c (Proc.devRef .tc main_arg8) = m ((c : Thread nD τ).loc main_arg8) :=
  calc Bd4 m ρ c (Proc.devRef .tc main_arg8)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl

/-! The bias row a projection call stages is the host's reshape of the bias vector. -/

theorem biasRow0 (c : Dev nD) (d : Fin 1024) :
    At1 m ρ c main_v0 (ix2 (0 : Fin 1) d) = m ((c : Thread nD τ).loc main_arg4) (ix1 d) := by
  show StableHlo.after (hostOps0 (F := Ideal)) (Bd0 m ρ c) (Proc.devRef .tc main_v0) (ix2 (0 : Fin 1) d) = _
  after_results
  show shapeCast S1x1024 (Bd0 m ρ c (Proc.devRef .tc main_arg4)) shapeCasts_S1024_S1x1024 (ix2 (0 : Fin 1) d) = _
  rw [Bd0_main_arg4]
  exact (shapeCast_addUnit_apply (![1024] : Fin 1 → Nat) _ shapeCasts_S1024_S1x1024 (ix2 (0 : Fin 1) d)).trans
    (congrArg _ (funext fun a => by match a with | ⟨0, _⟩ => rfl))
theorem biasRow1 (c : Dev nD) (d : Fin 1024) :
    At3 m ρ c main_v2 (ix2 (0 : Fin 1) d) = m ((c : Thread nD τ).loc main_arg6) (ix1 d) := by
  show StableHlo.after (hostOps1 (F := Ideal)) (Bd2 m ρ c) (Proc.devRef .tc main_v2) (ix2 (0 : Fin 1) d) = _
  after_results
  show shapeCast S1x1024 (Bd2 m ρ c (Proc.devRef .tc main_arg6)) shapeCasts_S1024_S1x1024 (ix2 (0 : Fin 1) d) = _
  rw [Bd2_main_arg6]
  exact (shapeCast_addUnit_apply (![1024] : Fin 1 → Nat) _ shapeCasts_S1024_S1x1024 (ix2 (0 : Fin 1) d)).trans
    (congrArg _ (funext fun a => by match a with | ⟨0, _⟩ => rfl))
theorem biasRow2 (c : Dev nD) (d : Fin 1024) :
    At5 m ρ c main_v4 (ix2 (0 : Fin 1) d) = m ((c : Thread nD τ).loc main_arg8) (ix1 d) := by
  show StableHlo.after (hostOps2 (F := Ideal)) (Bd4 m ρ c) (Proc.devRef .tc main_v4) (ix2 (0 : Fin 1) d) = _
  after_results
  show shapeCast S1x1024 (Bd4 m ρ c (Proc.devRef .tc main_arg8)) shapeCasts_S1024_S1x1024 (ix2 (0 : Fin 1) d) = _
  rw [Bd4_main_arg8]
  exact (shapeCast_addUnit_apply (![1024] : Fin 1 → Nat) _ shapeCasts_S1024_S1x1024 (ix2 (0 : Fin 1) d)).trans
    (congrArg _ (funext fun a => by match a with | ⟨0, _⟩ => rfl))

/-! Each projection call's output array is the projection of the launch arrays. -/

theorem projOut0 (c : Dev nD) :
    (dat0 (F := Ideal) (At1 m ρ) c).arrAt 3 cfg0.N
      = projArr (m ((c : Thread nD τ).loc main_arg0)) (m ((c : Thread nD τ).loc main_arg3)) (m ((c : Thread nD τ).loc main_arg4)) := by
  rw [projValue0 (At1 m ρ) c]
  funext idx
  obtain ⟨i, d, rfl⟩ : ∃ (i : Fin 4096) (d : Fin 1024), idx = ix2 i d := ⟨idx 0, idx 1, eq_ix2 idx⟩
  rw [linear0_ix2, biasRow0, At1_main_arg0, At1_main_arg3]
  rfl
theorem projOut1 (c : Dev nD) :
    (dat1 (F := Ideal) (At3 m ρ) c).arrAt 3 cfg1.N
      = projArr (m ((c : Thread nD τ).loc main_arg1)) (m ((c : Thread nD τ).loc main_arg5)) (m ((c : Thread nD τ).loc main_arg6)) := by
  rw [projValue1 (At3 m ρ) c]
  funext idx
  obtain ⟨i, d, rfl⟩ : ∃ (i : Fin 4096) (d : Fin 1024), idx = ix2 i d := ⟨idx 0, idx 1, eq_ix2 idx⟩
  rw [linear1_ix2, biasRow1, At3_main_arg1, At3_main_arg5]
  rfl
theorem projOut2 (c : Dev nD) :
    (dat2 (F := Ideal) (At5 m ρ) c).arrAt 3 cfg2.N
      = projArr (m ((c : Thread nD τ).loc main_arg2)) (m ((c : Thread nD τ).loc main_arg7)) (m ((c : Thread nD τ).loc main_arg8)) := by
  rw [projValue2 (At5 m ρ) c]
  funext idx
  obtain ⟨i, d, rfl⟩ : ∃ (i : Fin 4096) (d : Fin 1024), idx = ix2 i d := ⟨idx 0, idx 1, eq_ix2 idx⟩
  rw [linear2_ix2, biasRow2, At5_main_arg2, At5_main_arg7]
  rfl

/-! The attention call finds the three projections untouched. -/

theorem entryQ (c : Dev nD) : At6 m ρ c main_v1 = projArr (m ((c : Thread nD τ).loc main_arg0)) (m ((c : Thread nD τ).loc main_arg3)) (m ((c : Thread nD τ).loc main_arg4)) :=
  calc Bd6 m ρ c (Proc.devRef .tc main_v1)
    _ = Bd5 m ρ c (Proc.devRef .tc main_v1) := Bd6_of_ne m ρ c main_v1 (by decide)
    _ = Bd4 m ρ c (Proc.devRef .tc main_v1) := StableHlo.after_of_writes_sub hostOps2 _ hostOps2_writes (by decide)
    _ = Bd3 m ρ c (Proc.devRef .tc main_v1) := Bd4_of_ne m ρ c main_v1 (by decide)
    _ = Bd2 m ρ c (Proc.devRef .tc main_v1) := StableHlo.after_of_writes_sub hostOps1 _ hostOps1_writes (by decide)
    _ = (dat0 (F := Ideal) (At1 m ρ) c).arrAt 3 cfg0.N := Bd2_arr m ρ c 3
    _ = _ := projOut0 m ρ c
theorem entryK (c : Dev nD) : At6 m ρ c main_v3 = projArr (m ((c : Thread nD τ).loc main_arg1)) (m ((c : Thread nD τ).loc main_arg5)) (m ((c : Thread nD τ).loc main_arg6)) :=
  calc Bd6 m ρ c (Proc.devRef .tc main_v3)
    _ = Bd5 m ρ c (Proc.devRef .tc main_v3) := Bd6_of_ne m ρ c main_v3 (by decide)
    _ = Bd4 m ρ c (Proc.devRef .tc main_v3) := StableHlo.after_of_writes_sub hostOps2 _ hostOps2_writes (by decide)
    _ = (dat1 (F := Ideal) (At3 m ρ) c).arrAt 3 cfg1.N := Bd4_arr m ρ c 3
    _ = _ := projOut1 m ρ c
theorem entryV (c : Dev nD) : At6 m ρ c main_v5 = projArr (m ((c : Thread nD τ).loc main_arg2)) (m ((c : Thread nD τ).loc main_arg7)) (m ((c : Thread nD τ).loc main_arg8)) :=
  calc Bd6 m ρ c (Proc.devRef .tc main_v5)
    _ = (dat2 (F := Ideal) (At5 m ρ) c).arrAt 3 cfg2.N := Bd6_arr m ρ c 3
    _ = _ := projOut2 m ρ c

/-- THE RESULT: on finite launch arrays the array the attention call leaves is the specification of the launch arrays. -/
theorem result_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) :
    (dat3 (F := Ideal) (At6 m ρ) c).arrAt 3 cfg3.N
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨h0, h1, h2, h3, h4, h5, h6, h7, h8⟩ := finite_inputs _ _ _ _ _ _ _ _ _ hpre
  have hQ : ∀ idx, ∃ x : ℝ, At6 m ρ c main_v1 idx = (x : EReal) := by rw [entryQ]; exact projArr_real _ _ _ h0 h3 h4
  have hK : ∀ idx, ∃ x : ℝ, At6 m ρ c main_v3 idx = (x : EReal) := by rw [entryK]; exact projArr_real _ _ _ h1 h5 h6
  have hV : ∀ idx, ∃ x : ℝ, At6 m ρ c main_v5 idx = (x : EReal) := by rw [entryV]; exact projArr_real _ _ _ h2 h7 h8
  rw [attnValue (At6 m ρ) c hQ hK hV, entryQ, entryK, entryV]
  funext idx
  obtain ⟨i, h, rfl⟩ : ∃ (i : Fin 4096) (h : Fin 1024), idx = ix2 i h := ⟨idx 0, idx 1, eq_ix2 idx⟩
  exact (G_eq_attnP _ _ _ _ _ _ _ _ _ i h).symm

/-- THE RUN of the idealized kernel program, with the result named: on finite launch arrays the result array ends
    holding the specification of the launch arrays, and the arguments what they were launched with. -/
theorem value_run (hpre : Cert.Pre_KernelIdeal m) :
    θ_run defs (onTc (τ := τ) (main (F := Ideal))) ⟨m, fun _ => 0, ρ⟩ (fun r => ∀ c : Dev nD,
      r.2.mem ((c.tc : Thread nD τ).loc main_v6)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c (hpre c)), (h c).2⟩) (run_main m ρ)

end Cert.KernelIdeal.Frm

end
-- ==== Proof.lean ====
/-
  The claim: an attention kernel — three linear projections (queries, keys, values), then scaled-dot-product attention
  computed tile by tile with a running row maximum, row sum and weighted sum — equals its plain reference (the same
  projections, the scores divided by the square root of the width, a softmax along the keys, the weighted sum of value
  rows) over the extended reals, on finite inputs; and each of the three programs runs to the end without a fault and
  leaves its nine argument arrays as it found them.
  The kernel program's two readings (word level and idealized) have the same text, so their frames are one proof read
  in two namespaces: per pallas_call, what each window's staging buffer holds after the body at every grid point and
  that the body leaves exactly that; for the attention call also what its three kept buffers hold after every point;
  then the seven items of @main chained from the launch to the return. The idealization rewrote nothing, so the
  preservation conjunct is empty. The reference's frame is its run with the result dropped.
-/
import proofs.«150159_j62277025792152_2_alg».proof.Defs
import proofs.«150159_j62277025792152_2_alg».proof.Proof.Gen.Kernel
import proofs.«150159_j62277025792152_2_alg».proof.Proof.Gen.KernelIdeal
import proofs.«150159_j62277025792152_2_alg».proof.Proof.Gen.ReferenceIdeal
import proofs.«150159_j62277025792152_2_alg».proof.Proof.Gen.Pre_finite_inputs
import proofs.«150159_j62277025792152_2_alg».proof.Proof.BitsRun
import proofs.«150159_j62277025792152_2_alg».proof.Proof.IdealRun
import proofs.«150159_j62277025792152_2_alg».proof.Proof.RefSpec
import proofs.«150159_j62277025792152_2_alg».proof.Proof.IdealValue
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Frm.frame m ρ

/-- So does the idealized kernel program. -/
theorem frame_kernelIdeal : Cert.frame_KernelIdeal := fun m ρ _ => Cert.KernelIdeal.Frm.frame m ρ

/-- The idealization rewrote no operation: nothing to preserve. -/
theorem preserves : Cert.preserves_Kernel_KernelIdeal := trivial

/-- The two idealized programs, run from memories that agree on the arguments, end with equal results: each ends with
    its result array at the specification of its own arguments (the kernel's on finite arguments, by its value run; the
    reference's by reading its run one operation at a time), and the arguments agree. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Frm.value_run m ρ hpre, ?_⟩
  refine (θ_run Cert.ReferenceIdeal.defs _ _).mono (fun _ h c => ⟨(h c).1.trans ?_, (h c).2⟩) (Cert.Attn.ref_run m' ρ')
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, Cert.Attn.frame_ri, preserves, algebraic⟩

end Cert.Proof

end
